-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part3 {F : FTy → Type} [FloatOps F] (main_arg13 : FVec F S4x128 .f32) (main_arg14 : FVec F S4x128 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  main_v63

def fn_part2 {F : FTy → Type} [FloatOps F] (main_arg9 : FVec F S4x128x128 .f32) (main_arg10 : FVec F S4x128 .f32) (main_arg11 : FVec F S4x128x128 .f32) (main_arg12 : FVec F S4x128 .f32) (main_arg13 : FVec F S4x128 .f32) (main_arg14 : FVec F S4x128 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128x128 .f32 := Host.absf main_arg11
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_v48 main_v49 main_v50

def fn_part1 {F : FTy → Type} [FloatOps F] (main_arg6 : FVec F S128 .f32) (main_arg7 : FVec F S128 .f32) (main_arg8 : FVec F S128 .f32) (main_arg9 : FVec F S4x128x128 .f32) (main_arg10 : FVec F S4x128 .f32) (main_arg11 : FVec F S4x128x128 .f32) (main_arg12 : FVec F S4x128 .f32) (main_arg13 : FVec F S4x128 .f32) (main_arg14 : FVec F S4x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x9 .f32) (main_arg1 : IVec S2x1600000 32) (main_arg2 : IVec S100000 32) (main_arg3 : FVec F S9x128 .f32) (main_arg4 : FVec F S128 .f32) (main_arg5 : FVec F S128x128 .f32) (main_arg6 : FVec F S128 .f32) (main_arg7 : FVec F S128 .f32) (main_arg8 : FVec F S128 .f32) (main_arg9 : FVec F S4x128x128 .f32) (main_arg10 : FVec F S4x128 .f32) (main_arg11 : FVec F S4x128x128 .f32) (main_arg12 : FVec F S4x128 .f32) (main_arg13 : FVec F S4x128 .f32) (main_arg14 : FVec F S4x128 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x128 .f32 := Host.absf main_arg3
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S100000x128 : Shape := ⟨2, ![100000, 128]⟩
abbrev S5000x9 : Shape := ⟨2, ![5000, 9]⟩
abbrev S5000x128 : Shape := ⟨2, ![5000, 128]⟩
abbrev S1x128 : Shape := ⟨2, ![1, 128]⟩
abbrev S1x128x128 : Shape := ⟨3, ![1, 128, 128]⟩
abbrev S1600000x128 : Shape := ⟨2, ![1600000, 128]⟩

abbrev nBuf : Space → Nat
  | .hbm => 282
  | .vmem => 90
  | .smem => 0
  | _ => 0

abbrev hbmTy0_0 (i : Nat) : BufTy := match i % 128 with
  | 0 => ⟨S100000x9, .f32⟩
  | 1 => ⟨S2x1600000, .i32⟩
  | 2 => ⟨S100000, .i32⟩
  | 3 => ⟨S9x128, .f32⟩
  | 4 => ⟨S128, .f32⟩
  | 5 => ⟨S128x128, .f32⟩
  | 6 => ⟨S128, .f32⟩
  | 7 => ⟨S128, .f32⟩
  | 8 => ⟨S128, .f32⟩
  | 9 => ⟨S4x128x128, .f32⟩
  | 10 => ⟨S4x128, .f32⟩
  | 11 => ⟨S4x128x128, .f32⟩
  | 12 => ⟨S4x128, .f32⟩
  | 13 => ⟨S4x128, .f32⟩
  | 14 => ⟨S4x128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x9, .f32⟩
  | 28 => ⟨S_, .f32⟩
  | 29 => ⟨S100000x9, .f32⟩
  | 30 => ⟨S1600000x1, .i32⟩
  | 31 => ⟨S100000x9, .f32⟩
  | 32 => ⟨S100000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S100000x128, .f32⟩
  | 62 => ⟨S1x128x128, .f32⟩
  | 63 => ⟨S128x128, .f32⟩
  | 64 => ⟨S1x128, .f32⟩
  | 65 => ⟨S128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S100000x128, .f32⟩
  | 101 => ⟨S100000x128, .f32⟩
  | 102 => ⟨S100000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S100000x128, .f32⟩
  | 117 => ⟨S1x128x128, .f32⟩
  | 118 => ⟨S128x128, .f32⟩
  | 119 => ⟨S1x128, .f32⟩
  | 120 => ⟨S128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x9, .f32⟩

abbrev hbmTy0_1 (i : Nat) : BufTy := match i % 128 with
  | 0 => ⟨S128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S100000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S100000x128, .f32⟩
  | 28 => ⟨S100000x128, .f32⟩
  | 29 => ⟨S100000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S100000x128, .f32⟩
  | 44 => ⟨S1x128x128, .f32⟩
  | 45 => ⟨S128x128, .f32⟩
  | 46 => ⟨S1x128, .f32⟩
  | 47 => ⟨S128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S100000x128, .f32⟩
  | 125 => ⟨S_, .f32⟩
  | 126 => ⟨S128, .f32⟩
  | 127 => ⟨S_, .f32⟩
  | _ => ⟨S100000x9, .f32⟩

abbrev hbmTy0_2 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S100000x128, .f32⟩
  | _ => ⟨S100000x9, .f32⟩

abbrev hbmTy (i : Nat) : BufTy := match i / 128 with
  | 0 => hbmTy0_0 i
  | 1 => hbmTy0_1 i
  | 2 => hbmTy0_2 i
  | _ => ⟨S100000x9, .f32⟩

abbrev bufTy : (tb : Table) → Fin (tcTables nBuf tb) → BufTy
  | .hbm, ⟨i, _⟩ => hbmTy i
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S9x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128, .f32⟩
  | .local _ .vmem, ⟨42, _⟩ => ⟨S128x128, .f32⟩
  | .local _ .vmem, ⟨43, _⟩ => ⟨S128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S128, .f32⟩
  | .local _ .vmem, ⟨60, _⟩ => ⟨S128x128, .f32⟩
  | .local _ .vmem, ⟨61, _⟩ => ⟨S128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128, .f32⟩
  | .local _ .vmem, ⟨67, _⟩ => ⟨S128, .f32⟩
  | .local _ .vmem, ⟨68, _⟩ => ⟨S128, .f32⟩
  | .local _ .vmem, ⟨69, _⟩ => ⟨S128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S128x128, .f32⟩
  | .local _ .vmem, ⟨77, _⟩ => ⟨S128, .f32⟩
  | .local _ .vmem, ⟨78, _⟩ => ⟨S128x128, .f32⟩
  | .local _ .vmem, ⟨79, _⟩ => ⟨S128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S128, .f32⟩
  | .local _ .vmem, ⟨85, _⟩ => ⟨S128, .f32⟩
  | .local _ .vmem, ⟨86, _⟩ => ⟨S128, .f32⟩
  | .local _ .vmem, ⟨87, _⟩ => ⟨S128, .f32⟩
  | .local _ .vmem, ⟨88, _⟩ => ⟨S5000x128, .f32⟩
  | .local _ .vmem, ⟨89, _⟩ => ⟨S5000x128, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_4 : Ref sig .tc := ⟨.hbm, 74, rfl⟩
abbrev main_v32 : Ref sig .tc := ⟨.hbm, 75, rfl⟩
abbrev main_v33 : Ref sig .tc := ⟨.hbm, 76, rfl⟩
abbrev main_c_5 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_7 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_v45 : Ref sig .tc := ⟨.hbm, 92, rfl⟩
abbrev main_c_9 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_cst_3 : Ref sig .tc := ⟨.hbm, 110, rfl⟩
abbrev main_call1_v12 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_c_10 : Ref sig .tc := ⟨.hbm, 129, rfl⟩
abbrev main_v60 : Ref sig .tc := ⟨.hbm, 130, rfl⟩
abbrev main_v61 : Ref sig .tc := ⟨.hbm, 131, rfl⟩
abbrev main_c_11 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_12 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_13 : Ref sig .tc := ⟨.hbm, 143, rfl⟩
abbrev main_v71 : Ref sig .tc := ⟨.hbm, 144, rfl⟩
abbrev main_cst_14 : Ref sig .tc := ⟨.hbm, 145, rfl⟩
abbrev main_v72 : Ref sig .tc := ⟨.hbm, 146, rfl⟩
abbrev main_v73 : Ref sig .tc := ⟨.hbm, 147, rfl⟩
abbrev main_c_15 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_cst_0 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_v7 : Ref sig .tc := ⟨.hbm, 158, rfl⟩
abbrev main_call2_cst_1 : Ref sig .tc := ⟨.hbm, 159, rfl⟩
abbrev main_call2_v8 : Ref sig .tc := ⟨.hbm, 160, rfl⟩
abbrev main_call2_cst_2 : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_call2_cst_3 : Ref sig .tc := ⟨.hbm, 165, rfl⟩
abbrev main_call2_v12 : Ref sig .tc := ⟨.hbm, 166, rfl⟩
abbrev main_call2_cst_4 : Ref sig .tc := ⟨.hbm, 167, rfl⟩
abbrev main_call2_call0_v0 : Ref sig .tc := ⟨.hbm, 168, rfl⟩
abbrev main_call2_call0_v1 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_c_16 : Ref sig .tc := ⟨.hbm, 184, rfl⟩
abbrev main_v88 : Ref sig .tc := ⟨.hbm, 185, rfl⟩
abbrev main_v89 : Ref sig .tc := ⟨.hbm, 186, rfl⟩
abbrev main_c_17 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_18 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_cst_19 : Ref sig .tc := ⟨.hbm, 198, rfl⟩
abbrev main_v99 : Ref sig .tc := ⟨.hbm, 199, rfl⟩
abbrev main_cst_20 : Ref sig .tc := ⟨.hbm, 200, rfl⟩
abbrev main_v100 : Ref sig .tc := ⟨.hbm, 201, rfl⟩
abbrev main_v101 : Ref sig .tc := ⟨.hbm, 202, rfl⟩
abbrev main_c_21 : Ref sig .tc := ⟨.hbm, 203, rfl⟩
abbrev main_call3_cst : Ref sig .tc := ⟨.hbm, 204, rfl⟩
abbrev main_call3_v0 : Ref sig .tc := ⟨.hbm, 205, rfl⟩
abbrev main_call3_v1 : Ref sig .tc := ⟨.hbm, 206, rfl⟩
abbrev main_call3_cst_0 : Ref sig .tc := ⟨.hbm, 207, rfl⟩
abbrev main_call3_v2 : Ref sig .tc := ⟨.hbm, 208, rfl⟩
abbrev main_call3_v3 : Ref sig .tc := ⟨.hbm, 209, rfl⟩
abbrev main_call3_v4 : Ref sig .tc := ⟨.hbm, 210, rfl⟩
abbrev main_call3_v5 : Ref sig .tc := ⟨.hbm, 211, rfl⟩
abbrev main_call3_v6 : Ref sig .tc := ⟨.hbm, 212, rfl⟩
abbrev main_call3_v7 : Ref sig .tc := ⟨.hbm, 213, rfl⟩
abbrev main_call3_cst_1 : Ref sig .tc := ⟨.hbm, 214, rfl⟩
abbrev main_call3_v8 : Ref sig .tc := ⟨.hbm, 215, rfl⟩
abbrev main_call3_cst_2 : Ref sig .tc := ⟨.hbm, 216, rfl⟩
abbrev main_call3_v9 : Ref sig .tc := ⟨.hbm, 217, rfl⟩
abbrev main_call3_v10 : Ref sig .tc := ⟨.hbm, 218, rfl⟩
abbrev main_call3_v11 : Ref sig .tc := ⟨.hbm, 219, rfl⟩
abbrev main_call3_cst_3 : Ref sig .tc := ⟨.hbm, 220, rfl⟩
abbrev main_call3_v12 : Ref sig .tc := ⟨.hbm, 221, rfl⟩
abbrev main_call3_cst_4 : Ref sig .tc := ⟨.hbm, 222, rfl⟩
abbrev main_call3_call0_v0 : Ref sig .tc := ⟨.hbm, 223, rfl⟩
abbrev main_call3_call0_v1 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_c_22 : Ref sig .tc := ⟨.hbm, 239, rfl⟩
abbrev main_v116 : Ref sig .tc := ⟨.hbm, 240, rfl⟩
abbrev main_v117 : Ref sig .tc := ⟨.hbm, 241, rfl⟩
abbrev main_c_23 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_cst_24 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_cst_25 : Ref sig .tc := ⟨.hbm, 253, rfl⟩
abbrev main_v127 : Ref sig .tc := ⟨.hbm, 254, rfl⟩
abbrev main_cst_26 : Ref sig .tc := ⟨.hbm, 255, rfl⟩
abbrev main_v128 : Ref sig .tc := ⟨.hbm, 256, rfl⟩
abbrev main_v129 : Ref sig .tc := ⟨.hbm, 257, rfl⟩
abbrev main_c_27 : Ref sig .tc := ⟨.hbm, 258, rfl⟩
abbrev main_call4_cst : Ref sig .tc := ⟨.hbm, 259, rfl⟩
abbrev main_call4_v0 : Ref sig .tc := ⟨.hbm, 260, rfl⟩
abbrev main_call4_v1 : Ref sig .tc := ⟨.hbm, 261, rfl⟩
abbrev main_call4_cst_0 : Ref sig .tc := ⟨.hbm, 262, rfl⟩
abbrev main_call4_v2 : Ref sig .tc := ⟨.hbm, 263, rfl⟩
abbrev main_call4_v3 : Ref sig .tc := ⟨.hbm, 264, rfl⟩
abbrev main_call4_v4 : Ref sig .tc := ⟨.hbm, 265, rfl⟩
abbrev main_call4_v5 : Ref sig .tc := ⟨.hbm, 266, rfl⟩
abbrev main_call4_v6 : Ref sig .tc := ⟨.hbm, 267, rfl⟩
abbrev main_call4_v7 : Ref sig .tc := ⟨.hbm, 268, rfl⟩
abbrev main_call4_cst_1 : Ref sig .tc := ⟨.hbm, 269, rfl⟩
abbrev main_call4_v8 : Ref sig .tc := ⟨.hbm, 270, rfl⟩
abbrev main_call4_cst_2 : Ref sig .tc := ⟨.hbm, 271, rfl⟩
abbrev main_call4_v9 : Ref sig .tc := ⟨.hbm, 272, rfl⟩
abbrev main_call4_v10 : Ref sig .tc := ⟨.hbm, 273, rfl⟩
abbrev main_call4_v11 : Ref sig .tc := ⟨.hbm, 274, rfl⟩
abbrev main_call4_cst_3 : Ref sig .tc := ⟨.hbm, 275, rfl⟩
abbrev main_call4_v12 : Ref sig .tc := ⟨.hbm, 276, rfl⟩
abbrev main_call4_cst_4 : Ref sig .tc := ⟨.hbm, 277, rfl⟩
abbrev main_call4_call0_v0 : Ref sig .tc := ⟨.hbm, 278, rfl⟩
abbrev main_call4_call0_v1 : Ref sig .tc := ⟨.hbm, 279, rfl⟩
abbrev main_v130 : Ref sig .tc := ⟨.hbm, 280, rfl⟩
abbrev main_v131 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg6_0 : Ref sig .tc := ⟨.vmem, 80, rfl⟩
abbrev cc8_stg6_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem6_0 : DmaSem sig := 80
abbrev cc8_sem6_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S128_S128 : S128.ShapeCasts S128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S100000x128 : S_.BroadcastsInDim S100000x128 (![] : Fin 0 → Fin S100000x128.rank)
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S5000x9_S9x128_S5000x128_1_0_0_1_n_n_wf : DotDims.WF S5000x9 S9x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S100000x9.size a
  hwx0_1 : ∀ i : grid0.Coords, EltTy.bits .f32 = 32 ∨ (Rect.block (s := S100000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x128.size a ≤ S9x128.size a
  hwx0_2 : ∀ i : grid0.Coords, EltTy.bits .f32 = 32 ∨ (Rect.block (s := S9x128) S9x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128.size a ≤ S128.size a
  hwx6_5 : ∀ i : grid6.Coords, EltTy.bits .f32 = 32 ∨ (Rect.block (s := S128) S128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128.size a ≤ S128.size a
  hwx8_5 : ∀ i : grid8.Coords, EltTy.bits .f32 = 32 ∨ (Rect.block (s := S128) S128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128.size a ≤ S128.size a
  hwx9_1 : ∀ i : grid9.Coords, EltTy.bits .f32 = 32 ∨ (Rect.block (s := S128) S128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128.size a ≤ S128.size a
  hwx9_4 : ∀ i : grid9.Coords, EltTy.bits .f32 = 32 ∨ (Rect.block (s := S128) S128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S5000x9_S9x128_S5000x128_1_0_0_1_n_n : DotDims S5000x9 S9x128 S5000x128 where
  lhsContracting := [1]
  rhsContracting := [0]
  lhsNonContracting := [0]
  rhsNonContracting := [1]
  lhsBatch := []
  rhsBatch := []
  wf := dot_S5000x9_S9x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v13) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S9x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v98) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v98) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v125) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v107) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v109) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v126) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v126) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v130) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v113) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v115) S128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v131) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S100000 : Shape := ⟨1, ![100000]⟩
abbrev S9x128 : Shape := ⟨2, ![9, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S100000x128 : Shape := ⟨2, ![100000, 128]⟩
abbrev S1x128 : Shape := ⟨2, ![1, 128]⟩
abbrev S1x128x128 : Shape := ⟨3, ![1, 128, 128]⟩
abbrev S1600000x128 : Shape := ⟨2, ![1600000, 128]⟩

abbrev nBuf : Space → Nat
  | .hbm => 427
  | .vmem => 0
  | .smem => 0
  | _ => 0

abbrev hbmTy0_0 (i : Nat) : BufTy := match i % 128 with
  | 0 => ⟨S100000x9, .f32⟩
  | 1 => ⟨S2x1600000, .i32⟩
  | 2 => ⟨S100000, .i32⟩
  | 3 => ⟨S9x128, .f32⟩
  | 4 => ⟨S128, .f32⟩
  | 5 => ⟨S128x128, .f32⟩
  | 6 => ⟨S128, .f32⟩
  | 7 => ⟨S128, .f32⟩
  | 8 => ⟨S128, .f32⟩
  | 9 => ⟨S4x128x128, .f32⟩
  | 10 => ⟨S4x128, .f32⟩
  | 11 => ⟨S4x128x128, .f32⟩
  | 12 => ⟨S4x128, .f32⟩
  | 13 => ⟨S4x128, .f32⟩
  | 14 => ⟨S4x128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x9, .f32⟩
  | 28 => ⟨S_, .f32⟩
  | 29 => ⟨S100000x9, .f32⟩
  | 30 => ⟨S1600000x1, .i32⟩
  | 31 => ⟨S100000x9, .f32⟩
  | 32 => ⟨S100000x9, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x9, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x128x128, .f32⟩
  | 48 => ⟨S128x128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S_, .i32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S100000x128, .f32⟩
  | 97 => ⟨S100000x128, .f32⟩
  | 98 => ⟨S100000x128, .f32⟩
  | 99 => ⟨S_, .f32⟩
  | 100 => ⟨S_, .f32⟩
  | 101 => ⟨S_, .f32⟩
  | 102 => ⟨S_, .f32⟩
  | 103 => ⟨S128, .f32⟩
  | 104 => ⟨S128, .f32⟩
  | 105 => ⟨S128, .f32⟩
  | 106 => ⟨S_, .f32⟩
  | 107 => ⟨S_, .i1⟩
  | 108 => ⟨S_, .f32⟩
  | 109 => ⟨S_, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S128, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x9, .f32⟩

abbrev hbmTy0_2 (i : Nat) : BufTy := match i % 128 with
  | 0 => ⟨S_, .f32⟩
  | 1 => ⟨S100000x128, .f32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x128x128, .f32⟩
  | 88 => ⟨S128x128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x9, .f32⟩

abbrev hbmTy0_3 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | _ => ⟨S100000x9, .f32⟩

abbrev hbmTy (i : Nat) : BufTy := match i / 128 with
  | 0 => hbmTy0_0 i
  | 1 => hbmTy0_1 i
  | 2 => hbmTy0_2 i
  | 3 => hbmTy0_3 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_6 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_7 : Ref sig .tc := ⟨.hbm, 103, rfl⟩
abbrev main_v58 : Ref sig .tc := ⟨.hbm, 104, rfl⟩
abbrev main_v59 : Ref sig .tc := ⟨.hbm, 105, rfl⟩
abbrev main_c_8 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_9 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_10 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_11 : Ref sig .tc := ⟨.hbm, 128, rfl⟩
abbrev main_v79 : Ref sig .tc := ⟨.hbm, 129, rfl⟩
abbrev main_cst_12 : Ref sig .tc := ⟨.hbm, 130, rfl⟩
abbrev main_v80 : Ref sig .tc := ⟨.hbm, 131, rfl⟩
abbrev main_v81 : Ref sig .tc := ⟨.hbm, 132, rfl⟩
abbrev main_c_13 : Ref sig .tc := ⟨.hbm, 133, rfl⟩
abbrev main_call1_cst : Ref sig .tc := ⟨.hbm, 134, rfl⟩
abbrev main_call1_v0 : Ref sig .tc := ⟨.hbm, 135, rfl⟩
abbrev main_call1_v1 : Ref sig .tc := ⟨.hbm, 136, rfl⟩
abbrev main_call1_cst_0 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_cst_1 : Ref sig .tc := ⟨.hbm, 144, rfl⟩
abbrev main_call1_v8 : Ref sig .tc := ⟨.hbm, 145, rfl⟩
abbrev main_call1_cst_2 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_cst_3 : Ref sig .tc := ⟨.hbm, 150, rfl⟩
abbrev main_call1_v12 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_14 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_cst_15 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_16 : Ref sig .tc := ⟨.hbm, 187, rfl⟩
abbrev main_v112 : Ref sig .tc := ⟨.hbm, 188, rfl⟩
abbrev main_v113 : Ref sig .tc := ⟨.hbm, 189, rfl⟩
abbrev main_c_17 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_18 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_19 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_20 : Ref sig .tc := ⟨.hbm, 212, rfl⟩
abbrev main_v133 : Ref sig .tc := ⟨.hbm, 213, rfl⟩
abbrev main_cst_21 : Ref sig .tc := ⟨.hbm, 214, rfl⟩
abbrev main_v134 : Ref sig .tc := ⟨.hbm, 215, rfl⟩
abbrev main_v135 : Ref sig .tc := ⟨.hbm, 216, rfl⟩
abbrev main_c_22 : Ref sig .tc := ⟨.hbm, 217, rfl⟩
abbrev main_call2_cst : Ref sig .tc := ⟨.hbm, 218, rfl⟩
abbrev main_call2_v0 : Ref sig .tc := ⟨.hbm, 219, rfl⟩
abbrev main_call2_v1 : Ref sig .tc := ⟨.hbm, 220, rfl⟩
abbrev main_call2_cst_0 : Ref sig .tc := ⟨.hbm, 221, rfl⟩
abbrev main_call2_v2 : Ref sig .tc := ⟨.hbm, 222, rfl⟩
abbrev main_call2_v3 : Ref sig .tc := ⟨.hbm, 223, rfl⟩
abbrev main_call2_v4 : Ref sig .tc := ⟨.hbm, 224, rfl⟩
abbrev main_call2_v5 : Ref sig .tc := ⟨.hbm, 225, rfl⟩
abbrev main_call2_v6 : Ref sig .tc := ⟨.hbm, 226, rfl⟩
abbrev main_call2_v7 : Ref sig .tc := ⟨.hbm, 227, rfl⟩
abbrev main_call2_cst_1 : Ref sig .tc := ⟨.hbm, 228, rfl⟩
abbrev main_call2_v8 : Ref sig .tc := ⟨.hbm, 229, rfl⟩
abbrev main_call2_cst_2 : Ref sig .tc := ⟨.hbm, 230, rfl⟩
abbrev main_call2_v9 : Ref sig .tc := ⟨.hbm, 231, rfl⟩
abbrev main_call2_v10 : Ref sig .tc := ⟨.hbm, 232, rfl⟩
abbrev main_call2_v11 : Ref sig .tc := ⟨.hbm, 233, rfl⟩
abbrev main_call2_cst_3 : Ref sig .tc := ⟨.hbm, 234, rfl⟩
abbrev main_call2_v12 : Ref sig .tc := ⟨.hbm, 235, rfl⟩
abbrev main_call2_cst_4 : Ref sig .tc := ⟨.hbm, 236, rfl⟩
abbrev main_call2_call0_v0 : Ref sig .tc := ⟨.hbm, 237, rfl⟩
abbrev main_call2_call0_v1 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_cst_23 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_cst_24 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_c_25 : Ref sig .tc := ⟨.hbm, 271, rfl⟩
abbrev main_v166 : Ref sig .tc := ⟨.hbm, 272, rfl⟩
abbrev main_v167 : Ref sig .tc := ⟨.hbm, 273, rfl⟩
abbrev main_c_26 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_cst_27 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_cst_28 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_cst_29 : Ref sig .tc := ⟨.hbm, 296, rfl⟩
abbrev main_v187 : Ref sig .tc := ⟨.hbm, 297, rfl⟩
abbrev main_cst_30 : Ref sig .tc := ⟨.hbm, 298, rfl⟩
abbrev main_v188 : Ref sig .tc := ⟨.hbm, 299, rfl⟩
abbrev main_v189 : Ref sig .tc := ⟨.hbm, 300, rfl⟩
abbrev main_c_31 : Ref sig .tc := ⟨.hbm, 301, rfl⟩
abbrev main_call3_cst : Ref sig .tc := ⟨.hbm, 302, rfl⟩
abbrev main_call3_v0 : Ref sig .tc := ⟨.hbm, 303, rfl⟩
abbrev main_call3_v1 : Ref sig .tc := ⟨.hbm, 304, rfl⟩
abbrev main_call3_cst_0 : Ref sig .tc := ⟨.hbm, 305, rfl⟩
abbrev main_call3_v2 : Ref sig .tc := ⟨.hbm, 306, rfl⟩
abbrev main_call3_v3 : Ref sig .tc := ⟨.hbm, 307, rfl⟩
abbrev main_call3_v4 : Ref sig .tc := ⟨.hbm, 308, rfl⟩
abbrev main_call3_v5 : Ref sig .tc := ⟨.hbm, 309, rfl⟩
abbrev main_call3_v6 : Ref sig .tc := ⟨.hbm, 310, rfl⟩
abbrev main_call3_v7 : Ref sig .tc := ⟨.hbm, 311, rfl⟩
abbrev main_call3_cst_1 : Ref sig .tc := ⟨.hbm, 312, rfl⟩
abbrev main_call3_v8 : Ref sig .tc := ⟨.hbm, 313, rfl⟩
abbrev main_call3_cst_2 : Ref sig .tc := ⟨.hbm, 314, rfl⟩
abbrev main_call3_v9 : Ref sig .tc := ⟨.hbm, 315, rfl⟩
abbrev main_call3_v10 : Ref sig .tc := ⟨.hbm, 316, rfl⟩
abbrev main_call3_v11 : Ref sig .tc := ⟨.hbm, 317, rfl⟩
abbrev main_call3_cst_3 : Ref sig .tc := ⟨.hbm, 318, rfl⟩
abbrev main_call3_v12 : Ref sig .tc := ⟨.hbm, 319, rfl⟩
abbrev main_call3_cst_4 : Ref sig .tc := ⟨.hbm, 320, rfl⟩
abbrev main_call3_call0_v0 : Ref sig .tc := ⟨.hbm, 321, rfl⟩
abbrev main_call3_call0_v1 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_cst_32 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_cst_33 : Ref sig .tc := ⟨.hbm, 340, rfl⟩
abbrev main_v206 : Ref sig .tc := ⟨.hbm, 341, rfl⟩
abbrev main_v207 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_v211 : Ref sig .tc := ⟨.hbm, 346, rfl⟩
abbrev main_v212 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_c_34 : Ref sig .tc := ⟨.hbm, 355, rfl⟩
abbrev main_v220 : Ref sig .tc := ⟨.hbm, 356, rfl⟩
abbrev main_v221 : Ref sig .tc := ⟨.hbm, 357, rfl⟩
abbrev main_c_35 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_36 : Ref sig .tc := ⟨.hbm, 364, rfl⟩
abbrev main_v227 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_cst_37 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_v240 : Ref sig .tc := ⟨.hbm, 379, rfl⟩
abbrev main_cst_38 : Ref sig .tc := ⟨.hbm, 380, rfl⟩
abbrev main_v241 : Ref sig .tc := ⟨.hbm, 381, rfl⟩
abbrev main_cst_39 : Ref sig .tc := ⟨.hbm, 382, rfl⟩
abbrev main_v242 : Ref sig .tc := ⟨.hbm, 383, rfl⟩
abbrev main_v243 : Ref sig .tc := ⟨.hbm, 384, rfl⟩
abbrev main_c_40 : Ref sig .tc := ⟨.hbm, 385, rfl⟩
abbrev main_call4_cst : Ref sig .tc := ⟨.hbm, 386, rfl⟩
abbrev main_call4_v0 : Ref sig .tc := ⟨.hbm, 387, rfl⟩
abbrev main_call4_v1 : Ref sig .tc := ⟨.hbm, 388, rfl⟩
abbrev main_call4_cst_0 : Ref sig .tc := ⟨.hbm, 389, rfl⟩
abbrev main_call4_v2 : Ref sig .tc := ⟨.hbm, 390, rfl⟩
abbrev main_call4_v3 : Ref sig .tc := ⟨.hbm, 391, rfl⟩
abbrev main_call4_v4 : Ref sig .tc := ⟨.hbm, 392, rfl⟩
abbrev main_call4_v5 : Ref sig .tc := ⟨.hbm, 393, rfl⟩
abbrev main_call4_v6 : Ref sig .tc := ⟨.hbm, 394, rfl⟩
abbrev main_call4_v7 : Ref sig .tc := ⟨.hbm, 395, rfl⟩
abbrev main_call4_cst_1 : Ref sig .tc := ⟨.hbm, 396, rfl⟩
abbrev main_call4_v8 : Ref sig .tc := ⟨.hbm, 397, rfl⟩
abbrev main_call4_cst_2 : Ref sig .tc := ⟨.hbm, 398, rfl⟩
abbrev main_call4_v9 : Ref sig .tc := ⟨.hbm, 399, rfl⟩
abbrev main_call4_v10 : Ref sig .tc := ⟨.hbm, 400, rfl⟩
abbrev main_call4_v11 : Ref sig .tc := ⟨.hbm, 401, rfl⟩
abbrev main_call4_cst_3 : Ref sig .tc := ⟨.hbm, 402, rfl⟩
abbrev main_call4_v12 : Ref sig .tc := ⟨.hbm, 403, rfl⟩
abbrev main_call4_cst_4 : Ref sig .tc := ⟨.hbm, 404, rfl⟩
abbrev main_call4_call0_v0 : Ref sig .tc := ⟨.hbm, 405, rfl⟩
abbrev main_call4_call0_v1 : Ref sig .tc := ⟨.hbm, 406, rfl⟩
abbrev main_v244 : Ref sig .tc := ⟨.hbm, 407, rfl⟩
abbrev main_v245 : Ref sig .tc := ⟨.hbm, 408, rfl⟩
abbrev main_v246 : Ref sig .tc := ⟨.hbm, 409, rfl⟩
abbrev main_v247 : Ref sig .tc := ⟨.hbm, 410, rfl⟩
abbrev main_cst_41 : Ref sig .tc := ⟨.hbm, 411, rfl⟩
abbrev main_v248 : Ref sig .tc := ⟨.hbm, 412, rfl⟩
abbrev main_v249 : Ref sig .tc := ⟨.hbm, 413, rfl⟩
abbrev main_v250 : Ref sig .tc := ⟨.hbm, 414, rfl⟩
abbrev main_v251 : Ref sig .tc := ⟨.hbm, 415, rfl⟩
abbrev main_v252 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩
abbrev main_v256 : Ref sig .tc := ⟨.hbm, 420, rfl⟩
abbrev main_v257 : Ref sig .tc := ⟨.hbm, 421, rfl⟩
abbrev main_v258 : Ref sig .tc := ⟨.hbm, 422, rfl⟩
abbrev main_v259 : Ref sig .tc := ⟨.hbm, 423, rfl⟩
abbrev main_cst_42 : Ref sig .tc := ⟨.hbm, 424, rfl⟩
abbrev main_v260 : Ref sig .tc := ⟨.hbm, 425, rfl⟩
abbrev main_v261 : Ref sig .tc := ⟨.hbm, 426, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S100000x9_S9x128_S100000x128_1_0_0_1_n_n_wf : DotDims.WF S100000x9 S9x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KerRun.lean ====
/-
  The idealized kernel program's run with every buffer's final contents kept.

  The program is ten tiled regions among stretches of host operations. Its run ends with every buffer that outlives
  the program at the last value of a fold: the launch contents pushed through each host stretch (by the operations'
  results) and each region (its arrays at what the tiles' write-backs leave, the rest untouched). The frame claim keeps
  of this only that the arguments end as launched; here the same run is read for ALL those buffers, so that the result
  array can be followed back through the fold.
-/
import proofs.«110124_j41455024341694_1_alg».proof.Proof.Gen.KernelIdeal.Frame

set_option maxRecDepth 16384

noncomputable section

namespace Cert.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives it ends at
    the last value of the fold through the host stretches and the regions. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W25 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c b hb => h c _ (mem_uc b hb))

end Cert.KerSide

end
-- ==== Proof.Spec.lean ====
/-
  A graph network of five layers over 100000 nodes and 1600000 edges, written as ONE function of the argument arrays.

  The edge table holds a source row and a destination row. One layer sends the node features h to
      t   = (∑ over the edges into a node of the source's features) + h            (the neighbour sum, then the node itself)
      y   = max (t · W₁ + b₁) 0 · W₂ + b₂                                           (two dense layers, a rectifier between)
      μ   = the column means of y,   σ² = the column mean of (y − μ)²               (statistics over all nodes)
      out = max ((y − μ) · rsqrt (σ² + ε) · γ + β) 0                                (normalise, scale, shift, rectify)
  The first layer reads features of width 9 and its own parameters; the four later layers read width 128 and the
  l-th slice of stacked parameters. Every piece is spelt with the host's whole-array operations, so that a program made
  of those operations computes, by unfolding, exactly this function; a program that computes a piece blockwise has to be
  shown to compute the same array. The dimension records of the gathers, scatters and products, and the shape facts the
  operations carry, are parameters: two programs that state them separately instantiate the same function.
-/
import Idealize.ShloMosaic.PureOps

noncomputable section

namespace Cert.Net

open Idealize.ShloMosaic

abbrev SN9 : Shape := ⟨2, ![100000, 9]⟩
abbrev SN : Shape := ⟨2, ![100000, 128]⟩
abbrev SE2 : Shape := ⟨2, ![2, 1600000]⟩
abbrev SE1 : Shape := ⟨2, ![1, 1600000]⟩
abbrev SE : Shape := ⟨1, ![1600000]⟩
abbrev SEc : Shape := ⟨2, ![1600000, 1]⟩
abbrev SE9 : Shape := ⟨2, ![1600000, 9]⟩
abbrev SEH : Shape := ⟨2, ![1600000, 128]⟩
abbrev S0 : Shape := ⟨0, ![]⟩
abbrev SH : Shape := ⟨1, ![128]⟩
abbrev S1H : Shape := ⟨2, ![1, 128]⟩
abbrev S9H : Shape := ⟨2, ![9, 128]⟩
abbrev SHH : Shape := ⟨2, ![128, 128]⟩
abbrev S4HH : Shape := ⟨3, ![4, 128, 128]⟩
abbrev S1HH : Shape := ⟨3, ![1, 128, 128]⟩
abbrev S4H : Shape := ⟨2, ![4, 128]⟩

/-- The shape facts and dimension records the host operations carry. -/
structure Dims where
  slE0 : SE2.Slices ![0, 0] SE1
  slE1 : SE2.Slices ![1, 0] SE1
  scE : SE1.ShapeCasts SE
  b0E : S0.BroadcastsInDim SE (![] : Fin 0 → Fin SE.rank)
  bEc : SE.BroadcastsInDim SEc (![0] : Fin 1 → Fin SEc.rank)
  b0N9 : S0.BroadcastsInDim SN9 (![] : Fin 0 → Fin SN9.rank)
  b0N : S0.BroadcastsInDim SN (![] : Fin 0 → Fin SN.rank)
  bH1 : SH.BroadcastsInDim S1H (![1] : Fin 1 → Fin S1H.rank)
  b1N : S1H.BroadcastsInDim SN (![0, 1] : Fin 2 → Fin SN.rank)
  b0H : S0.BroadcastsInDim SH (![] : Fin 0 → Fin SH.rank)
  b01H : S0.BroadcastsInDim S1H (![] : Fin 0 → Fin S1H.rank)
  red : SN.ReducesTo [0] SH
  h0 : 0 < S0.numel
  scW : S1HH.ShapeCasts SHH
  scB : S1H.ShapeCasts SH
  g9 : GatherDims SN9 SEc SE9
  s9 : ScatterDims SN9 SEc SE9
  g : GatherDims SN SEc SEH
  s : ScatterDims SN SEc SEH
  d9 : DotDims SN9 S9H SN
  d : DotDims SN SHH SN

variable {F : FTy → Type} [FloatOps F] (D : Dims)

/-- Row r of the edge table as a vector of node numbers. -/
def edgeRow (ei : IVec SE2 32) (o : Fin 2 → ℕ) (h : SE2.Slices o SE1) : IVec SE 32 :=
  shapeCast SE (extractStridedSlice SE1 o ei h) D.scE

/-- The source numbers as gather start indices: a negative number counts from the end. -/
def starts (src : IVec SE 32) : IVec SEc 32 :=
  broadcastInDim SEc (![0] : Fin 1 → Fin 2) D.bEc
    (select (cmpi .slt src (broadcastInDim SE (![] : Fin 0 → Fin _) D.b0E (constantI S0 32 0#32)))
      (addi src (broadcastInDim SE (![] : Fin 0 → Fin _) D.b0E (constantI S0 32 100000#32))) src)

/-- The neighbour sum of width-9 features. -/
def agg9 (h : FVec F SN9 .f32) (src dst : IVec SE 32) : FVec F SN9 .f32 :=
  Host.scatterAdd D.s9 (broadcastInDim SN9 (![] : Fin 0 → Fin _) D.b0N9 (constant S0 .f32 0x00000000#32)) (broadcastInDim SEc (![0] : Fin 1 → Fin 2) D.bEc dst)
    (Host.gather D.g9 h (starts D src))

/-- The neighbour sum of width-128 features. -/
def agg (h : FVec F SN .f32) (src dst : IVec SE 32) : FVec F SN .f32 :=
  Host.scatterAdd D.s (broadcastInDim SN (![] : Fin 0 → Fin _) D.b0N (constant S0 .f32 0x00000000#32)) (broadcastInDim SEc (![0] : Fin 1 → Fin 2) D.bEc dst)
    (Host.gather D.g h (starts D src))

/-- A one-row parameter stretched down all rows. -/
def rows (b : FVec F SH .f32) : FVec F SN .f32 := broadcastInDim SN (![0, 1] : Fin 2 → Fin 2) D.b1N (broadcastInDim S1H (![1] : Fin 1 → Fin 2) D.bH1 b)

/-- The zero array of the rectifier. -/
def zerosN : FVec F SN .f32 := broadcastInDim SN (![] : Fin 0 → Fin _) D.b0N (constant S0 .f32 0x00000000#32)

/-- The second dense layer on top of the rectified first one. -/
def mlpTop (t1 : FVec F SN .f32) (b1 : FVec F SH .f32) (w2 : FVec F SHH .f32) (b2 : FVec F SH .f32) : FVec F SN .f32 :=
  addf (Host.dotGeneral D.d none (maximumf (addf t1 (rows D b1)) (zerosN D)) w2) (rows D b2)

/-- The two dense layers on width-9 inputs. -/
def mlp9 (a h : FVec F SN9 .f32) (w1 : FVec F S9H .f32) (b1 : FVec F SH .f32) (w2 : FVec F SHH .f32) (b2 : FVec F SH .f32) :
    FVec F SN .f32 :=
  mlpTop D (Host.dotGeneral D.d9 none (addf a h) w1) b1 w2 b2

/-- The two dense layers on width-128 inputs. -/
def mlp (a h : FVec F SN .f32) (w1 : FVec F SHH .f32) (b1 : FVec F SH .f32) (w2 : FVec F SHH .f32) (b2 : FVec F SH .f32) :
    FVec F SN .f32 :=
  mlpTop D (Host.dotGeneral D.d none (addf a h) w1) b1 w2 b2

/-- The column sums. -/
def colSum (y : FVec F SN .f32) : FVec F SH .f32 := Host.reduceAdd y (constant S0 .f32 0x00000000#32) D.red D.h0

/-- The column means. -/
def mean (y : FVec F SN .f32) : FVec F SH .f32 :=
  Host.divf (colSum D y) (broadcastInDim SH (![] : Fin 0 → Fin _) D.b0H (constant S0 .f32 0x47C35000#32))

/-- The count the squared deviations are divided by: the number of rows less the degrees of freedom given up. -/
def count (k : IVec S0 32) : FVec F S0 .f32 := subf (constant (F := F) S0 .f32 0x47C35000#32) (sitofp (F := F) .f32 k)

/-- The column variances, as the library's variance spells them: the mean of the squared deviations from the column mean,
    kept only where the count is positive. -/
def var (y : FVec F SN .f32) (k : IVec S0 32) : FVec F SH .f32 :=
  select (broadcastInDim SH (![] : Fin 0 → Fin _) D.b0H (cmpf .ogt (count (F := F) k) (constant S0 .f32 0x00000000#32)))
    (Host.divf
      (colSum D
        (mulf
          (subf y (broadcastInDim SN (![0, 1] : Fin 2 → Fin 2) D.b1N
            (Host.divf (broadcastInDim S1H (![1] : Fin 1 → Fin 2) D.bH1 (colSum D y)) (broadcastInDim S1H (![] : Fin 0 → Fin _) D.b01H (constant S0 .f32 0x47C35000#32)))))
          (subf y (broadcastInDim SN (![0, 1] : Fin 2 → Fin 2) D.b1N
            (Host.divf (broadcastInDim S1H (![1] : Fin 1 → Fin 2) D.bH1 (colSum D y)) (broadcastInDim S1H (![] : Fin 0 → Fin _) D.b01H (constant S0 .f32 0x47C35000#32)))))))
      (broadcastInDim SH (![] : Fin 0 → Fin _) D.b0H (count (F := F) k)))
    (broadcastInDim SH (![] : Fin 0 → Fin _) D.b0H (id (constant S0 .f32 0x7FC00000#32)))

/-- Normalise, scale, shift and rectify. -/
def norm (y : FVec F SN .f32) (mu va ga be : FVec F SH .f32) : FVec F SN .f32 :=
  maximumf
    (addf (mulf (mulf (subf y (rows D mu))
        (rows D (Host.rsqrt (addf va (broadcastInDim SH (![] : Fin 0 → Fin _) D.b0H (constant S0 .f32 0x3727C5AC#32))))))
      (rows D ga)) (rows D be))
    (zerosN D)

/-- Normalisation by the array's own column statistics. -/
def normOwn (y : FVec F SN .f32) (ga be : FVec F SH .f32) : FVec F SN .f32 :=
  norm D y (mean D y) (var D y (constantI S0 32 0#32)) ga be

/-- The first layer. -/
def layer9 (x : FVec F SN9 .f32) (src dst : IVec SE 32) (w1 : FVec F S9H .f32) (b1 : FVec F SH .f32) (w2 : FVec F SHH .f32)
    (b2 ga be : FVec F SH .f32) : FVec F SN .f32 :=
  normOwn D (mlp9 D (agg9 D x src dst) x w1 b1 w2 b2) ga be

/-- A later layer. -/
def layer (h : FVec F SN .f32) (src dst : IVec SE 32) (w1 : FVec F SHH .f32) (b1 : FVec F SH .f32) (w2 : FVec F SHH .f32)
    (b2 ga be : FVec F SH .f32) : FVec F SN .f32 :=
  normOwn D (mlp D (agg D h src dst) h w1 b1 w2 b2) ga be

/-- Slice o of a stack of four matrices. -/
def mat (ws : FVec F S4HH .f32) (o : Fin 3 → ℕ) (h : S4HH.Slices o S1HH) : FVec F SHH .f32 :=
  shapeCast SHH (extractStridedSlice S1HH o ws h) D.scW

/-- Row o of a stack of four rows. -/
def row (bs : FVec F S4H .f32) (o : Fin 2 → ℕ) (h : S4H.Slices o S1H) : FVec F SH .f32 :=
  shapeCast SH (extractStridedSlice S1H o bs h) D.scB

/-- The slicing facts of the four later layers. -/
structure Cuts where
  m0 : S4HH.Slices ![0, 0, 0] S1HH
  m1 : S4HH.Slices ![1, 0, 0] S1HH
  m2 : S4HH.Slices ![2, 0, 0] S1HH
  m3 : S4HH.Slices ![3, 0, 0] S1HH
  r0 : S4H.Slices ![0, 0] S1H
  r1 : S4H.Slices ![1, 0] S1H
  r2 : S4H.Slices ![2, 0] S1H
  r3 : S4H.Slices ![3, 0] S1H

variable (C : Cuts)

/-- A later layer on slice (om, or) of the stacked parameters. -/
def layerAt (h : FVec F SN .f32) (src dst : IVec SE 32) (ws1 : FVec F S4HH .f32) (bs1 : FVec F S4H .f32) (ws2 : FVec F S4HH .f32)
    (bs2 gs bes : FVec F S4H .f32) (om : Fin 3 → ℕ) (hm : S4HH.Slices om S1HH) (or : Fin 2 → ℕ) (hr : S4H.Slices or S1H) :
    FVec F SN .f32 :=
  layer D h src dst (mat D ws1 om hm) (row D bs1 or hr) (mat D ws2 om hm) (row D bs2 or hr) (row D gs or hr) (row D bes or hr)

/-- The whole network. -/
def net (x : FVec F SN9 .f32) (ei : IVec SE2 32) (w1 : FVec F S9H .f32) (b1 : FVec F SH .f32) (w2 : FVec F SHH .f32)
    (b2 ga be : FVec F SH .f32) (ws1 : FVec F S4HH .f32) (bs1 : FVec F S4H .f32) (ws2 : FVec F S4HH .f32) (bs2 gs bes : FVec F S4H .f32) :
    FVec F SN .f32 :=
  let src := edgeRow D ei ![0, 0] D.slE0
  let dst := edgeRow D ei ![1, 0] D.slE1
  let h1 := layer9 D x src dst w1 b1 w2 b2 ga be
  let h2 := layerAt D h1 src dst ws1 bs1 ws2 bs2 gs bes ![0, 0, 0] C.m0 ![0, 0] C.r0
  let h3 := layerAt D h2 src dst ws1 bs1 ws2 bs2 gs bes ![1, 0, 0] C.m1 ![1, 0] C.r1
  let h4 := layerAt D h3 src dst ws1 bs1 ws2 bs2 gs bes ![2, 0, 0] C.m2 ![2, 0] C.r2
  layerAt D h4 src dst ws1 bs1 ws2 bs2 gs bes ![3, 0, 0] C.m3 ![3, 0] C.r3

end Cert.Net

end
-- ==== Proof.KerDims.lean ====
/-
  The shape facts and dimension records of one program's host operations, bundled for the network function.
-/
import proofs.«110124_j41455024341694_1_alg».proof.Proof.Gen.KernelIdeal
import proofs.«110124_j41455024341694_1_alg».proof.Proof.Spec

noncomputable section

namespace Cert.KerSide

open Idealize.ShloMosaic Cert.KernelIdeal Cert.KernelIdeal.Facts₀

/-- The whole-array product of [100000,9] by [9,128]: this program multiplies tile by tile, so the record of the whole
    product is stated here. -/
def dotN9 : DotDims Cert.Net.SN9 Cert.Net.S9H Cert.Net.SN where
  lhsContracting := [1]
  rhsContracting := [0]
  lhsNonContracting := [0]
  rhsNonContracting := [1]
  lhsBatch := []
  rhsBatch := []
  wf := by decide

/-- The whole-array product of [100000,128] by [128,128]. -/
def dotN : DotDims Cert.Net.SN Cert.Net.SHH Cert.Net.SN where
  lhsContracting := [1]
  rhsContracting := [0]
  lhsNonContracting := [0]
  rhsNonContracting := [1]
  lhsBatch := []
  rhsBatch := []
  wf := by decide

/-- This program's records and shape facts. -/
def D : Cert.Net.Dims where
  slE0 := slices_S2x1600000_S1x1600000_0_0
  slE1 := slices_S2x1600000_S1x1600000_1_0
  scE := shapeCasts_S1x1600000_S1600000
  b0E := bcast_S_S1600000
  bEc := bcast_S1600000_S1600000x1_0
  b0N9 := bcast_S_S100000x9
  b0N := bcast_S_S100000x128
  bH1 := bcast_S128_S1x128_1
  b1N := bcast_S1x128_S100000x128_0_1
  b0H := bcast_S_S128
  b01H := bcast_S_S1x128
  red := reducesTo_S100000x128_S128_d0
  h0 := h_S_
  scW := shapeCasts_S1x128x128_S128x128
  scB := shapeCasts_S1x128_S128
  g9 := gather_S100000x9_S1600000x1_S1600000x9_1_0_n_n_0_1_19
  s9 := scatter_S100000x9_S1600000x1_S1600000x9_1_0_0_1
  g := gather_S100000x128_S1600000x1_S1600000x128_1_0_n_n_0_1_1128
  s := scatter_S100000x128_S1600000x1_S1600000x128_1_0_0_1
  d9 := dotN9
  d := dotN

/-- This program's slicing facts for the stacked parameters. -/
def C : Cert.Net.Cuts where
  m0 := slices_S4x128x128_S1x128x128_0_0_0
  m1 := slices_S4x128x128_S1x128x128_1_0_0
  m2 := slices_S4x128x128_S1x128x128_2_0_0
  m3 := slices_S4x128x128_S1x128x128_3_0_0
  r0 := slices_S4x128_S1x128_0_0
  r1 := slices_S4x128_S1x128_1_0
  r2 := slices_S4x128_S1x128_2_0
  r3 := slices_S4x128_S1x128_3_0

end Cert.KerSide

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.KerHost.lean ====
/-
  The host stretches of the idealized kernel program, read one stretch at a time from an arbitrary starting valuation.

  Between its tiled regions the program runs plain host operations: the edge table cut into a source row and a
  destination row; per layer the neighbour sum (a gather along the sources, a scatter-add along the destinations) and the
  layer's slices of the stacked parameters; after each dense region the column means and the column variances. Each
  stretch's results are, by unfolding, the corresponding pieces of the network function applied to what the stretch
  found; every buffer a stretch does not write keeps its contents.
-/
import proofs.«110124_j41455024341694_1_alg».proof.Proof.Gen.KernelIdeal.Launch
import proofs.«110124_j41455024341694_1_alg».proof.Proof.KerDims
import proofs.«110124_j41455024341694_1_alg».proof.Proof.LibKeeps
import Idealize.ShloMosaic.Lib.StableHlo.Run

noncomputable section

namespace Cert.KerSide

open Cert.KernelIdeal Cert.KernelIdeal.Gen
open Idealize.ShloMosaic Idealize.ShloMosaic.TcCoe Idealize.SL.Sem Idealize.ShloMosaic.StableHlo

variable {F : FTy → Type} [FloatOps F] (X : Valuation τ sig (Elt F))

/-! ## The first layer's stretches -/

theorem host0_src : after hostOps0 X (Proc.devRef .tc main_v1) = Cert.Net.edgeRow D (X (Proc.devRef .tc main_arg1)) ![0, 0] D.slE0 := by
  after_results_simp
  rfl
theorem host0_dst : after hostOps0 X (Proc.devRef .tc main_v3) = Cert.Net.edgeRow D (X (Proc.devRef .tc main_arg1)) ![1, 0] D.slE1 := by
  after_results_simp
  rfl
theorem host0_agg : after hostOps0 X (Proc.devRef .tc main_v13)
    = Cert.Net.agg9 D (X (Proc.devRef .tc main_arg0)) (Cert.Net.edgeRow D (X (Proc.devRef .tc main_arg1)) ![0, 0] D.slE0)
        (Cert.Net.edgeRow D (X (Proc.devRef .tc main_arg1)) ![1, 0] D.slE1) := by
  after_results_simp
  rfl
theorem host0_keep (r : Ref sig .tc) (hr : r ∉ [main_v0, main_v1, main_v2, main_v3, main_c, main_v4, main_v5, main_c_0, main_v6, main_v7, main_v8, main_v9, main_v10, main_cst, main_v11, main_v12, main_v13]) : after hostOps0 X (Proc.devRef .tc r) = X (Proc.devRef .tc r) :=
  after_of_writes_sub hostOps0 X (by host_writes hostOps0) hr
theorem host1_mean : after hostOps1 X (Proc.devRef .tc main_v17) = Cert.Net.mean D (X (Proc.devRef .tc main_v14)) := by
  after_results_simp
  rfl
theorem host1_zero : after hostOps1 X (Proc.devRef .tc main_c_3) = constantI S_ 32 0#32 := by
  after_results_simp
theorem host1_keep (r : Ref sig .tc) (hr : r ∉ [main_cst_1, main_v15, main_cst_2, main_v16, main_v17, main_c_3]) : after hostOps1 X (Proc.devRef .tc r) = X (Proc.devRef .tc r) :=
  after_of_writes_sub hostOps1 X (by host_writes hostOps1) hr
theorem host1_1_var : after hostOps1_1 X (Proc.devRef .tc main_v18) = Cert.Net.var D (X (Proc.devRef .tc main_v14)) (X (Proc.devRef .tc main_c_3)) := by
  after_results_simp
  rfl
theorem host1_1_keep (r : Ref sig .tc) (hr : r ∉ [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v18]) : after hostOps1_1 X (Proc.devRef .tc r) = X (Proc.devRef .tc r) :=
  after_of_writes_sub hostOps1_1 X (by host_writes hostOps1_1) hr

/-! ## The stretches of later layer 1 -/

theorem host2_agg : after hostOps2 X (Proc.devRef .tc main_v41) = Cert.Net.agg D (X (Proc.devRef .tc main_v19)) (X (Proc.devRef .tc main_v1)) (X (Proc.devRef .tc main_v3)) := by
  after_results_simp
  rfl
theorem host2_w1 : after hostOps2 X (Proc.devRef .tc main_v21) = Cert.Net.mat D (X (Proc.devRef .tc main_arg9)) ![0, 0, 0] C.m0 := by
  after_results_simp
  rfl
theorem host2_b1 : after hostOps2 X (Proc.devRef .tc main_v23) = Cert.Net.row D (X (Proc.devRef .tc main_arg10)) ![0, 0] C.r0 := by
  after_results_simp
  rfl
theorem host2_w2 : after hostOps2 X (Proc.devRef .tc main_v25) = Cert.Net.mat D (X (Proc.devRef .tc main_arg11)) ![0, 0, 0] C.m0 := by
  after_results_simp
  rfl
theorem host2_b2 : after hostOps2 X (Proc.devRef .tc main_v27) = Cert.Net.row D (X (Proc.devRef .tc main_arg12)) ![0, 0] C.r0 := by
  after_results_simp
  rfl
theorem host2_ga : after hostOps2 X (Proc.devRef .tc main_v29) = Cert.Net.row D (X (Proc.devRef .tc main_arg13)) ![0, 0] C.r0 := by
  after_results_simp
  rfl
theorem host2_be : after hostOps2 X (Proc.devRef .tc main_v31) = Cert.Net.row D (X (Proc.devRef .tc main_arg14)) ![0, 0] C.r0 := by
  after_results_simp
  rfl
theorem host2_keep (r : Ref sig .tc) (hr : r ∉ [main_v20, main_v21, main_v22, main_v23, main_v24, main_v25, main_v26, main_v27, main_v28, main_v29, main_v30, main_v31, main_c_4, main_v32, main_v33, main_c_5, main_v34, main_v35, main_v36, main_v37, main_v38, main_cst_6, main_v39, main_v40, main_v41]) : after hostOps2 X (Proc.devRef .tc r) = X (Proc.devRef .tc r) :=
  after_of_writes_sub hostOps2 X (by host_writes hostOps2) hr
theorem host3_mean : after hostOps3 X (Proc.devRef .tc main_v45) = Cert.Net.mean D (X (Proc.devRef .tc main_v42)) := by
  after_results_simp
  rfl
theorem host3_zero : after hostOps3 X (Proc.devRef .tc main_c_9) = constantI S_ 32 0#32 := by
  after_results_simp
theorem host3_keep (r : Ref sig .tc) (hr : r ∉ [main_cst_7, main_v43, main_cst_8, main_v44, main_v45, main_c_9]) : after hostOps3 X (Proc.devRef .tc r) = X (Proc.devRef .tc r) :=
  after_of_writes_sub hostOps3 X (by host_writes hostOps3) hr
theorem host3_1_var : after hostOps3_1 X (Proc.devRef .tc main_v46) = Cert.Net.var D (X (Proc.devRef .tc main_v42)) (X (Proc.devRef .tc main_c_9)) := by
  after_results_simp
  rfl
theorem host3_1_keep (r : Ref sig .tc) (hr : r ∉ [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v46]) : after hostOps3_1 X (Proc.devRef .tc r) = X (Proc.devRef .tc r) :=
  after_of_writes_sub hostOps3_1 X (by host_writes hostOps3_1) hr

/-! ## The stretches of later layer 2 -/

theorem host4_agg : after hostOps4 X (Proc.devRef .tc main_v69) = Cert.Net.agg D (X (Proc.devRef .tc main_v47)) (X (Proc.devRef .tc main_v1)) (X (Proc.devRef .tc main_v3)) := by
  after_results_simp
  rfl
theorem host4_w1 : after hostOps4 X (Proc.devRef .tc main_v49) = Cert.Net.mat D (X (Proc.devRef .tc main_arg9)) ![1, 0, 0] C.m1 := by
  after_results_simp
  rfl
theorem host4_b1 : after hostOps4 X (Proc.devRef .tc main_v51) = Cert.Net.row D (X (Proc.devRef .tc main_arg10)) ![1, 0] C.r1 := by
  after_results_simp
  rfl
theorem host4_w2 : after hostOps4 X (Proc.devRef .tc main_v53) = Cert.Net.mat D (X (Proc.devRef .tc main_arg11)) ![1, 0, 0] C.m1 := by
  after_results_simp
  rfl
theorem host4_b2 : after hostOps4 X (Proc.devRef .tc main_v55) = Cert.Net.row D (X (Proc.devRef .tc main_arg12)) ![1, 0] C.r1 := by
  after_results_simp
  rfl
theorem host4_ga : after hostOps4 X (Proc.devRef .tc main_v57) = Cert.Net.row D (X (Proc.devRef .tc main_arg13)) ![1, 0] C.r1 := by
  after_results_simp
  rfl
theorem host4_be : after hostOps4 X (Proc.devRef .tc main_v59) = Cert.Net.row D (X (Proc.devRef .tc main_arg14)) ![1, 0] C.r1 := by
  after_results_simp
  rfl
theorem host4_keep (r : Ref sig .tc) (hr : r ∉ [main_v48, main_v49, main_v50, main_v51, main_v52, main_v53, main_v54, main_v55, main_v56, main_v57, main_v58, main_v59, main_c_10, main_v60, main_v61, main_c_11, main_v62, main_v63, main_v64, main_v65, main_v66, main_cst_12, main_v67, main_v68, main_v69]) : after hostOps4 X (Proc.devRef .tc r) = X (Proc.devRef .tc r) :=
  after_of_writes_sub hostOps4 X (by host_writes hostOps4) hr
theorem host5_mean : after hostOps5 X (Proc.devRef .tc main_v73) = Cert.Net.mean D (X (Proc.devRef .tc main_v70)) := by
  after_results_simp
  rfl
theorem host5_zero : after hostOps5 X (Proc.devRef .tc main_c_15) = constantI S_ 32 0#32 := by
  after_results_simp
theorem host5_keep (r : Ref sig .tc) (hr : r ∉ [main_cst_13, main_v71, main_cst_14, main_v72, main_v73, main_c_15]) : after hostOps5 X (Proc.devRef .tc r) = X (Proc.devRef .tc r) :=
  after_of_writes_sub hostOps5 X (by host_writes hostOps5) hr
theorem host5_1_var : after hostOps5_1 X (Proc.devRef .tc main_v74) = Cert.Net.var D (X (Proc.devRef .tc main_v70)) (X (Proc.devRef .tc main_c_15)) := by
  after_results_simp
  rfl
theorem host5_1_keep (r : Ref sig .tc) (hr : r ∉ [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v74]) : after hostOps5_1 X (Proc.devRef .tc r) = X (Proc.devRef .tc r) :=
  after_of_writes_sub hostOps5_1 X (by host_writes hostOps5_1) hr

/-! ## The stretches of later layer 3 -/

theorem host6_agg : after hostOps6 X (Proc.devRef .tc main_v97) = Cert.Net.agg D (X (Proc.devRef .tc main_v75)) (X (Proc.devRef .tc main_v1)) (X (Proc.devRef .tc main_v3)) := by
  after_results_simp
  rfl
theorem host6_w1 : after hostOps6 X (Proc.devRef .tc main_v77) = Cert.Net.mat D (X (Proc.devRef .tc main_arg9)) ![2, 0, 0] C.m2 := by
  after_results_simp
  rfl
theorem host6_b1 : after hostOps6 X (Proc.devRef .tc main_v79) = Cert.Net.row D (X (Proc.devRef .tc main_arg10)) ![2, 0] C.r2 := by
  after_results_simp
  rfl
theorem host6_w2 : after hostOps6 X (Proc.devRef .tc main_v81) = Cert.Net.mat D (X (Proc.devRef .tc main_arg11)) ![2, 0, 0] C.m2 := by
  after_results_simp
  rfl
theorem host6_b2 : after hostOps6 X (Proc.devRef .tc main_v83) = Cert.Net.row D (X (Proc.devRef .tc main_arg12)) ![2, 0] C.r2 := by
  after_results_simp
  rfl
theorem host6_ga : after hostOps6 X (Proc.devRef .tc main_v85) = Cert.Net.row D (X (Proc.devRef .tc main_arg13)) ![2, 0] C.r2 := by
  after_results_simp
  rfl
theorem host6_be : after hostOps6 X (Proc.devRef .tc main_v87) = Cert.Net.row D (X (Proc.devRef .tc main_arg14)) ![2, 0] C.r2 := by
  after_results_simp
  rfl
theorem host6_keep (r : Ref sig .tc) (hr : r ∉ [main_v76, main_v77, main_v78, main_v79, main_v80, main_v81, main_v82, main_v83, main_v84, main_v85, main_v86, main_v87, main_c_16, main_v88, main_v89, main_c_17, main_v90, main_v91, main_v92, main_v93, main_v94, main_cst_18, main_v95, main_v96, main_v97]) : after hostOps6 X (Proc.devRef .tc r) = X (Proc.devRef .tc r) :=
  after_of_writes_sub hostOps6 X (by host_writes hostOps6) hr
theorem host7_mean : after hostOps7 X (Proc.devRef .tc main_v101) = Cert.Net.mean D (X (Proc.devRef .tc main_v98)) := by
  after_results_simp
  rfl
theorem host7_zero : after hostOps7 X (Proc.devRef .tc main_c_21) = constantI S_ 32 0#32 := by
  after_results_simp
theorem host7_keep (r : Ref sig .tc) (hr : r ∉ [main_cst_19, main_v99, main_cst_20, main_v100, main_v101, main_c_21]) : after hostOps7 X (Proc.devRef .tc r) = X (Proc.devRef .tc r) :=
  after_of_writes_sub hostOps7 X (by host_writes hostOps7) hr
theorem host7_1_var : after hostOps7_1 X (Proc.devRef .tc main_v102) = Cert.Net.var D (X (Proc.devRef .tc main_v98)) (X (Proc.devRef .tc main_c_21)) := by
  after_results_simp
  rfl
theorem host7_1_keep (r : Ref sig .tc) (hr : r ∉ [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v102]) : after hostOps7_1 X (Proc.devRef .tc r) = X (Proc.devRef .tc r) :=
  after_of_writes_sub hostOps7_1 X (by host_writes hostOps7_1) hr

/-! ## The stretches of later layer 4 -/

theorem host8_agg : after hostOps8 X (Proc.devRef .tc main_v125) = Cert.Net.agg D (X (Proc.devRef .tc main_v103)) (X (Proc.devRef .tc main_v1)) (X (Proc.devRef .tc main_v3)) := by
  after_results_simp
  rfl
theorem host8_w1 : after hostOps8 X (Proc.devRef .tc main_v105) = Cert.Net.mat D (X (Proc.devRef .tc main_arg9)) ![3, 0, 0] C.m3 := by
  after_results_simp
  rfl
theorem host8_b1 : after hostOps8 X (Proc.devRef .tc main_v107) = Cert.Net.row D (X (Proc.devRef .tc main_arg10)) ![3, 0] C.r3 := by
  after_results_simp
  rfl
theorem host8_w2 : after hostOps8 X (Proc.devRef .tc main_v109) = Cert.Net.mat D (X (Proc.devRef .tc main_arg11)) ![3, 0, 0] C.m3 := by
  after_results_simp
  rfl
theorem host8_b2 : after hostOps8 X (Proc.devRef .tc main_v111) = Cert.Net.row D (X (Proc.devRef .tc main_arg12)) ![3, 0] C.r3 := by
  after_results_simp
  rfl
theorem host8_ga : after hostOps8 X (Proc.devRef .tc main_v113) = Cert.Net.row D (X (Proc.devRef .tc main_arg13)) ![3, 0] C.r3 := by
  after_results_simp
  rfl
theorem host8_be : after hostOps8 X (Proc.devRef .tc main_v115) = Cert.Net.row D (X (Proc.devRef .tc main_arg14)) ![3, 0] C.r3 := by
  after_results_simp
  rfl
theorem host8_keep (r : Ref sig .tc) (hr : r ∉ [main_v104, main_v105, main_v106, main_v107, main_v108, main_v109, main_v110, main_v111, main_v112, main_v113, main_v114, main_v115, main_c_22, main_v116, main_v117, main_c_23, main_v118, main_v119, main_v120, main_v121, main_v122, main_cst_24, main_v123, main_v124, main_v125]) : after hostOps8 X (Proc.devRef .tc r) = X (Proc.devRef .tc r) :=
  after_of_writes_sub hostOps8 X (by host_writes hostOps8) hr
theorem host9_mean : after hostOps9 X (Proc.devRef .tc main_v129) = Cert.Net.mean D (X (Proc.devRef .tc main_v126)) := by
  after_results_simp
  rfl
theorem host9_zero : after hostOps9 X (Proc.devRef .tc main_c_27) = constantI S_ 32 0#32 := by
  after_results_simp
theorem host9_keep (r : Ref sig .tc) (hr : r ∉ [main_cst_25, main_v127, main_cst_26, main_v128, main_v129, main_c_27]) : after hostOps9 X (Proc.devRef .tc r) = X (Proc.devRef .tc r) :=
  after_of_writes_sub hostOps9 X (by host_writes hostOps9) hr
theorem host9_1_var : after hostOps9_1 X (Proc.devRef .tc main_v130) = Cert.Net.var D (X (Proc.devRef .tc main_v126)) (X (Proc.devRef .tc main_c_27)) := by
  after_results_simp
  rfl
theorem host9_1_keep (r : Ref sig .tc) (hr : r ∉ [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v130]) : after hostOps9_1 X (Proc.devRef .tc r) = X (Proc.devRef .tc r) :=
  after_of_writes_sub hostOps9_1 X (by host_writes hostOps9_1) hr

end Cert.KerSide

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibRowLayers.lean ====
/-
  One dense layer of a multilayer network, read one row at a time over the extended reals.

  A dense layer sends a row `r` (of length K) to the row whose entry q is `∑ k, r k · W (k, q) + b q`: a product with a
  weight matrix and a bias added. Because entry (a, q) of `X · W + b` only looks at row a of `X`, a row block of the
  product can be computed from the same row block of `X`: this is what lets a kernel that walks over row blocks agree
  with one whole-matrix product. The layer is met in two spellings.

  * The accumulating spelling multiplies into a zero accumulator and stretches a one-row bias down the rows.
  * The host spelling uses the plain product and stretches the one-row bias by a dimension map.

  Both are read here at an entry (a, q) as `dense` of row a of the left operand. The rectifier `max · 0` is likewise met
  as a maximum with a splat of zero and as a maximum with a scalar zero stretched to the whole shape.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«110124_j41455024341694_1_alg».proof.Proof.LibColumnBlocks
import proofs.«110124_j41455024341694_1_alg».proof.Proof.LibCastForms

/-- For a literal product record `d` of two matrices: the left operand's row coordinate is the result's row coordinate. -/
macro "dot_lhs0" d:ident : tactic =>
  `(tactic| (intro j k
             unfold Idealize.ShloMosaic.DotDims.lhsIdx
             rw [dif_neg (show ¬(0 : Fin 2) ∈ ($d).lhsBatch by decide), dif_pos (show (0 : Fin 2) ∈ ($d).lhsNonContracting by decide)]
             rfl))

/-- For a literal product record `d` of two matrices: the right operand's column coordinate is the result's column coordinate. -/
macro "dot_rhs1" d:ident : tactic =>
  `(tactic| (intro j k
             unfold Idealize.ShloMosaic.DotDims.rhsIdx
             rw [dif_neg (show ¬(1 : Fin 2) ∈ ($d).rhsBatch by decide), dif_pos (show (1 : Fin 2) ∈ ($d).rhsNonContracting by decide)]
             rfl))

noncomputable section

namespace Cert.LibRowLayers

open Idealize.ShloMosaic Idealize.ShloMosaic.ValueIdx

/-- Entry q of the dense layer's image of the row `r`: `∑ k, r k · W (k, q) + b q`. -/
def dense {K H : ℕ} (r : Fin K → EReal) (W : (⟨2, ![K, H]⟩ : Shape).Idx → EReal) (b : Fin H → EReal) (q : Fin H) : EReal :=
  (∑ k : Fin K, r k * W (ix2 k q)) + b q

/-- The layer's value only depends on the row's entries. -/
theorem dense_congr {K H : ℕ} {r r' : Fin K → EReal} (W : (⟨2, ![K, H]⟩ : Shape).Idx → EReal) {b b' : Fin H → EReal} (q : Fin H)
    (hr : ∀ k, r k = r' k) (hb : b q = b' q) : dense r W b q = dense r' W b' q := by
  unfold dense
  rw [hb]
  exact congrArg (· + b' q) (Finset.sum_congr rfl fun k _ => by rw [hr k])

section Forms
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The accumulating spelling at (p, q): the layer applied to row p of the left operand. -/
theorem tile_dense (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    addf (matmul d prec x w (constant ⟨2, ![A, B]⟩ .f32 0x00000000#32)) (broadcastTo ⟨2, ![A, B]⟩ b hb) (ix2 p q)
      = dense (fun k => x (ix2 p k)) w (fun j => b (ix2 (0 : Fin 1) j)) q := by
  rw [addf_apply, LibColumnBlocks.matmul_zero_apply d hr hs hlc hrc hl0 hr1 x w p q prec, broadcastTo_1b_ab_apply b hb p q]
  rfl

include hr hs hlc hrc hl0 hr1 in
/-- The host spelling at (a, q): the layer applied to row a of the left operand. -/
theorem host_dense (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) (a : Fin A) (q : Fin B) :
    addf (Host.dotGeneral d prec x w) (broadcastInDim ⟨2, ![A, B]⟩ (![0, 1] : Fin 2 → Fin 2) hb b) (ix2 a q)
      = dense (fun k => x (ix2 a k)) w (fun j => b (ix2 (0 : Fin 1) j)) q := by
  rw [addf_apply, LibColumnBlocks.hostDot_apply d hr hs hlc hrc hl0 hr1 x w a q prec, LibCastForms.bcast_1b_ab_apply b hb a q]
  rfl

end Forms

/-- The rectifier as a maximum with a splat of zero. -/
theorem tile_relu {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-- The rectifier as a maximum with a scalar zero stretched to the whole shape. -/
theorem host_relu {s : Shape} (v : FVec Ideal s .f32) (hz : (⟨0, ![]⟩ : Shape).BroadcastsInDim s ![]) (i : s.Idx) :
    maximumf v (broadcastInDim s ![] hz (constant (F := Ideal) ⟨0, ![]⟩ .f32 0x00000000#32)) i = max (v i) 0 := by
  rw [maximumf_apply, broadcastInDim_scalar_apply, constant_apply, Ideal.ofBits_zero_f32]

end Cert.LibRowLayers

end
-- ==== Proof.RowForms.lean ====
/-
  The two tile bodies of a five-layer graph network and their whole-array spellings, read at one entry over the
  extended reals.

  Body A sends two row tiles x₀ (neighbour sums) and x₁ (features) to `max ((x₀ + x₁) · W₁ + b₁) 0 · W₂ + b₂`; body B sends
  a tile y and four one-row parameters to `max ((y − μ) · rsqrt (σ² + ε) · γ + β) 0`. Entry (a, q) of either only looks at
  row a of the row-indexed operands: `mlpAt` is entry q of the two dense layers' image of one row, `normAt` the
  normalisation of one entry. The tile bodies (products into a zero accumulator after a narrowing format change, which
  is the identity on extended reals; one-row biases recast and stretched down the rows) and the whole-array spellings
  (plain products; biases stretched by dimension maps) are each read at (a, q) as these functions of row a. Nothing
  here needs finiteness: no distributivity, no cancelling.
-/
import proofs.«110124_j41455024341694_1_alg».proof.Proof.Gen.KernelIdeal.Skeleton
import proofs.«110124_j41455024341694_1_alg».proof.Proof.KerDims
import proofs.«110124_j41455024341694_1_alg».proof.Proof.Spec
import proofs.«110124_j41455024341694_1_alg».proof.Proof.LibRowLayers
import proofs.«110124_j41455024341694_1_alg».proof.Proof.LibColumnBlocks
import proofs.«110124_j41455024341694_1_alg».proof.Proof.LibCastForms

noncomputable section

namespace Cert.RowForms

open Idealize.ShloMosaic Idealize.ShloMosaic.ValueIdx

/-- Entry q of the two dense layers' image of the row `r + s`: the first layer, the rectifier, the second layer. -/
def mlpAt {K : ℕ} (r s : Fin K → EReal) (w1 : (⟨2, ![K, 128]⟩ : Shape).Idx → EReal) (b1 : Fin 128 → EReal)
    (w2 : (⟨2, ![128, 128]⟩ : Shape).Idx → EReal) (b2 : Fin 128 → EReal) (q : Fin 128) : EReal :=
  Cert.LibRowLayers.dense (fun j => max (Cert.LibRowLayers.dense (fun k => r k + s k) w1 b1 j) 0) w2 b2 q

/-- The value only depends on the two rows' entries. -/
theorem mlpAt_congr {K : ℕ} {r r' s s' : Fin K → EReal} (w1 : (⟨2, ![K, 128]⟩ : Shape).Idx → EReal) (b1 : Fin 128 → EReal)
    (w2 : (⟨2, ![128, 128]⟩ : Shape).Idx → EReal) (b2 : Fin 128 → EReal) (q : Fin 128)
    (hr : ∀ k, r k = r' k) (hs : ∀ k, s k = s' k) : mlpAt r s w1 b1 w2 b2 q = mlpAt r' s' w1 b1 w2 b2 q := by
  unfold mlpAt
  refine Cert.LibRowLayers.dense_congr w2 q (fun j => ?_) rfl
  exact congrArg (fun t => max t 0) (Cert.LibRowLayers.dense_congr w1 j (fun k => by rw [hr k, hs k]) rfl)

/-- The width-9 tile body at (p, q): the two dense layers applied to row p of the two input tiles. -/
theorem tile_mlp9 (x0 x1 : Vec Ideal Cert.KernelIdeal.S5000x9 .f32) (w1 : Vec Ideal Cert.KernelIdeal.S9x128 .f32)
    (b1 : Vec Ideal Cert.KernelIdeal.S128 .f32) (w2 : Vec Ideal Cert.KernelIdeal.S128x128 .f32) (b2 : Vec Ideal Cert.KernelIdeal.S128 .f32)
    (p : Fin 5000) (q : Fin 128) :
    Cert.KernelIdeal.Gen.k0_pay1 (F := Ideal) x0 x1 w1 b1 w2 b2 (ix2 p q)
      = mlpAt (fun k => x0 (ix2 p k)) (fun k => x1 (ix2 p k)) w1 (fun j => b1 (ix1 j)) w2 (fun j => b2 (ix1 j)) q := by
  unfold Cert.KernelIdeal.Gen.k0_pay1
  refine (Cert.LibRowLayers.tile_dense Cert.KernelIdeal.dot_S5000x128_S128x128_S5000x128_1_0_0_1_n_n rfl rfl rfl rfl
    (by dot_lhs0 Cert.KernelIdeal.dot_S5000x128_S128x128_S5000x128_1_0_0_1_n_n)
    (by dot_rhs1 Cert.KernelIdeal.dot_S5000x128_S128x128_S5000x128_1_0_0_1_n_n) none _ _ _ _ p q).trans ?_
  unfold mlpAt
  refine Cert.LibRowLayers.dense_congr _ q (fun j => ?_) (shapeCast_a_1a_apply _ _ _ _)
  refine (truncf_apply (φ := .f32) (ψ := .bf16) _ _ _).trans ?_
  refine (Cert.LibRowLayers.tile_relu _ _).trans (congrArg (fun t => max t 0) ?_)
  refine (Cert.LibRowLayers.tile_dense Cert.KernelIdeal.dot_S5000x9_S9x128_S5000x128_1_0_0_1_n_n rfl rfl rfl rfl
    (by dot_lhs0 Cert.KernelIdeal.dot_S5000x9_S9x128_S5000x128_1_0_0_1_n_n)
    (by dot_rhs1 Cert.KernelIdeal.dot_S5000x9_S9x128_S5000x128_1_0_0_1_n_n) none _ _ _ _ p j).trans ?_
  refine Cert.LibRowLayers.dense_congr _ j (fun k => ?_) (shapeCast_a_1a_apply _ _ _ _)
  refine (truncf_apply (φ := .f32) (ψ := .bf16) _ _ _).trans ((addf_apply _ _ _).trans ?_)
  rw [shapeCast_self]

/-- The width-128 tile body at (p, q): the two dense layers applied to row p of the two input tiles. -/
theorem tile_mlp (x0 x1 : Vec Ideal Cert.KernelIdeal.S5000x128 .f32) (w1 : Vec Ideal Cert.KernelIdeal.S128x128 .f32)
    (b1 : Vec Ideal Cert.KernelIdeal.S128 .f32) (w2 : Vec Ideal Cert.KernelIdeal.S128x128 .f32) (b2 : Vec Ideal Cert.KernelIdeal.S128 .f32)
    (p : Fin 5000) (q : Fin 128) :
    Cert.KernelIdeal.Gen.k2_pay1 (F := Ideal) x0 x1 w1 b1 w2 b2 (ix2 p q)
      = mlpAt (fun k => x0 (ix2 p k)) (fun k => x1 (ix2 p k)) w1 (fun j => b1 (ix1 j)) w2 (fun j => b2 (ix1 j)) q := by
  unfold Cert.KernelIdeal.Gen.k2_pay1
  simp only [shapeCast_self]
  refine (Cert.LibRowLayers.tile_dense Cert.KernelIdeal.dot_S5000x128_S128x128_S5000x128_1_0_0_1_n_n rfl rfl rfl rfl
    (by dot_lhs0 Cert.KernelIdeal.dot_S5000x128_S128x128_S5000x128_1_0_0_1_n_n)
    (by dot_rhs1 Cert.KernelIdeal.dot_S5000x128_S128x128_S5000x128_1_0_0_1_n_n) none _ _ _ _ p q).trans ?_
  unfold mlpAt
  refine Cert.LibRowLayers.dense_congr _ q (fun j => ?_) (shapeCast_a_1a_apply _ _ _ _)
  refine (truncf_apply (φ := .f32) (ψ := .bf16) _ _ _).trans ?_
  refine (Cert.LibRowLayers.tile_relu _ _).trans (congrArg (fun t => max t 0) ?_)
  refine (Cert.LibRowLayers.tile_dense Cert.KernelIdeal.dot_S5000x128_S128x128_S5000x128_1_0_0_1_n_n rfl rfl rfl rfl
    (by dot_lhs0 Cert.KernelIdeal.dot_S5000x128_S128x128_S5000x128_1_0_0_1_n_n)
    (by dot_rhs1 Cert.KernelIdeal.dot_S5000x128_S128x128_S5000x128_1_0_0_1_n_n) none _ _ _ _ p j).trans ?_
  exact Cert.LibRowLayers.dense_congr _ j (fun k => rfl) (shapeCast_a_1a_apply _ _ _ _)

/-- The host's two dense layers on width-9 inputs at (i, q): the layers applied to row i of the two inputs. -/
theorem host_mlp9 (a h : FVec Ideal Cert.Net.SN9 .f32) (w1 : FVec Ideal Cert.Net.S9H .f32) (b1 : FVec Ideal Cert.Net.SH .f32)
    (w2 : FVec Ideal Cert.Net.SHH .f32) (b2 : FVec Ideal Cert.Net.SH .f32) (i : Fin 100000) (q : Fin 128) :
    Cert.Net.mlp9 Cert.KerSide.D a h w1 b1 w2 b2 (ix2 i q)
      = mlpAt (fun k => a (ix2 i k)) (fun k => h (ix2 i k)) w1 (fun j => b1 (ix1 j)) w2 (fun j => b2 (ix1 j)) q := by
  unfold Cert.Net.mlp9 Cert.Net.mlpTop Cert.Net.rows
  refine (Cert.LibRowLayers.host_dense Cert.KerSide.dotN rfl rfl rfl rfl
    (by dot_lhs0 Cert.KerSide.dotN) (by dot_rhs1 Cert.KerSide.dotN) none _ _ _ _ i q).trans ?_
  unfold mlpAt
  refine Cert.LibRowLayers.dense_congr _ q (fun j => ?_) (Cert.LibCastForms.bcast_row _ _ _ _)
  unfold Cert.Net.zerosN
  refine (Cert.LibRowLayers.host_relu _ _ _).trans (congrArg (fun t => max t 0) ?_)
  refine (Cert.LibRowLayers.host_dense Cert.KerSide.dotN9 rfl rfl rfl rfl
    (by dot_lhs0 Cert.KerSide.dotN9) (by dot_rhs1 Cert.KerSide.dotN9) none _ _ _ _ i j).trans ?_
  exact Cert.LibRowLayers.dense_congr _ j (fun k => addf_apply _ _ _) (Cert.LibCastForms.bcast_row _ _ _ _)

/-- The host's two dense layers on width-128 inputs at (i, q): the layers applied to row i of the two inputs. -/
theorem host_mlp (a h : FVec Ideal Cert.Net.SN .f32) (w1 : FVec Ideal Cert.Net.SHH .f32) (b1 : FVec Ideal Cert.Net.SH .f32)
    (w2 : FVec Ideal Cert.Net.SHH .f32) (b2 : FVec Ideal Cert.Net.SH .f32) (i : Fin 100000) (q : Fin 128) :
    Cert.Net.mlp Cert.KerSide.D a h w1 b1 w2 b2 (ix2 i q)
      = mlpAt (fun k => a (ix2 i k)) (fun k => h (ix2 i k)) w1 (fun j => b1 (ix1 j)) w2 (fun j => b2 (ix1 j)) q := by
  unfold Cert.Net.mlp Cert.Net.mlpTop Cert.Net.rows
  refine (Cert.LibRowLayers.host_dense Cert.KerSide.dotN rfl rfl rfl rfl
    (by dot_lhs0 Cert.KerSide.dotN) (by dot_rhs1 Cert.KerSide.dotN) none _ _ _ _ i q).trans ?_
  unfold mlpAt
  refine Cert.LibRowLayers.dense_congr _ q (fun j => ?_) (Cert.LibCastForms.bcast_row _ _ _ _)
  unfold Cert.Net.zerosN
  refine (Cert.LibRowLayers.host_relu _ _ _).trans (congrArg (fun t => max t 0) ?_)
  refine (Cert.LibRowLayers.host_dense Cert.KerSide.dotN rfl rfl rfl rfl
    (by dot_lhs0 Cert.KerSide.dotN) (by dot_rhs1 Cert.KerSide.dotN) none _ _ _ _ i j).trans ?_
  exact Cert.LibRowLayers.dense_congr _ j (fun k => addf_apply _ _ _) (Cert.LibCastForms.bcast_row _ _ _ _)

/-- Normalise, scale, shift and rectify one entry: `max ((y − μ) · rsqrt (σ² + ε) · γ + β) 0`. -/
def normAt (y mu va ga be : EReal) : EReal :=
  max ((y - mu) * Ideal.rsqrt (va + Ideal.ofBits .f32 0x3727C5AC#32) * ga + be) 0

/-- The normalising tile body at (p, q): a function of the entry and of the four parameters' entry q. -/
theorem tile_norm (y : Vec Ideal Cert.KernelIdeal.S5000x128 .f32) (va mu ga be : Vec Ideal Cert.KernelIdeal.S128 .f32)
    (p : Fin 5000) (q : Fin 128) :
    Cert.KernelIdeal.Gen.k1_pay1 (F := Ideal) y va mu ga be (ix2 p q)
      = normAt (y (ix2 p q)) (mu (ix1 q)) (va (ix1 q)) (ga (ix1 q)) (be (ix1 q)) := by
  unfold Cert.KernelIdeal.Gen.k1_pay1
  simp only [shapeCast_self]
  refine (Cert.LibRowLayers.tile_relu _ _).trans ?_
  unfold normAt
  simp only [addf_apply, mulf_apply, subf_apply, broadcastTo_1b_ab_apply, shapeCast_a_1a_apply]
  rfl

/-- The normalising tile body at (p, q): a function of the entry and of the four parameters' entry q. -/
theorem tile_norm' (y : Vec Ideal Cert.KernelIdeal.S5000x128 .f32) (va mu ga be : Vec Ideal Cert.KernelIdeal.S128 .f32)
    (p : Fin 5000) (q : Fin 128) :
    Cert.KernelIdeal.Gen.k3_pay1 (F := Ideal) y va mu ga be (ix2 p q)
      = normAt (y (ix2 p q)) (mu (ix1 q)) (va (ix1 q)) (ga (ix1 q)) (be (ix1 q)) := by
  unfold Cert.KernelIdeal.Gen.k3_pay1
  simp only [shapeCast_self]
  refine (Cert.LibRowLayers.tile_relu _ _).trans ?_
  unfold normAt
  simp only [addf_apply, mulf_apply, subf_apply, broadcastTo_1b_ab_apply, shapeCast_a_1a_apply]
  rfl

/-- A one-row parameter stretched down all rows reads, at (i, q), the parameter's entry q. -/
theorem rows_apply (b : FVec Ideal Cert.Net.SH .f32) (i : Fin 100000) (q : Fin 128) :
    Cert.Net.rows Cert.KerSide.D b (ix2 i q) = b (ix1 q) := by
  unfold Cert.Net.rows
  rw [Cert.LibCastForms.bcast_1b_ab_apply, Cert.LibCastForms.bcast_row]

/-- The host's normalisation at (i, q): a function of the entry and of the four parameters' entry q. -/
theorem host_norm (y : FVec Ideal Cert.Net.SN .f32) (mu va ga be : FVec Ideal Cert.Net.SH .f32) (i : Fin 100000) (q : Fin 128) :
    Cert.Net.norm Cert.KerSide.D y mu va ga be (ix2 i q)
      = normAt (y (ix2 i q)) (mu (ix1 q)) (va (ix1 q)) (ga (ix1 q)) (be (ix1 q)) := by
  unfold Cert.Net.norm Cert.Net.zerosN
  refine (Cert.LibRowLayers.host_relu _ _ _).trans ?_
  unfold normAt
  simp only [addf_apply, mulf_apply, subf_apply, rows_apply]
  rfl

/-- The later width-128 tile bodies are the same text. -/
theorem pay4_eq : @Cert.KernelIdeal.Gen.k4_pay1 = @Cert.KernelIdeal.Gen.k2_pay1 := rfl
theorem pay6_eq : @Cert.KernelIdeal.Gen.k6_pay1 = @Cert.KernelIdeal.Gen.k2_pay1 := rfl
theorem pay8_eq : @Cert.KernelIdeal.Gen.k8_pay1 = @Cert.KernelIdeal.Gen.k2_pay1 := rfl
/-- The later normalising tile bodies are the same text. -/
theorem pay5_eq : @Cert.KernelIdeal.Gen.k5_pay1 = @Cert.KernelIdeal.Gen.k3_pay1 := rfl
theorem pay7_eq : @Cert.KernelIdeal.Gen.k7_pay1 = @Cert.KernelIdeal.Gen.k3_pay1 := rfl
theorem pay9_eq : @Cert.KernelIdeal.Gen.k9_pay1 = @Cert.KernelIdeal.Gen.k3_pay1 := rfl

end Cert.RowForms

end
-- ==== Proof.KerRegion0.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 0: two dense layers with a rectifier between, computed on twenty row tiles of 5000 rows.

  A tile reads rows 5000·t … 5000·t + 4999 of the neighbour sums and of the features, and the whole parameter arrays; it
  writes the same rows of the result. Entry (a, q) of the two dense layers depends only on row a of the two row-indexed
  operands, so the tile's entry (p, q) is the whole-array map's entry (5000·t + p, q); the twenty tiles fill the array.
-/
namespace Cert.KerSide.R0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- One entry of the tile's result is the whole-array result at the matching row, when the tile's rows are the array's. -/
theorem entry (x0 x1 : Vec Ideal S5000x9 .f32) (w1 : Vec Ideal S9x128 .f32) (b1 : Vec Ideal S128 .f32)
    (w2 : Vec Ideal S128x128 .f32) (b2 : Vec Ideal S128 .f32)
    (A H : FVec Ideal Cert.Net.SN9 .f32) (W1 : FVec Ideal Cert.Net.S9H .f32) (B1 : FVec Ideal Cert.Net.SH .f32)
    (W2 : FVec Ideal Cert.Net.SHH .f32) (B2 : FVec Ideal Cert.Net.SH .f32) (p : Fin 5000) (q : Fin 128) (i : Fin 100000)
    (h0 : ∀ k : Fin 9, x0 (ix2 p k) = A (ix2 i k)) (h1 : ∀ k : Fin 9, x1 (ix2 p k) = H (ix2 i k))
    (hw1 : w1 = W1) (hb1 : b1 = B1) (hw2 : w2 = W2) (hb2 : b2 = B2) :
    k0_pay1 (F := Ideal) x0 x1 w1 b1 w2 b2 (ix2 p q) = Cert.Net.mlp9 Cert.KerSide.D A H W1 B1 W2 B2 (ix2 i q) := by
  subst hw1 hb1 hw2 hb2
  rw [Cert.RowForms.tile_mlp9, Cert.RowForms.host_mlp9]
  exact Cert.RowForms.mlpAt_congr _ _ _ _ _ h0 h1

/-- WHAT POINT t WRITES BACK is block t of the two dense layers applied to the whole arrays. -/
theorem flushed (c : Dev nD) (t : Fin cfg0.N) :
    (dat0 V c).flushed 6 t = ((cfg0.win 6).blk t).view.read (Elt Ideal) (Cert.Net.mlp9 (F := Ideal) Cert.KerSide.D (V c main_v13) (V c main_arg0) (V c main_arg3) (V c main_arg4) (V c main_arg5) (V c main_arg6)) := by
  show (cfg0.win 6).cut (grid0.coords t) ((dat0 V c).after 6 t) = _
  rw [after0_6]
  unfold out0_6
  rw [View.canon_unit_zero hz2]
  simp only [View.ld_unit_zero (S := S5000x9) hz2, View.ld_unit_zero (S := S9x128) hz2, View.ld_unit_zero (S := S128x128) hz2, View.ld_unit_zero (S := S128) hz1]
  obtain ⟨e00, e01, e10, e11, e20, e21, e30, e40, e41, e50, e60, e61⟩ := idx t
  have hN : cfg0.N = 20 := N_0
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k0_pay1 (F := Ideal) (iblk0 V c 0 t) (iblk0 V c 1 t) (iblk0 V c 2 t) (iblk0 V c 3 t) (iblk0 V c 4 t) (iblk0 V c 5 t) (ix2 p q)
    = Cert.Net.mlp9 (F := Ideal) Cert.KerSide.D (V c main_v13) (V c main_arg0) (V c main_arg3) (V c main_arg4) (V c main_arg5) (V c main_arg6) (((cfg0.win 6).blk t).view.emb (ix2 p q))
  have hemb : ((cfg0.win 6).blk t).view.emb (ix2 p q) = ix2 (⟨5000 * t.val + p.val, hlt⟩ : Fin 100000) q := by
    funext a; apply Fin.ext
    match a with
    | ⟨0, _⟩ => show win0_6.index t (0 : Fin 2) * 5000 + 1 * p.val = 5000 * t.val + p.val; rw [e60]; omega
    | ⟨1, _⟩ => show win0_6.index t (1 : Fin 2) * 128 + 1 * q.val = q.val; rw [e61]; omega
  rw [hemb]
  refine entry (iblk0 V c 0 t) (iblk0 V c 1 t) (iblk0 V c 2 t) (iblk0 V c 3 t) (iblk0 V c 4 t) (iblk0 V c 5 t)
    (V c main_v13) (V c main_arg0) (V c main_arg3) (V c main_arg4) (V c main_arg5) (V c main_arg6) p q ⟨5000 * t.val + p.val, hlt⟩ ?_ ?_ ?_ ?_ ?_ ?_
  · intro k
    show V c main_v13 (((cfg0.win 0).blk t).view.emb (ix2 p k)) = V c main_v13 (ix2 (⟨5000 * t.val + p.val, hlt⟩ : Fin 100000) k)
    refine congrArg _ ?_
    funext a; apply Fin.ext
    match a with
    | ⟨0, _⟩ => show win0_0.index t (0 : Fin 2) * 5000 + 1 * p.val = 5000 * t.val + p.val; rw [e00]; omega
    | ⟨1, _⟩ => show win0_0.index t (1 : Fin 2) * 9 + 1 * k.val = k.val; rw [e01]; omega
  · intro k
    show V c main_arg0 (((cfg0.win 1).blk t).view.emb (ix2 p k)) = V c main_arg0 (ix2 (⟨5000 * t.val + p.val, hlt⟩ : Fin 100000) k)
    refine congrArg _ ?_
    funext a; apply Fin.ext
    match a with
    | ⟨0, _⟩ => show win0_1.index t (0 : Fin 2) * 5000 + 1 * p.val = 5000 * t.val + p.val; rw [e10]; omega
    | ⟨1, _⟩ => show win0_1.index t (1 : Fin 2) * 9 + 1 * k.val = k.val; rw [e11]; omega
  · funext y
    show V c main_arg3 (((cfg0.win 2).blk t).view.emb y) = V c main_arg3 y
    refine congrArg _ ?_
    funext a; apply Fin.ext
    match a with
    | ⟨0, _⟩ => show win0_2.index t (0 : Fin 2) * 9 + 1 * (y 0).val = (y 0).val; rw [e20]; omega
    | ⟨1, _⟩ => show win0_2.index t (1 : Fin 2) * 128 + 1 * (y 1).val = (y 1).val; rw [e21]; omega
  · funext y
    show V c main_arg4 (((cfg0.win 3).blk t).view.emb y) = V c main_arg4 y
    refine congrArg _ ?_
    funext a; apply Fin.ext
    match a with
    | ⟨0, _⟩ => show win0_3.index t (0 : Fin 1) * 128 + 1 * (y 0).val = (y 0).val; rw [e30]; omega
  · funext y
    show V c main_arg5 (((cfg0.win 4).blk t).view.emb y) = V c main_arg5 y
    refine congrArg _ ?_
    funext a; apply Fin.ext
    match a with
    | ⟨0, _⟩ => show win0_4.index t (0 : Fin 2) * 128 + 1 * (y 0).val = (y 0).val; rw [e40]; omega
    | ⟨1, _⟩ => show win0_4.index t (1 : Fin 2) * 128 + 1 * (y 1).val = (y 1).val; rw [e41]; omega
  · funext y
    show V c main_arg6 (((cfg0.win 5).blk t).view.emb y) = V c main_arg6 y
    refine congrArg _ ?_
    funext a; apply Fin.ext
    match a with
    | ⟨0, _⟩ => show win0_5.index t (0 : Fin 1) * 128 + 1 * (y 0).val = (y 0).val; rw [e50]; omega

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_6 _, ?_⟩
  rw [mem_blk]
  obtain ⟨-, -, -, -, -, -, -, -, -, -, eo0, eo1⟩ := idx ⟨(i 0).val / 5000, by rw [hN]; omega⟩
  intro a
  match a with
  | ⟨0, _⟩ => show win0_6.index _ (0 : Fin 2) * 5000 ≤ (i 0).val ∧ (i 0).val < win0_6.index _ (0 : Fin 2) * 5000 + 5000; rw [eo0]; show (i 0).val / 5000 * 5000 ≤ (i 0).val ∧ (i 0).val < (i 0).val / 5000 * 5000 + 5000; omega
  | ⟨1, _⟩ => show win0_6.index _ (1 : Fin 2) * 128 ≤ (i 1).val ∧ (i 1).val < win0_6.index _ (1 : Fin 2) * 128 + 128; rw [eo1]; omega

/-- THE ARRAY after the region: the two dense layers of the region-entry arrays. -/
theorem arr (c : Dev nD) : (dat0 V c).arrAt 6 cfg0.N = Cert.Net.mlp9 (F := Ideal) Cert.KerSide.D (V c main_v13) (V c main_arg0) (V c main_arg3) (V c main_arg4) (V c main_arg5) (V c main_arg6) :=
  (dat0 V c).arrAt_eq_of_cover 6 _ (fun t _ => flushed V c t) cover

end Cert.KerSide.R0

end
-- ==== Proof.KerRegion1.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 1: normalise, scale, shift and rectify, computed on twenty row tiles of 5000 rows.

  A tile reads rows 5000·t … 5000·t + 4999 of the array and the four one-row parameters whole (the column means, the
  column variances, the scale, the shift); it writes the same rows of the result. The map is entrywise in the array and
  columnwise in the parameters, so the tile's entry (p, q) is the whole-array map's entry (5000·t + p, q); the twenty
  tiles fill the array.
-/
namespace Cert.KerSide.R1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- One entry of the tile's result is the whole-array result at the matching row. (The body takes the variances before
    the means.) -/
theorem entry (y : Vec Ideal S5000x128 .f32) (mu va ga be : Vec Ideal S128 .f32)
    (Y : FVec Ideal Cert.Net.SN .f32) (MU VA GA BE : FVec Ideal Cert.Net.SH .f32) (p : Fin 5000) (q : Fin 128) (i : Fin 100000)
    (h0 : y (ix2 p q) = Y (ix2 i q)) (hmu : mu = MU) (hva : va = VA) (hga : ga = GA) (hbe : be = BE) :
    k1_pay1 (F := Ideal) y va mu ga be (ix2 p q) = Cert.Net.norm Cert.KerSide.D Y MU VA GA BE (ix2 i q) := by
  subst hmu hva hga hbe
  rw [Cert.RowForms.tile_norm, Cert.RowForms.host_norm, h0]

/-- WHAT POINT t WRITES BACK is block t of the normalisation applied to the whole arrays. -/
theorem flushed (c : Dev nD) (t : Fin cfg1.N) :
    (dat1 V c).flushed 5 t = ((cfg1.win 5).blk t).view.read (Elt Ideal) (Cert.Net.norm (F := Ideal) Cert.KerSide.D (V c main_v14) (V c main_v17) (V c main_v18) (V c main_arg7) (V c main_arg8)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128) hz1]
  obtain ⟨e00, e01, e10, e20, e30, e40, e50, e51⟩ := idx t
  have hN : cfg1.N = 20 := N_1
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k1_pay1 (F := Ideal) (iblk1 V c 0 t) (iblk1 V c 2 t) (iblk1 V c 1 t) (iblk1 V c 3 t) (iblk1 V c 4 t) (ix2 p q)
    = Cert.Net.norm (F := Ideal) Cert.KerSide.D (V c main_v14) (V c main_v17) (V c main_v18) (V c main_arg7) (V c main_arg8) (((cfg1.win 5).blk t).view.emb (ix2 p q))
  have hemb : ((cfg1.win 5).blk t).view.emb (ix2 p q) = ix2 (⟨5000 * t.val + p.val, hlt⟩ : Fin 100000) q := by
    funext a; apply Fin.ext
    match a with
    | ⟨0, _⟩ => show win1_5.index t (0 : Fin 2) * 5000 + 1 * p.val = 5000 * t.val + p.val; rw [e50]; omega
    | ⟨1, _⟩ => show win1_5.index t (1 : Fin 2) * 128 + 1 * q.val = q.val; rw [e51]; omega
  rw [hemb]
  refine entry (iblk1 V c 0 t) (iblk1 V c 1 t) (iblk1 V c 2 t) (iblk1 V c 3 t) (iblk1 V c 4 t)
    (V c main_v14) (V c main_v17) (V c main_v18) (V c main_arg7) (V c main_arg8) p q ⟨5000 * t.val + p.val, hlt⟩ ?_ ?_ ?_ ?_ ?_
  · show V c main_v14 (((cfg1.win 0).blk t).view.emb (ix2 p q)) = V c main_v14 (ix2 (⟨5000 * t.val + p.val, hlt⟩ : Fin 100000) q)
    refine congrArg _ ?_
    funext a; apply Fin.ext
    match a with
    | ⟨0, _⟩ => show win1_0.index t (0 : Fin 2) * 5000 + 1 * p.val = 5000 * t.val + p.val; rw [e00]; omega
    | ⟨1, _⟩ => show win1_0.index t (1 : Fin 2) * 128 + 1 * q.val = q.val; rw [e01]; omega
  · funext y
    show V c main_v17 (((cfg1.win 1).blk t).view.emb y) = V c main_v17 y
    refine congrArg _ ?_
    funext a; apply Fin.ext
    match a with
    | ⟨0, _⟩ => show win1_1.index t (0 : Fin 1) * 128 + 1 * (y 0).val = (y 0).val; rw [e10]; omega
  · funext y
    show V c main_v18 (((cfg1.win 2).blk t).view.emb y) = V c main_v18 y
    refine congrArg _ ?_
    funext a; apply Fin.ext
    match a with
    | ⟨0, _⟩ => show win1_2.index t (0 : Fin 1) * 128 + 1 * (y 0).val = (y 0).val; rw [e20]; omega
  · funext y
    show V c main_arg7 (((cfg1.win 3).blk t).view.emb y) = V c main_arg7 y
    refine congrArg _ ?_
    funext a; apply Fin.ext
    match a with
    | ⟨0, _⟩ => show win1_3.index t (0 : Fin 1) * 128 + 1 * (y 0).val = (y 0).val; rw [e30]; omega
  · funext y
    show V c main_arg8 (((cfg1.win 4).blk t).view.emb y) = V c main_arg8 y
    refine congrArg _ ?_
    funext a; apply Fin.ext
    match a with
    | ⟨0, _⟩ => show win1_4.index t (0 : Fin 1) * 128 + 1 * (y 0).val = (y 0).val; rw [e40]; omega

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v19).slice (win1_5.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_5 _, ?_⟩
  rw [mem_blk]
  obtain ⟨-, -, -, -, -, -, eo0, eo1⟩ := idx ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [eo0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [eo1]; omega

/-- THE ARRAY after the region: the normalisation of the region-entry arrays. -/
theorem arr (c : Dev nD) : (dat1 V c).arrAt 5 cfg1.N = Cert.Net.norm (F := Ideal) Cert.KerSide.D (V c main_v14) (V c main_v17) (V c main_v18) (V c main_arg7) (V c main_arg8) :=
  (dat1 V c).arrAt_eq_of_cover 5 _ (fun t _ => flushed V c t) cover

end Cert.KerSide.R1

end
-- ==== Proof.KerLayer0.lean ====
/-
  The first layer of the idealized kernel program, from the launch contents to its exit contents.

  The first host stretch cuts the edge table into its source row and its destination row and forms the neighbour sum of
  the width-9 features; the dense region, the two statistics stretches and the normalising region follow. Reading the
  fold backwards, the layer's result array is the network's first-layer function of the arguments; the two edge rows
  stay in their buffers and the stacked parameters pass through unchanged.
-/
import proofs.«110124_j41455024341694_1_alg».proof.Proof.Gen.KernelIdeal.Frame
import proofs.«110124_j41455024341694_1_alg».proof.Proof.KerHost
import proofs.«110124_j41455024341694_1_alg».proof.Proof.KerRegion0
import proofs.«110124_j41455024341694_1_alg».proof.Proof.KerRegion1

noncomputable section

namespace Cert.KerSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The dense region's result: the two dense layers of the neighbour sum plus the features. -/
theorem dense0 (c : Dev nD) :
    W2 m ρ c (Proc.devRef .tc main_v14)
      = Cert.Net.mlp9 (F := Ideal) D (Cert.Net.agg9 (F := Ideal) D (W0 m ρ c (Proc.devRef .tc main_arg0)) (Cert.Net.edgeRow D (W0 m ρ c (Proc.devRef .tc main_arg1)) ![0, 0] D.slE0) (Cert.Net.edgeRow D (W0 m ρ c (Proc.devRef .tc main_arg1)) ![1, 0] D.slE1)) (W0 m ρ c (Proc.devRef .tc main_arg0))
          (W0 m ρ c (Proc.devRef .tc main_arg3)) (W0 m ρ c (Proc.devRef .tc main_arg4)) (W0 m ρ c (Proc.devRef .tc main_arg5)) (W0 m ρ c (Proc.devRef .tc main_arg6)) := by
  refine (W2_arr m ρ c 6).trans ((R0.arr (V1 m ρ) c).trans ?_)
  show Cert.Net.mlp9 (F := Ideal) D (after hostOps0 (W0 m ρ c) (Proc.devRef .tc main_v13)) (after hostOps0 (W0 m ρ c) (Proc.devRef .tc main_arg0))
    (after hostOps0 (W0 m ρ c) (Proc.devRef .tc main_arg3)) (after hostOps0 (W0 m ρ c) (Proc.devRef .tc main_arg4))
    (after hostOps0 (W0 m ρ c) (Proc.devRef .tc main_arg5)) (after hostOps0 (W0 m ρ c) (Proc.devRef .tc main_arg6)) = _
  rw [host0_agg, host0_keep _ main_arg0 (by decide), host0_keep _ main_arg3 (by decide), host0_keep _ main_arg4 (by decide),
    host0_keep _ main_arg5 (by decide), host0_keep _ main_arg6 (by decide)]

/-- A buffer none of the layer's stretches writes and none of its regions owns passes through the layer. -/
theorem keep0 (c : Dev nD) (r : Ref sig .tc) (hA : r ∉ [main_v0, main_v1, main_v2, main_v3, main_c, main_v4, main_v5, main_c_0, main_v6, main_v7, main_v8, main_v9, main_v10, main_cst, main_v11, main_v12, main_v13])
    (h0 : ∀ w, Pipeline.arrRef spec0 w ≠ r) (hB : r ∉ [main_cst_1, main_v15, main_cst_2, main_v16, main_v17, main_c_3])
    (hC : r ∉ [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v18]) (h1 : ∀ w, Pipeline.arrRef spec1 w ≠ r) :
    W5 m ρ c (Proc.devRef .tc r) = W0 m ρ c (Proc.devRef .tc r) :=
  (W5_of_ne m ρ c r h1).trans ((host1_1_keep _ r hC).trans ((host1_keep _ r hB).trans ((W2_of_ne m ρ c r h0).trans (host0_keep _ r hA))))

/-- The source row stays in its buffer through the layer. -/
theorem src0 (c : Dev nD) : W5 m ρ c (Proc.devRef .tc main_v1) = Cert.Net.edgeRow D (W0 m ρ c (Proc.devRef .tc main_arg1)) ![0, 0] D.slE0 :=
  (W5_of_ne m ρ c main_v1 (by decide)).trans ((host1_1_keep _ main_v1 (by decide)).trans ((host1_keep _ main_v1 (by decide)).trans
    ((W2_of_ne m ρ c main_v1 (by decide)).trans (host0_src _))))

/-- The destination row stays in its buffer through the layer. -/
theorem dst0 (c : Dev nD) : W5 m ρ c (Proc.devRef .tc main_v3) = Cert.Net.edgeRow D (W0 m ρ c (Proc.devRef .tc main_arg1)) ![1, 0] D.slE1 :=
  (W5_of_ne m ρ c main_v3 (by decide)).trans ((host1_1_keep _ main_v3 (by decide)).trans ((host1_keep _ main_v3 (by decide)).trans
    ((W2_of_ne m ρ c main_v3 (by decide)).trans (host0_dst _))))

/-- The layer's result array is the first-layer function of the arguments. -/
theorem layer0 (c : Dev nD) :
    W5 m ρ c (Proc.devRef .tc main_v19)
      = Cert.Net.layer9 (F := Ideal) D (W0 m ρ c (Proc.devRef .tc main_arg0)) (Cert.Net.edgeRow D (W0 m ρ c (Proc.devRef .tc main_arg1)) ![0, 0] D.slE0) (Cert.Net.edgeRow D (W0 m ρ c (Proc.devRef .tc main_arg1)) ![1, 0] D.slE1) (W0 m ρ c (Proc.devRef .tc main_arg3)) (W0 m ρ c (Proc.devRef .tc main_arg4)) (W0 m ρ c (Proc.devRef .tc main_arg5))
          (W0 m ρ c (Proc.devRef .tc main_arg6)) (W0 m ρ c (Proc.devRef .tc main_arg7)) (W0 m ρ c (Proc.devRef .tc main_arg8)) := by
  refine (W5_arr m ρ c 5).trans ((R1.arr (V4 m ρ) c).trans ?_)
  show Cert.Net.norm (F := Ideal) D (after hostOps1_1 (after hostOps1 (W2 m ρ c)) (Proc.devRef .tc main_v14)) (after hostOps1_1 (after hostOps1 (W2 m ρ c)) (Proc.devRef .tc main_v17))
    (after hostOps1_1 (after hostOps1 (W2 m ρ c)) (Proc.devRef .tc main_v18)) (after hostOps1_1 (after hostOps1 (W2 m ρ c)) (Proc.devRef .tc main_arg7))
    (after hostOps1_1 (after hostOps1 (W2 m ρ c)) (Proc.devRef .tc main_arg8)) = _
  rw [host1_1_var, host1_1_keep _ main_v14 (by decide), host1_1_keep _ main_v17 (by decide), host1_1_keep _ main_arg7 (by decide), host1_1_keep _ main_arg8 (by decide),
    host1_mean, host1_zero, host1_keep _ main_v14 (by decide), host1_keep _ main_arg7 (by decide), host1_keep _ main_arg8 (by decide),
    W2_of_ne m ρ c main_arg7 (by decide), W2_of_ne m ρ c main_arg8 (by decide), dense0 m ρ c]
  show Cert.Net.norm (F := Ideal) D _ _ _ (after hostOps0 (W0 m ρ c) (Proc.devRef .tc main_arg7)) (after hostOps0 (W0 m ρ c) (Proc.devRef .tc main_arg8)) = _
  rw [host0_keep _ main_arg7 (by decide), host0_keep _ main_arg8 (by decide)]
  rfl

end Cert.KerSide

end
-- ==== Proof.KerRegion2.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 2: two dense layers with a rectifier between, computed on twenty row tiles of 5000 rows.

  A tile reads rows 5000·t … 5000·t + 4999 of the neighbour sums and of the features, and the whole parameter arrays; it
  writes the same rows of the result. Entry (a, q) of the two dense layers depends only on row a of the two row-indexed
  operands, so the tile's entry (p, q) is the whole-array map's entry (5000·t + p, q); the twenty tiles fill the array.
-/
namespace Cert.KerSide.R2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- One entry of the tile's result is the whole-array result at the matching row, when the tile's rows are the array's. -/
theorem entry (x0 x1 : Vec Ideal S5000x128 .f32) (w1 : Vec Ideal S128x128 .f32) (b1 : Vec Ideal S128 .f32)
    (w2 : Vec Ideal S128x128 .f32) (b2 : Vec Ideal S128 .f32)
    (A H : FVec Ideal Cert.Net.SN .f32) (W1 : FVec Ideal Cert.Net.SHH .f32) (B1 : FVec Ideal Cert.Net.SH .f32)
    (W2 : FVec Ideal Cert.Net.SHH .f32) (B2 : FVec Ideal Cert.Net.SH .f32) (p : Fin 5000) (q : Fin 128) (i : Fin 100000)
    (h0 : ∀ k : Fin 128, x0 (ix2 p k) = A (ix2 i k)) (h1 : ∀ k : Fin 128, x1 (ix2 p k) = H (ix2 i k))
    (hw1 : w1 = W1) (hb1 : b1 = B1) (hw2 : w2 = W2) (hb2 : b2 = B2) :
    k2_pay1 (F := Ideal) x0 x1 w1 b1 w2 b2 (ix2 p q) = Cert.Net.mlp Cert.KerSide.D A H W1 B1 W2 B2 (ix2 i q) := by
  subst hw1 hb1 hw2 hb2
  rw [Cert.RowForms.tile_mlp, Cert.RowForms.host_mlp]
  exact Cert.RowForms.mlpAt_congr _ _ _ _ _ h0 h1

/-- WHAT POINT t WRITES BACK is block t of the two dense layers applied to the whole arrays. -/
theorem flushed (c : Dev nD) (t : Fin cfg2.N) :
    (dat2 V c).flushed 6 t = ((cfg2.win 6).blk t).view.read (Elt Ideal) (Cert.Net.mlp (F := Ideal) Cert.KerSide.D (V c main_v41) (V c main_v19) (V c main_v21) (V c main_v23) (V c main_v25) (V c main_v27)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e60, e61⟩ := idx t
  have hN : cfg2.N = 20 := N_2
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k2_pay1 (F := Ideal) (iblk2 V c 0 t) (iblk2 V c 1 t) (iblk2 V c 2 t) (iblk2 V c 3 t) (iblk2 V c 4 t) (iblk2 V c 5 t) (ix2 p q)
    = Cert.Net.mlp (F := Ideal) Cert.KerSide.D (V c main_v41) (V c main_v19) (V c main_v21) (V c main_v23) (V c main_v25) (V c main_v27) (((cfg2.win 6).blk t).view.emb (ix2 p q))
  have hemb : ((cfg2.win 6).blk t).view.emb (ix2 p q) = ix2 (⟨5000 * t.val + p.val, hlt⟩ : Fin 100000) q := by
    funext a; apply Fin.ext
    match a with
    | ⟨0, _⟩ => show win2_6.index t (0 : Fin 2) * 5000 + 1 * p.val = 5000 * t.val + p.val; rw [e60]; omega
    | ⟨1, _⟩ => show win2_6.index t (1 : Fin 2) * 128 + 1 * q.val = q.val; rw [e61]; omega
  rw [hemb]
  refine entry (iblk2 V c 0 t) (iblk2 V c 1 t) (iblk2 V c 2 t) (iblk2 V c 3 t) (iblk2 V c 4 t) (iblk2 V c 5 t)
    (V c main_v41) (V c main_v19) (V c main_v21) (V c main_v23) (V c main_v25) (V c main_v27) p q ⟨5000 * t.val + p.val, hlt⟩ ?_ ?_ ?_ ?_ ?_ ?_
  · intro k
    show V c main_v41 (((cfg2.win 0).blk t).view.emb (ix2 p k)) = V c main_v41 (ix2 (⟨5000 * t.val + p.val, hlt⟩ : Fin 100000) k)
    refine congrArg _ ?_
    funext a; apply Fin.ext
    match a with
    | ⟨0, _⟩ => show win2_0.index t (0 : Fin 2) * 5000 + 1 * p.val = 5000 * t.val + p.val; rw [e00]; omega
    | ⟨1, _⟩ => show win2_0.index t (1 : Fin 2) * 128 + 1 * k.val = k.val; rw [e01]; omega
  · intro k
    show V c main_v19 (((cfg2.win 1).blk t).view.emb (ix2 p k)) = V c main_v19 (ix2 (⟨5000 * t.val + p.val, hlt⟩ : Fin 100000) k)
    refine congrArg _ ?_
    funext a; apply Fin.ext
    match a with
    | ⟨0, _⟩ => show win2_1.index t (0 : Fin 2) * 5000 + 1 * p.val = 5000 * t.val + p.val; rw [e10]; omega
    | ⟨1, _⟩ => show win2_1.index t (1 : Fin 2) * 128 + 1 * k.val = k.val; rw [e11]; omega
  · funext y
    show V c main_v21 (((cfg2.win 2).blk t).view.emb y) = V c main_v21 y
    refine congrArg _ ?_
    funext a; apply Fin.ext
    match a with
    | ⟨0, _⟩ => show win2_2.index t (0 : Fin 2) * 128 + 1 * (y 0).val = (y 0).val; rw [e20]; omega
    | ⟨1, _⟩ => show win2_2.index t (1 : Fin 2) * 128 + 1 * (y 1).val = (y 1).val; rw [e21]; omega
  · funext y
    show V c main_v23 (((cfg2.win 3).blk t).view.emb y) = V c main_v23 y
    refine congrArg _ ?_
    funext a; apply Fin.ext
    match a with
    | ⟨0, _⟩ => show win2_3.index t (0 : Fin 1) * 128 + 1 * (y 0).val = (y 0).val; rw [e30]; omega
  · funext y
    show V c main_v25 (((cfg2.win 4).blk t).view.emb y) = V c main_v25 y
    refine congrArg _ ?_
    funext a; apply Fin.ext
    match a with
    | ⟨0, _⟩ => show win2_4.index t (0 : Fin 2) * 128 + 1 * (y 0).val = (y 0).val; rw [e40]; omega
    | ⟨1, _⟩ => show win2_4.index t (1 : Fin 2) * 128 + 1 * (y 1).val = (y 1).val; rw [e41]; omega
  · funext y
    show V c main_v27 (((cfg2.win 5).blk t).view.emb y) = V c main_v27 y
    refine congrArg _ ?_
    funext a; apply Fin.ext
    match a with
    | ⟨0, _⟩ => show win2_5.index t (0 : Fin 1) * 128 + 1 * (y 0).val = (y 0).val; rw [e50]; omega

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v42).slice (win2_6.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg2.N, (cfg2.win 6).flush t = true ∧ i ∈ ((cfg2.win 6).blk t).view.set := by
  have hN : cfg2.N = 20 := N_2
  have hi0 : (i 0).val < 100000 := (i 0).isLt
  have hi1 : (i 1).val < 128 := (i 1).isLt
  refine ⟨⟨(i 0).val / 5000, by rw [hN]; omega⟩, flush2_6 _, ?_⟩
  rw [mem_blk]
  obtain ⟨-, -, -, -, -, -, -, -, -, -, eo0, eo1⟩ := idx ⟨(i 0).val / 5000, by rw [hN]; omega⟩
  intro a
  match a with
  | ⟨0, _⟩ => show win2_6.index _ (0 : Fin 2) * 5000 ≤ (i 0).val ∧ (i 0).val < win2_6.index _ (0 : Fin 2) * 5000 + 5000; rw [eo0]; show (i 0).val / 5000 * 5000 ≤ (i 0).val ∧ (i 0).val < (i 0).val / 5000 * 5000 + 5000; omega
  | ⟨1, _⟩ => show win2_6.index _ (1 : Fin 2) * 128 ≤ (i 1).val ∧ (i 1).val < win2_6.index _ (1 : Fin 2) * 128 + 128; rw [eo1]; omega

/-- THE ARRAY after the region: the two dense layers of the region-entry arrays. -/
theorem arr (c : Dev nD) : (dat2 V c).arrAt 6 cfg2.N = Cert.Net.mlp (F := Ideal) Cert.KerSide.D (V c main_v41) (V c main_v19) (V c main_v21) (V c main_v23) (V c main_v25) (V c main_v27) :=
  (dat2 V c).arrAt_eq_of_cover 6 _ (fun t _ => flushed V c t) cover

end Cert.KerSide.R2

end
-- ==== Proof.KerRegion3.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 3: normalise, scale, shift and rectify, computed on twenty row tiles of 5000 rows.

  A tile reads rows 5000·t … 5000·t + 4999 of the array and the four one-row parameters whole (the column means, the
  column variances, the scale, the shift); it writes the same rows of the result. The map is entrywise in the array and
  columnwise in the parameters, so the tile's entry (p, q) is the whole-array map's entry (5000·t + p, q); the twenty
  tiles fill the array.
-/
namespace Cert.KerSide.R3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg3.N,
    win3_0.index t (0 : Fin 2) = t.val ∧ win3_0.index t (1 : Fin 2) = 0
    ∧ win3_1.index t (0 : Fin 1) = 0 ∧ win3_2.index t (0 : Fin 1) = 0
    ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- One entry of the tile's result is the whole-array result at the matching row. (The body takes the variances before
    the means.) -/
theorem entry (y : Vec Ideal S5000x128 .f32) (mu va ga be : Vec Ideal S128 .f32)
    (Y : FVec Ideal Cert.Net.SN .f32) (MU VA GA BE : FVec Ideal Cert.Net.SH .f32) (p : Fin 5000) (q : Fin 128) (i : Fin 100000)
    (h0 : y (ix2 p q) = Y (ix2 i q)) (hmu : mu = MU) (hva : va = VA) (hga : ga = GA) (hbe : be = BE) :
    k3_pay1 (F := Ideal) y va mu ga be (ix2 p q) = Cert.Net.norm Cert.KerSide.D Y MU VA GA BE (ix2 i q) := by
  subst hmu hva hga hbe
  rw [Cert.RowForms.tile_norm', Cert.RowForms.host_norm, h0]

/-- WHAT POINT t WRITES BACK is block t of the normalisation applied to the whole arrays. -/
theorem flushed (c : Dev nD) (t : Fin cfg3.N) :
    (dat3 V c).flushed 5 t = ((cfg3.win 5).blk t).view.read (Elt Ideal) (Cert.Net.norm (F := Ideal) Cert.KerSide.D (V c main_v42) (V c main_v45) (V c main_v46) (V c main_v29) (V c main_v31)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128) hz1]
  obtain ⟨e00, e01, e10, e20, e30, e40, e50, e51⟩ := idx t
  have hN : cfg3.N = 20 := N_3
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k3_pay1 (F := Ideal) (iblk3 V c 0 t) (iblk3 V c 2 t) (iblk3 V c 1 t) (iblk3 V c 3 t) (iblk3 V c 4 t) (ix2 p q)
    = Cert.Net.norm (F := Ideal) Cert.KerSide.D (V c main_v42) (V c main_v45) (V c main_v46) (V c main_v29) (V c main_v31) (((cfg3.win 5).blk t).view.emb (ix2 p q))
  have hemb : ((cfg3.win 5).blk t).view.emb (ix2 p q) = ix2 (⟨5000 * t.val + p.val, hlt⟩ : Fin 100000) q := by
    funext a; apply Fin.ext
    match a with
    | ⟨0, _⟩ => show win3_5.index t (0 : Fin 2) * 5000 + 1 * p.val = 5000 * t.val + p.val; rw [e50]; omega
    | ⟨1, _⟩ => show win3_5.index t (1 : Fin 2) * 128 + 1 * q.val = q.val; rw [e51]; omega
  rw [hemb]
  refine entry (iblk3 V c 0 t) (iblk3 V c 1 t) (iblk3 V c 2 t) (iblk3 V c 3 t) (iblk3 V c 4 t)
    (V c main_v42) (V c main_v45) (V c main_v46) (V c main_v29) (V c main_v31) p q ⟨5000 * t.val + p.val, hlt⟩ ?_ ?_ ?_ ?_ ?_
  · show V c main_v42 (((cfg3.win 0).blk t).view.emb (ix2 p q)) = V c main_v42 (ix2 (⟨5000 * t.val + p.val, hlt⟩ : Fin 100000) q)
    refine congrArg _ ?_
    funext a; apply Fin.ext
    match a with
    | ⟨0, _⟩ => show win3_0.index t (0 : Fin 2) * 5000 + 1 * p.val = 5000 * t.val + p.val; rw [e00]; omega
    | ⟨1, _⟩ => show win3_0.index t (1 : Fin 2) * 128 + 1 * q.val = q.val; rw [e01]; omega
  · funext y
    show V c main_v45 (((cfg3.win 1).blk t).view.emb y) = V c main_v45 y
    refine congrArg _ ?_
    funext a; apply Fin.ext
    match a with
    | ⟨0, _⟩ => show win3_1.index t (0 : Fin 1) * 128 + 1 * (y 0).val = (y 0).val; rw [e10]; omega
  · funext y
    show V c main_v46 (((cfg3.win 2).blk t).view.emb y) = V c main_v46 y
    refine congrArg _ ?_
    funext a; apply Fin.ext
    match a with
    | ⟨0, _⟩ => show win3_2.index t (0 : Fin 1) * 128 + 1 * (y 0).val = (y 0).val; rw [e20]; omega
  · funext y
    show V c main_v29 (((cfg3.win 3).blk t).view.emb y) = V c main_v29 y
    refine congrArg _ ?_
    funext a; apply Fin.ext
    match a with
    | ⟨0, _⟩ => show win3_3.index t (0 : Fin 1) * 128 + 1 * (y 0).val = (y 0).val; rw [e30]; omega
  · funext y
    show V c main_v31 (((cfg3.win 4).blk t).view.emb y) = V c main_v31 y
    refine congrArg _ ?_
    funext a; apply Fin.ext
    match a with
    | ⟨0, _⟩ => show win3_4.index t (0 : Fin 1) * 128 + 1 * (y 0).val = (y 0).val; rw [e40]; omega

/-- An index of the array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v47).slice (win3_5.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg3.N, (cfg3.win 5).flush t = true ∧ i ∈ ((cfg3.win 5).blk t).view.set := by
  have hN : cfg3.N = 20 := N_3
  have hi0 : (i 0).val < 100000 := (i 0).isLt
  have hi1 : (i 1).val < 128 := (i 1).isLt
  refine ⟨⟨(i 0).val / 5000, by rw [hN]; omega⟩, flush3_5 _, ?_⟩
  rw [mem_blk]
  obtain ⟨-, -, -, -, -, -, eo0, eo1⟩ := idx ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [eo0]; show (i 0).val / 5000 * 5000 ≤ (i 0).val ∧ (i 0).val < (i 0).val / 5000 * 5000 + 5000; omega
  | ⟨1, _⟩ => show win3_5.index _ (1 : Fin 2) * 128 ≤ (i 1).val ∧ (i 1).val < win3_5.index _ (1 : Fin 2) * 128 + 128; rw [eo1]; omega

/-- THE ARRAY after the region: the normalisation of the region-entry arrays. -/
theorem arr (c : Dev nD) : (dat3 V c).arrAt 5 cfg3.N = Cert.Net.norm (F := Ideal) Cert.KerSide.D (V c main_v42) (V c main_v45) (V c main_v46) (V c main_v29) (V c main_v31) :=
  (dat3 V c).arrAt_eq_of_cover 5 _ (fun t _ => flushed V c t) cover

end Cert.KerSide.R3

end
-- ==== Proof.KerLayer1.lean ====
/-
  Later layer 1 of the idealized kernel program, from its entry contents to its exit contents.

  The layer is a host stretch (the neighbour sum and the layer's parameter slices), the dense region, two host stretches
  (the column means, the column variances) and the normalising region. Reading the fold backwards, the layer's result
  array is the network's layer function of the features, the two edge rows and the stacked parameters as the layer found
  them; the edge rows and the stacked parameters pass through the layer unchanged.
-/
import proofs.«110124_j41455024341694_1_alg».proof.Proof.Gen.KernelIdeal.Frame
import proofs.«110124_j41455024341694_1_alg».proof.Proof.KerHost
import proofs.«110124_j41455024341694_1_alg».proof.Proof.KerRegion2
import proofs.«110124_j41455024341694_1_alg».proof.Proof.KerRegion3

noncomputable section

namespace Cert.KerSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The dense region's result: the two dense layers of the neighbour sum plus the features. -/
theorem dense1 (c : Dev nD) :
    W7 m ρ c (Proc.devRef .tc main_v42)
      = Cert.Net.mlp (F := Ideal) D (Cert.Net.agg (F := Ideal) D (W5 m ρ c (Proc.devRef .tc main_v19)) (W5 m ρ c (Proc.devRef .tc main_v1)) (W5 m ρ c (Proc.devRef .tc main_v3))) (W5 m ρ c (Proc.devRef .tc main_v19))
          (Cert.Net.mat (F := Ideal) D (W5 m ρ c (Proc.devRef .tc main_arg9)) ![0, 0, 0] C.m0) (Cert.Net.row (F := Ideal) D (W5 m ρ c (Proc.devRef .tc main_arg10)) ![0, 0] C.r0)
          (Cert.Net.mat (F := Ideal) D (W5 m ρ c (Proc.devRef .tc main_arg11)) ![0, 0, 0] C.m0) (Cert.Net.row (F := Ideal) D (W5 m ρ c (Proc.devRef .tc main_arg12)) ![0, 0] C.r0) := by
  refine (W7_arr m ρ c 6).trans ((R2.arr (V6 m ρ) c).trans ?_)
  show Cert.Net.mlp (F := Ideal) D (after hostOps2 (W5 m ρ c) (Proc.devRef .tc main_v41)) (after hostOps2 (W5 m ρ c) (Proc.devRef .tc main_v19)) (after hostOps2 (W5 m ρ c) (Proc.devRef .tc main_v21))
    (after hostOps2 (W5 m ρ c) (Proc.devRef .tc main_v23)) (after hostOps2 (W5 m ρ c) (Proc.devRef .tc main_v25)) (after hostOps2 (W5 m ρ c) (Proc.devRef .tc main_v27)) = _
  rw [host2_agg, host2_keep _ main_v19 (by decide), host2_w1, host2_b1, host2_w2, host2_b2]

/-- A buffer none of the layer's stretches writes and none of its regions owns passes through the layer. -/
theorem keep1 (c : Dev nD) (r : Ref sig .tc) (hA : r ∉ [main_v20, main_v21, main_v22, main_v23, main_v24, main_v25, main_v26, main_v27, main_v28, main_v29, main_v30, main_v31, main_c_4, main_v32, main_v33, main_c_5, main_v34, main_v35, main_v36, main_v37, main_v38, main_cst_6, main_v39, main_v40, main_v41])
    (h0 : ∀ w, Pipeline.arrRef spec2 w ≠ r) (hB : r ∉ [main_cst_7, main_v43, main_cst_8, main_v44, main_v45, main_c_9])
    (hC : r ∉ [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v46]) (h1 : ∀ w, Pipeline.arrRef spec3 w ≠ r) :
    W10 m ρ c (Proc.devRef .tc r) = W5 m ρ c (Proc.devRef .tc r) :=
  (W10_of_ne m ρ c r h1).trans ((host3_1_keep _ r hC).trans ((host3_keep _ r hB).trans ((W7_of_ne m ρ c r h0).trans (host2_keep _ r hA))))

/-- The layer's result array is the layer function of what the layer found. -/
theorem layer1 (c : Dev nD) :
    W10 m ρ c (Proc.devRef .tc main_v47)
      = Cert.Net.layerAt (F := Ideal) D (W5 m ρ c (Proc.devRef .tc main_v19)) (W5 m ρ c (Proc.devRef .tc main_v1)) (W5 m ρ c (Proc.devRef .tc main_v3)) (W5 m ρ c (Proc.devRef .tc main_arg9)) (W5 m ρ c (Proc.devRef .tc main_arg10)) (W5 m ρ c (Proc.devRef .tc main_arg11))
          (W5 m ρ c (Proc.devRef .tc main_arg12)) (W5 m ρ c (Proc.devRef .tc main_arg13)) (W5 m ρ c (Proc.devRef .tc main_arg14)) ![0, 0, 0] C.m0 ![0, 0] C.r0 := by
  refine (W10_arr m ρ c 5).trans ((R3.arr (V9 m ρ) c).trans ?_)
  show Cert.Net.norm (F := Ideal) D (after hostOps3_1 (after hostOps3 (W7 m ρ c)) (Proc.devRef .tc main_v42)) (after hostOps3_1 (after hostOps3 (W7 m ρ c)) (Proc.devRef .tc main_v45))
    (after hostOps3_1 (after hostOps3 (W7 m ρ c)) (Proc.devRef .tc main_v46)) (after hostOps3_1 (after hostOps3 (W7 m ρ c)) (Proc.devRef .tc main_v29))
    (after hostOps3_1 (after hostOps3 (W7 m ρ c)) (Proc.devRef .tc main_v31)) = _
  rw [host3_1_var, host3_1_keep _ main_v42 (by decide), host3_1_keep _ main_v45 (by decide), host3_1_keep _ main_v29 (by decide), host3_1_keep _ main_v31 (by decide),
    host3_mean, host3_zero, host3_keep _ main_v42 (by decide), host3_keep _ main_v29 (by decide), host3_keep _ main_v31 (by decide),
    W7_of_ne m ρ c main_v29 (by decide), W7_of_ne m ρ c main_v31 (by decide), dense1 m ρ c]
  show Cert.Net.norm (F := Ideal) D _ _ _ (after hostOps2 (W5 m ρ c) (Proc.devRef .tc main_v29)) (after hostOps2 (W5 m ρ c) (Proc.devRef .tc main_v31)) = _
  rw [host2_ga, host2_be]
  rfl

end Cert.KerSide

end
-- ==== Proof.KerRegion4.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 4: two dense layers with a rectifier between, computed on twenty row tiles of 5000 rows.

  A tile reads rows 5000·t … 5000·t + 4999 of the neighbour sums and of the features, and the whole parameter arrays; it
  writes the same rows of the result. Entry (a, q) of the two dense layers depends only on row a of the two row-indexed
  operands, so the tile's entry (p, q) is the whole-array map's entry (5000·t + p, q); the twenty tiles fill the array.
-/
namespace Cert.KerSide.R4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- One entry of the tile's result is the whole-array result at the matching row, when the tile's rows are the array's. -/
theorem entry (x0 x1 : Vec Ideal S5000x128 .f32) (w1 : Vec Ideal S128x128 .f32) (b1 : Vec Ideal S128 .f32)
    (w2 : Vec Ideal S128x128 .f32) (b2 : Vec Ideal S128 .f32)
    (A H : FVec Ideal Cert.Net.SN .f32) (W1 : FVec Ideal Cert.Net.SHH .f32) (B1 : FVec Ideal Cert.Net.SH .f32)
    (W2 : FVec Ideal Cert.Net.SHH .f32) (B2 : FVec Ideal Cert.Net.SH .f32) (p : Fin 5000) (q : Fin 128) (i : Fin 100000)
    (h0 : ∀ k : Fin 128, x0 (ix2 p k) = A (ix2 i k)) (h1 : ∀ k : Fin 128, x1 (ix2 p k) = H (ix2 i k))
    (hw1 : w1 = W1) (hb1 : b1 = B1) (hw2 : w2 = W2) (hb2 : b2 = B2) :
    k2_pay1 (F := Ideal) x0 x1 w1 b1 w2 b2 (ix2 p q) = Cert.Net.mlp Cert.KerSide.D A H W1 B1 W2 B2 (ix2 i q) := by
  subst hw1 hb1 hw2 hb2
  rw [Cert.RowForms.tile_mlp, Cert.RowForms.host_mlp]
  exact Cert.RowForms.mlpAt_congr _ _ _ _ _ h0 h1

/-- WHAT POINT t WRITES BACK is block t of the two dense layers applied to the whole arrays. -/
theorem flushed (c : Dev nD) (t : Fin cfg4.N) :
    (dat4 V c).flushed 6 t = ((cfg4.win 6).blk t).view.read (Elt Ideal) (Cert.Net.mlp (F := Ideal) Cert.KerSide.D (V c main_v69) (V c main_v47) (V c main_v49) (V c main_v51) (V c main_v53) (V c main_v55)) := by
  show (cfg4.win 6).cut (grid4.coords t) ((dat4 V c).after 6 t) = _
  rw [after4_6]
  unfold out4_6
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e60, e61⟩ := idx t
  have hN : cfg4.N = 20 := N_4
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k2_pay1 (F := Ideal) (iblk4 V c 0 t) (iblk4 V c 1 t) (iblk4 V c 2 t) (iblk4 V c 3 t) (iblk4 V c 4 t) (iblk4 V c 5 t) (ix2 p q)
    = Cert.Net.mlp (F := Ideal) Cert.KerSide.D (V c main_v69) (V c main_v47) (V c main_v49) (V c main_v51) (V c main_v53) (V c main_v55) (((cfg4.win 6).blk t).view.emb (ix2 p q))
  have hemb : ((cfg4.win 6).blk t).view.emb (ix2 p q) = ix2 (⟨5000 * t.val + p.val, hlt⟩ : Fin 100000) q := by
    funext a; apply Fin.ext
    match a with
    | ⟨0, _⟩ => show win4_6.index t (0 : Fin 2) * 5000 + 1 * p.val = 5000 * t.val + p.val; rw [e60]; omega
    | ⟨1, _⟩ => show win4_6.index t (1 : Fin 2) * 128 + 1 * q.val = q.val; rw [e61]; omega
  rw [hemb]
  refine entry (iblk4 V c 0 t) (iblk4 V c 1 t) (iblk4 V c 2 t) (iblk4 V c 3 t) (iblk4 V c 4 t) (iblk4 V c 5 t)
    (V c main_v69) (V c main_v47) (V c main_v49) (V c main_v51) (V c main_v53) (V c main_v55) p q ⟨5000 * t.val + p.val, hlt⟩ ?_ ?_ ?_ ?_ ?_ ?_
  · intro k
    show V c main_v69 (((cfg4.win 0).blk t).view.emb (ix2 p k)) = V c main_v69 (ix2 (⟨5000 * t.val + p.val, hlt⟩ : Fin 100000) k)
    refine congrArg _ ?_
    funext a; apply Fin.ext
    match a with
    | ⟨0, _⟩ => show win4_0.index t (0 : Fin 2) * 5000 + 1 * p.val = 5000 * t.val + p.val; rw [e00]; omega
    | ⟨1, _⟩ => show win4_0.index t (1 : Fin 2) * 128 + 1 * k.val = k.val; rw [e01]; omega
  · intro k
    show V c main_v47 (((cfg4.win 1).blk t).view.emb (ix2 p k)) = V c main_v47 (ix2 (⟨5000 * t.val + p.val, hlt⟩ : Fin 100000) k)
    refine congrArg _ ?_
    funext a; apply Fin.ext
    match a with
    | ⟨0, _⟩ => show win4_1.index t (0 : Fin 2) * 5000 + 1 * p.val = 5000 * t.val + p.val; rw [e10]; omega
    | ⟨1, _⟩ => show win4_1.index t (1 : Fin 2) * 128 + 1 * k.val = k.val; rw [e11]; omega
  · funext y
    show V c main_v49 (((cfg4.win 2).blk t).view.emb y) = V c main_v49 y
    refine congrArg _ ?_
    funext a; apply Fin.ext
    match a with
    | ⟨0, _⟩ => show win4_2.index t (0 : Fin 2) * 128 + 1 * (y 0).val = (y 0).val; rw [e20]; omega
    | ⟨1, _⟩ => show win4_2.index t (1 : Fin 2) * 128 + 1 * (y 1).val = (y 1).val; rw [e21]; omega
  · funext y
    show V c main_v51 (((cfg4.win 3).blk t).view.emb y) = V c main_v51 y
    refine congrArg _ ?_
    funext a; apply Fin.ext
    match a with
    | ⟨0, _⟩ => show win4_3.index t (0 : Fin 1) * 128 + 1 * (y 0).val = (y 0).val; rw [e30]; omega
  · funext y
    show V c main_v53 (((cfg4.win 4).blk t).view.emb y) = V c main_v53 y
    refine congrArg _ ?_
    funext a; apply Fin.ext
    match a with
    | ⟨0, _⟩ => show win4_4.index t (0 : Fin 2) * 128 + 1 * (y 0).val = (y 0).val; rw [e40]; omega
    | ⟨1, _⟩ => show win4_4.index t (1 : Fin 2) * 128 + 1 * (y 1).val = (y 1).val; rw [e41]; omega
  · funext y
    show V c main_v55 (((cfg4.win 5).blk t).view.emb y) = V c main_v55 y
    refine congrArg _ ?_
    funext a; apply Fin.ext
    match a with
    | ⟨0, _⟩ => show win4_5.index t (0 : Fin 1) * 128 + 1 * (y 0).val = (y 0).val; rw [e50]; omega

/-- An index of the array is in point t's block iff each coordinate is in the block's range on its axis. -/
theorem mem_blk (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v70).slice (win4_6.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg4.N, (cfg4.win 6).flush t = true ∧ i ∈ ((cfg4.win 6).blk t).view.set := by
  have hN : cfg4.N = 20 := N_4
  have hi0 : (i 0).val < 100000 := (i 0).isLt
  have hi1 : (i 1).val < 128 := (i 1).isLt
  refine ⟨⟨(i 0).val / 5000, by rw [hN]; omega⟩, flush4_6 _, ?_⟩
  rw [mem_blk]
  obtain ⟨-, -, -, -, -, -, -, -, -, -, eo0, eo1⟩ := idx ⟨(i 0).val / 5000, by rw [hN]; omega⟩
  intro a
  match a with
  | ⟨0, _⟩ => show win4_6.index _ (0 : Fin 2) * 5000 ≤ (i 0).val ∧ (i 0).val < win4_6.index _ (0 : Fin 2) * 5000 + 5000; rw [eo0]; show (i 0).val / 5000 * 5000 ≤ (i 0).val ∧ (i 0).val < (i 0).val / 5000 * 5000 + 5000; omega
  | ⟨1, _⟩ => show win4_6.index _ (1 : Fin 2) * 128 ≤ (i 1).val ∧ (i 1).val < win4_6.index _ (1 : Fin 2) * 128 + 128; rw [eo1]; omega

/-- THE ARRAY after the region: the two dense layers of the region-entry arrays. -/
theorem arr (c : Dev nD) : (dat4 V c).arrAt 6 cfg4.N = Cert.Net.mlp (F := Ideal) Cert.KerSide.D (V c main_v69) (V c main_v47) (V c main_v49) (V c main_v51) (V c main_v53) (V c main_v55) :=
  (dat4 V c).arrAt_eq_of_cover 6 _ (fun t _ => flushed V c t) cover

end Cert.KerSide.R4

end
-- ==== Proof.KerRegion5.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 5: normalise, scale, shift and rectify, computed on twenty row tiles of 5000 rows.

  A tile reads rows 5000·t … 5000·t + 4999 of the array and the four one-row parameters whole (the column means, the
  column variances, the scale, the shift); it writes the same rows of the result. The map is entrywise in the array and
  columnwise in the parameters, so the tile's entry (p, q) is the whole-array map's entry (5000·t + p, q); the twenty
  tiles fill the array.
-/
namespace Cert.KerSide.R5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg5.N,
    win5_0.index t (0 : Fin 2) = t.val ∧ win5_0.index t (1 : Fin 2) = 0
    ∧ win5_1.index t (0 : Fin 1) = 0 ∧ win5_2.index t (0 : Fin 1) = 0
    ∧ win5_3.index t (0 : Fin 1) = 0 ∧ win5_4.index t (0 : Fin 1) = 0
    ∧ win5_5.index t (0 : Fin 2) = t.val ∧ win5_5.index t (1 : Fin 2) = 0 :=
  (by decide +kernel : ∀ t : Fin grid5.N, _)

/-- One entry of the tile's result is the whole-array result at the matching row. (The body takes the variances before
    the means.) -/
theorem entry (y : Vec Ideal S5000x128 .f32) (mu va ga be : Vec Ideal S128 .f32)
    (Y : FVec Ideal Cert.Net.SN .f32) (MU VA GA BE : FVec Ideal Cert.Net.SH .f32) (p : Fin 5000) (q : Fin 128) (i : Fin 100000)
    (h0 : y (ix2 p q) = Y (ix2 i q)) (hmu : mu = MU) (hva : va = VA) (hga : ga = GA) (hbe : be = BE) :
    k3_pay1 (F := Ideal) y va mu ga be (ix2 p q) = Cert.Net.norm Cert.KerSide.D Y MU VA GA BE (ix2 i q) := by
  subst hmu hva hga hbe
  rw [Cert.RowForms.tile_norm', Cert.RowForms.host_norm, h0]

/-- WHAT POINT t WRITES BACK is block t of the normalisation applied to the whole arrays. -/
theorem flushed (c : Dev nD) (t : Fin cfg5.N) :
    (dat5 V c).flushed 5 t = ((cfg5.win 5).blk t).view.read (Elt Ideal) (Cert.Net.norm (F := Ideal) Cert.KerSide.D (V c main_v70) (V c main_v73) (V c main_v74) (V c main_v57) (V c main_v59)) := by
  show (cfg5.win 5).cut (grid5.coords t) ((dat5 V c).after 5 t) = _
  rw [after5_5]
  unfold out5_5
  rw [View.canon_unit_zero hz2]
  simp only [View.ld_unit_zero (S := S5000x128) hz2, View.ld_unit_zero (S := S128) hz1]
  obtain ⟨e00, e01, e10, e20, e30, e40, e50, e51⟩ := idx t
  have hN : cfg5.N = 20 := N_5
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k3_pay1 (F := Ideal) (iblk5 V c 0 t) (iblk5 V c 2 t) (iblk5 V c 1 t) (iblk5 V c 3 t) (iblk5 V c 4 t) (ix2 p q)
    = Cert.Net.norm (F := Ideal) Cert.KerSide.D (V c main_v70) (V c main_v73) (V c main_v74) (V c main_v57) (V c main_v59) (((cfg5.win 5).blk t).view.emb (ix2 p q))
  have hemb : ((cfg5.win 5).blk t).view.emb (ix2 p q) = ix2 (⟨5000 * t.val + p.val, hlt⟩ : Fin 100000) q := by
    funext a; apply Fin.ext
    match a with
    | ⟨0, _⟩ => show win5_5.index t (0 : Fin 2) * 5000 + 1 * p.val = 5000 * t.val + p.val; rw [e50]; omega
    | ⟨1, _⟩ => show win5_5.index t (1 : Fin 2) * 128 + 1 * q.val = q.val; rw [e51]; omega
  rw [hemb]
  refine entry (iblk5 V c 0 t) (iblk5 V c 1 t) (iblk5 V c 2 t) (iblk5 V c 3 t) (iblk5 V c 4 t)
    (V c main_v70) (V c main_v73) (V c main_v74) (V c main_v57) (V c main_v59) p q ⟨5000 * t.val + p.val, hlt⟩ ?_ ?_ ?_ ?_ ?_
  · show V c main_v70 (((cfg5.win 0).blk t).view.emb (ix2 p q)) = V c main_v70 (ix2 (⟨5000 * t.val + p.val, hlt⟩ : Fin 100000) q)
    refine congrArg _ ?_
    funext a; apply Fin.ext
    match a with
    | ⟨0, _⟩ => show win5_0.index t (0 : Fin 2) * 5000 + 1 * p.val = 5000 * t.val + p.val; rw [e00]; omega
    | ⟨1, _⟩ => show win5_0.index t (1 : Fin 2) * 128 + 1 * q.val = q.val; rw [e01]; omega
  · funext y
    show V c main_v73 (((cfg5.win 1).blk t).view.emb y) = V c main_v73 y
    refine congrArg _ ?_
    funext a; apply Fin.ext
    match a with
    | ⟨0, _⟩ => show win5_1.index t (0 : Fin 1) * 128 + 1 * (y 0).val = (y 0).val; rw [e10]; omega
  · funext y
    show V c main_v74 (((cfg5.win 2).blk t).view.emb y) = V c main_v74 y
    refine congrArg _ ?_
    funext a; apply Fin.ext
    match a with
    | ⟨0, _⟩ => show win5_2.index t (0 : Fin 1) * 128 + 1 * (y 0).val = (y 0).val; rw [e20]; omega
  · funext y
    show V c main_v57 (((cfg5.win 3).blk t).view.emb y) = V c main_v57 y
    refine congrArg _ ?_
    funext a; apply Fin.ext
    match a with
    | ⟨0, _⟩ => show win5_3.index t (0 : Fin 1) * 128 + 1 * (y 0).val = (y 0).val; rw [e30]; omega
  · funext y
    show V c main_v59 (((cfg5.win 4).blk t).view.emb y) = V c main_v59 y
    refine congrArg _ ?_
    funext a; apply Fin.ext
    match a with
    | ⟨0, _⟩ => show win5_4.index t (0 : Fin 1) * 128 + 1 * (y 0).val = (y 0).val; rw [e40]; omega

/-- An index of the array is in point t's block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v75).slice (win5_5.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg5.N, (cfg5.win 5).flush t = true ∧ i ∈ ((cfg5.win 5).blk t).view.set := by
  have hN : cfg5.N = 20 := N_5
  have hi0 : (i 0).val < 100000 := (i 0).isLt
  have hi1 : (i 1).val < 128 := (i 1).isLt
  refine ⟨⟨(i 0).val / 5000, by rw [hN]; omega⟩, flush5_5 _, ?_⟩
  rw [mem_blk]
  obtain ⟨-, -, -, -, -, -, eo0, eo1⟩ := idx ⟨(i 0).val / 5000, by rw [hN]; omega⟩
  intro a
  match a with
  | ⟨0, _⟩ => show win5_5.index _ (0 : Fin 2) * 5000 ≤ (i 0).val ∧ (i 0).val < win5_5.index _ (0 : Fin 2) * 5000 + 5000; rw [eo0]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [eo1]; omega

/-- THE ARRAY after the region: the normalisation of the region-entry arrays. -/
theorem arr (c : Dev nD) : (dat5 V c).arrAt 5 cfg5.N = Cert.Net.norm (F := Ideal) Cert.KerSide.D (V c main_v70) (V c main_v73) (V c main_v74) (V c main_v57) (V c main_v59) :=
  (dat5 V c).arrAt_eq_of_cover 5 _ (fun t _ => flushed V c t) cover

end Cert.KerSide.R5

end
-- ==== Proof.KerLayer2.lean ====
/-
  Later layer 2 of the idealized kernel program, from its entry contents to its exit contents.

  The layer is a host stretch (the neighbour sum and the layer's parameter slices), the dense region, two host stretches
  (the column means, the column variances) and the normalising region. Reading the fold backwards, the layer's result
  array is the network's layer function of the features, the two edge rows and the stacked parameters as the layer found
  them; the edge rows and the stacked parameters pass through the layer unchanged.
-/
import proofs.«110124_j41455024341694_1_alg».proof.Proof.Gen.KernelIdeal.Frame
import proofs.«110124_j41455024341694_1_alg».proof.Proof.KerHost
import proofs.«110124_j41455024341694_1_alg».proof.Proof.KerRegion4
import proofs.«110124_j41455024341694_1_alg».proof.Proof.KerRegion5

noncomputable section

namespace Cert.KerSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The dense region's result: the two dense layers of the neighbour sum plus the features. -/
theorem dense2 (c : Dev nD) :
    W12 m ρ c (Proc.devRef .tc main_v70)
      = Cert.Net.mlp (F := Ideal) D (Cert.Net.agg (F := Ideal) D (W10 m ρ c (Proc.devRef .tc main_v47)) (W10 m ρ c (Proc.devRef .tc main_v1)) (W10 m ρ c (Proc.devRef .tc main_v3))) (W10 m ρ c (Proc.devRef .tc main_v47))
          (Cert.Net.mat (F := Ideal) D (W10 m ρ c (Proc.devRef .tc main_arg9)) ![1, 0, 0] C.m1) (Cert.Net.row (F := Ideal) D (W10 m ρ c (Proc.devRef .tc main_arg10)) ![1, 0] C.r1)
          (Cert.Net.mat (F := Ideal) D (W10 m ρ c (Proc.devRef .tc main_arg11)) ![1, 0, 0] C.m1) (Cert.Net.row (F := Ideal) D (W10 m ρ c (Proc.devRef .tc main_arg12)) ![1, 0] C.r1) := by
  refine (W12_arr m ρ c 6).trans ((R4.arr (V11 m ρ) c).trans ?_)
  show Cert.Net.mlp (F := Ideal) D (after hostOps4 (W10 m ρ c) (Proc.devRef .tc main_v69)) (after hostOps4 (W10 m ρ c) (Proc.devRef .tc main_v47)) (after hostOps4 (W10 m ρ c) (Proc.devRef .tc main_v49))
    (after hostOps4 (W10 m ρ c) (Proc.devRef .tc main_v51)) (after hostOps4 (W10 m ρ c) (Proc.devRef .tc main_v53)) (after hostOps4 (W10 m ρ c) (Proc.devRef .tc main_v55)) = _
  rw [host4_agg, host4_keep _ main_v47 (by decide), host4_w1, host4_b1, host4_w2, host4_b2]

/-- A buffer none of the layer's stretches writes and none of its regions owns passes through the layer. -/
theorem keep2 (c : Dev nD) (r : Ref sig .tc) (hA : r ∉ [main_v48, main_v49, main_v50, main_v51, main_v52, main_v53, main_v54, main_v55, main_v56, main_v57, main_v58, main_v59, main_c_10, main_v60, main_v61, main_c_11, main_v62, main_v63, main_v64, main_v65, main_v66, main_cst_12, main_v67, main_v68, main_v69])
    (h0 : ∀ w, Pipeline.arrRef spec4 w ≠ r) (hB : r ∉ [main_cst_13, main_v71, main_cst_14, main_v72, main_v73, main_c_15])
    (hC : r ∉ [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v74]) (h1 : ∀ w, Pipeline.arrRef spec5 w ≠ r) :
    W15 m ρ c (Proc.devRef .tc r) = W10 m ρ c (Proc.devRef .tc r) :=
  (W15_of_ne m ρ c r h1).trans ((host5_1_keep _ r hC).trans ((host5_keep _ r hB).trans ((W12_of_ne m ρ c r h0).trans (host4_keep _ r hA))))

/-- The layer's result array is the layer function of what the layer found. -/
theorem layer2 (c : Dev nD) :
    W15 m ρ c (Proc.devRef .tc main_v75)
      = Cert.Net.layerAt (F := Ideal) D (W10 m ρ c (Proc.devRef .tc main_v47)) (W10 m ρ c (Proc.devRef .tc main_v1)) (W10 m ρ c (Proc.devRef .tc main_v3)) (W10 m ρ c (Proc.devRef .tc main_arg9)) (W10 m ρ c (Proc.devRef .tc main_arg10)) (W10 m ρ c (Proc.devRef .tc main_arg11))
          (W10 m ρ c (Proc.devRef .tc main_arg12)) (W10 m ρ c (Proc.devRef .tc main_arg13)) (W10 m ρ c (Proc.devRef .tc main_arg14)) ![1, 0, 0] C.m1 ![1, 0] C.r1 := by
  refine (W15_arr m ρ c 5).trans ((R5.arr (V14 m ρ) c).trans ?_)
  show Cert.Net.norm (F := Ideal) D (after hostOps5_1 (after hostOps5 (W12 m ρ c)) (Proc.devRef .tc main_v70)) (after hostOps5_1 (after hostOps5 (W12 m ρ c)) (Proc.devRef .tc main_v73))
    (after hostOps5_1 (after hostOps5 (W12 m ρ c)) (Proc.devRef .tc main_v74)) (after hostOps5_1 (after hostOps5 (W12 m ρ c)) (Proc.devRef .tc main_v57))
    (after hostOps5_1 (after hostOps5 (W12 m ρ c)) (Proc.devRef .tc main_v59)) = _
  rw [host5_1_var, host5_1_keep _ main_v70 (by decide), host5_1_keep _ main_v73 (by decide), host5_1_keep _ main_v57 (by decide), host5_1_keep _ main_v59 (by decide),
    host5_mean, host5_zero, host5_keep _ main_v70 (by decide), host5_keep _ main_v57 (by decide), host5_keep _ main_v59 (by decide),
    W12_of_ne m ρ c main_v57 (by decide), W12_of_ne m ρ c main_v59 (by decide), dense2 m ρ c]
  show Cert.Net.norm (F := Ideal) D _ _ _ (after hostOps4 (W10 m ρ c) (Proc.devRef .tc main_v57)) (after hostOps4 (W10 m ρ c) (Proc.devRef .tc main_v59)) = _
  rw [host4_ga, host4_be]
  rfl

end Cert.KerSide

end
-- ==== Proof.KerRegion6.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 6: two dense layers with a rectifier between, computed on twenty row tiles of 5000 rows.

  A tile reads rows 5000·t … 5000·t + 4999 of the neighbour sums and of the features, and the whole parameter arrays; it
  writes the same rows of the result. Entry (a, q) of the two dense layers depends only on row a of the two row-indexed
  operands, so the tile's entry (p, q) is the whole-array map's entry (5000·t + p, q); the twenty tiles fill the array.
-/
namespace Cert.KerSide.R6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 1) = 0
    ∧ win6_6.index t (0 : Fin 2) = t.val ∧ win6_6.index t (1 : Fin 2) = 0 :=
  (by decide +kernel : ∀ t : Fin grid6.N, _)

/-- One entry of the tile's result is the whole-array result at the matching row, when the tile's rows are the array's. -/
theorem entry (x0 x1 : Vec Ideal S5000x128 .f32) (w1 : Vec Ideal S128x128 .f32) (b1 : Vec Ideal S128 .f32)
    (w2 : Vec Ideal S128x128 .f32) (b2 : Vec Ideal S128 .f32)
    (A H : FVec Ideal Cert.Net.SN .f32) (W1 : FVec Ideal Cert.Net.SHH .f32) (B1 : FVec Ideal Cert.Net.SH .f32)
    (W2 : FVec Ideal Cert.Net.SHH .f32) (B2 : FVec Ideal Cert.Net.SH .f32) (p : Fin 5000) (q : Fin 128) (i : Fin 100000)
    (h0 : ∀ k : Fin 128, x0 (ix2 p k) = A (ix2 i k)) (h1 : ∀ k : Fin 128, x1 (ix2 p k) = H (ix2 i k))
    (hw1 : w1 = W1) (hb1 : b1 = B1) (hw2 : w2 = W2) (hb2 : b2 = B2) :
    k2_pay1 (F := Ideal) x0 x1 w1 b1 w2 b2 (ix2 p q) = Cert.Net.mlp Cert.KerSide.D A H W1 B1 W2 B2 (ix2 i q) := by
  subst hw1 hb1 hw2 hb2
  rw [Cert.RowForms.tile_mlp, Cert.RowForms.host_mlp]
  exact Cert.RowForms.mlpAt_congr _ _ _ _ _ h0 h1

/-- WHAT POINT t WRITES BACK is block t of the two dense layers applied to the whole arrays. -/
theorem flushed (c : Dev nD) (t : Fin cfg6.N) :
    (dat6 V c).flushed 6 t = ((cfg6.win 6).blk t).view.read (Elt Ideal) (Cert.Net.mlp (F := Ideal) Cert.KerSide.D (V c main_v97) (V c main_v75) (V c main_v77) (V c main_v79) (V c main_v81) (V c main_v83)) := by
  show (cfg6.win 6).cut (grid6.coords t) ((dat6 V c).after 6 t) = _
  rw [after6_6]
  unfold out6_6
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e60, e61⟩ := idx t
  have hN : cfg6.N = 20 := N_6
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k2_pay1 (F := Ideal) (iblk6 V c 0 t) (iblk6 V c 1 t) (iblk6 V c 2 t) (iblk6 V c 3 t) (iblk6 V c 4 t) (iblk6 V c 5 t) (ix2 p q)
    = Cert.Net.mlp (F := Ideal) Cert.KerSide.D (V c main_v97) (V c main_v75) (V c main_v77) (V c main_v79) (V c main_v81) (V c main_v83) (((cfg6.win 6).blk t).view.emb (ix2 p q))
  have hemb : ((cfg6.win 6).blk t).view.emb (ix2 p q) = ix2 (⟨5000 * t.val + p.val, hlt⟩ : Fin 100000) q := by
    funext a; apply Fin.ext
    match a with
    | ⟨0, _⟩ => show win6_6.index t (0 : Fin 2) * 5000 + 1 * p.val = 5000 * t.val + p.val; rw [e60]; omega
    | ⟨1, _⟩ => show win6_6.index t (1 : Fin 2) * 128 + 1 * q.val = q.val; rw [e61]; omega
  rw [hemb]
  refine entry (iblk6 V c 0 t) (iblk6 V c 1 t) (iblk6 V c 2 t) (iblk6 V c 3 t) (iblk6 V c 4 t) (iblk6 V c 5 t)
    (V c main_v97) (V c main_v75) (V c main_v77) (V c main_v79) (V c main_v81) (V c main_v83) p q ⟨5000 * t.val + p.val, hlt⟩ ?_ ?_ ?_ ?_ ?_ ?_
  · intro k
    show V c main_v97 (((cfg6.win 0).blk t).view.emb (ix2 p k)) = V c main_v97 (ix2 (⟨5000 * t.val + p.val, hlt⟩ : Fin 100000) k)
    refine congrArg _ ?_
    funext a; apply Fin.ext
    match a with
    | ⟨0, _⟩ => show win6_0.index t (0 : Fin 2) * 5000 + 1 * p.val = 5000 * t.val + p.val; rw [e00]; omega
    | ⟨1, _⟩ => show win6_0.index t (1 : Fin 2) * 128 + 1 * k.val = k.val; rw [e01]; omega
  · intro k
    show V c main_v75 (((cfg6.win 1).blk t).view.emb (ix2 p k)) = V c main_v75 (ix2 (⟨5000 * t.val + p.val, hlt⟩ : Fin 100000) k)
    refine congrArg _ ?_
    funext a; apply Fin.ext
    match a with
    | ⟨0, _⟩ => show win6_1.index t (0 : Fin 2) * 5000 + 1 * p.val = 5000 * t.val + p.val; rw [e10]; omega
    | ⟨1, _⟩ => show win6_1.index t (1 : Fin 2) * 128 + 1 * k.val = k.val; rw [e11]; omega
  · funext y
    show V c main_v77 (((cfg6.win 2).blk t).view.emb y) = V c main_v77 y
    refine congrArg _ ?_
    funext a; apply Fin.ext
    match a with
    | ⟨0, _⟩ => show win6_2.index t (0 : Fin 2) * 128 + 1 * (y 0).val = (y 0).val; rw [e20]; omega
    | ⟨1, _⟩ => show win6_2.index t (1 : Fin 2) * 128 + 1 * (y 1).val = (y 1).val; rw [e21]; omega
  · funext y
    show V c main_v79 (((cfg6.win 3).blk t).view.emb y) = V c main_v79 y
    refine congrArg _ ?_
    funext a; apply Fin.ext
    match a with
    | ⟨0, _⟩ => show win6_3.index t (0 : Fin 1) * 128 + 1 * (y 0).val = (y 0).val; rw [e30]; omega
  · funext y
    show V c main_v81 (((cfg6.win 4).blk t).view.emb y) = V c main_v81 y
    refine congrArg _ ?_
    funext a; apply Fin.ext
    match a with
    | ⟨0, _⟩ => show win6_4.index t (0 : Fin 2) * 128 + 1 * (y 0).val = (y 0).val; rw [e40]; omega
    | ⟨1, _⟩ => show win6_4.index t (1 : Fin 2) * 128 + 1 * (y 1).val = (y 1).val; rw [e41]; omega
  · funext y
    show V c main_v83 (((cfg6.win 5).blk t).view.emb y) = V c main_v83 y
    refine congrArg _ ?_
    funext a; apply Fin.ext
    match a with
    | ⟨0, _⟩ => show win6_5.index t (0 : Fin 1) * 128 + 1 * (y 0).val = (y 0).val; rw [e50]; omega

/-- An index of the array is in point t's block iff each coordinate is in the block's range on its axis. -/
theorem mem_blk (t : Fin cfg6.N) (i : S100000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v98).slice (win6_6.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg6.N, (cfg6.win 6).flush t = true ∧ i ∈ ((cfg6.win 6).blk t).view.set := by
  have hN : cfg6.N = 20 := N_6
  have hi0 : (i 0).val < 100000 := (i 0).isLt
  have hi1 : (i 1).val < 128 := (i 1).isLt
  refine ⟨⟨(i 0).val / 5000, by rw [hN]; omega⟩, flush6_6 _, ?_⟩
  rw [mem_blk]
  obtain ⟨-, -, -, -, -, -, -, -, -, -, eo0, eo1⟩ := idx ⟨(i 0).val / 5000, by rw [hN]; omega⟩
  intro a
  match a with
  | ⟨0, _⟩ => show win6_6.index _ (0 : Fin 2) * 5000 ≤ (i 0).val ∧ (i 0).val < win6_6.index _ (0 : Fin 2) * 5000 + 5000; rw [eo0]; show (i 0).val / 5000 * 5000 ≤ (i 0).val ∧ (i 0).val < (i 0).val / 5000 * 5000 + 5000; omega
  | ⟨1, _⟩ => show win6_6.index _ (1 : Fin 2) * 128 ≤ (i 1).val ∧ (i 1).val < win6_6.index _ (1 : Fin 2) * 128 + 128; rw [eo1]; omega

/-- THE ARRAY after the region: the two dense layers of the region-entry arrays. -/
theorem arr (c : Dev nD) : (dat6 V c).arrAt 6 cfg6.N = Cert.Net.mlp (F := Ideal) Cert.KerSide.D (V c main_v97) (V c main_v75) (V c main_v77) (V c main_v79) (V c main_v81) (V c main_v83) :=
  (dat6 V c).arrAt_eq_of_cover 6 _ (fun t _ => flushed V c t) cover

end Cert.KerSide.R6

end
-- ==== Proof.KerRegion7.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 7: normalise, scale, shift and rectify, computed on twenty row tiles of 5000 rows.

  A tile reads rows 5000·t … 5000·t + 4999 of the array and the four one-row parameters whole (the column means, the
  column variances, the scale, the shift); it writes the same rows of the result. The map is entrywise in the array and
  columnwise in the parameters, so the tile's entry (p, q) is the whole-array map's entry (5000·t + p, q); the twenty
  tiles fill the array.
-/
namespace Cert.KerSide.R7

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg7.N,
    win7_0.index t (0 : Fin 2) = t.val ∧ win7_0.index t (1 : Fin 2) = 0
    ∧ win7_1.index t (0 : Fin 1) = 0 ∧ win7_2.index t (0 : Fin 1) = 0
    ∧ win7_3.index t (0 : Fin 1) = 0 ∧ win7_4.index t (0 : Fin 1) = 0
    ∧ win7_5.index t (0 : Fin 2) = t.val ∧ win7_5.index t (1 : Fin 2) = 0 :=
  (by decide +kernel : ∀ t : Fin grid7.N, _)

/-- One entry of the tile's result is the whole-array result at the matching row. (The body takes the variances before
    the means.) -/
theorem entry (y : Vec Ideal S5000x128 .f32) (mu va ga be : Vec Ideal S128 .f32)
    (Y : FVec Ideal Cert.Net.SN .f32) (MU VA GA BE : FVec Ideal Cert.Net.SH .f32) (p : Fin 5000) (q : Fin 128) (i : Fin 100000)
    (h0 : y (ix2 p q) = Y (ix2 i q)) (hmu : mu = MU) (hva : va = VA) (hga : ga = GA) (hbe : be = BE) :
    k3_pay1 (F := Ideal) y va mu ga be (ix2 p q) = Cert.Net.norm Cert.KerSide.D Y MU VA GA BE (ix2 i q) := by
  subst hmu hva hga hbe
  rw [Cert.RowForms.tile_norm', Cert.RowForms.host_norm, h0]

/-- WHAT POINT t WRITES BACK is block t of the normalisation applied to the whole arrays. -/
theorem flushed (c : Dev nD) (t : Fin cfg7.N) :
    (dat7 V c).flushed 5 t = ((cfg7.win 5).blk t).view.read (Elt Ideal) (Cert.Net.norm (F := Ideal) Cert.KerSide.D (V c main_v98) (V c main_v101) (V c main_v102) (V c main_v85) (V c main_v87)) := by
  show (cfg7.win 5).cut (grid7.coords t) ((dat7 V c).after 5 t) = _
  rw [after7_5]
  unfold out7_5
  rw [View.canon_unit_zero hz2]
  simp only [View.ld_unit_zero (S := S5000x128) hz2, View.ld_unit_zero (S := S128) hz1]
  obtain ⟨e00, e01, e10, e20, e30, e40, e50, e51⟩ := idx t
  have hN : cfg7.N = 20 := N_7
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k3_pay1 (F := Ideal) (iblk7 V c 0 t) (iblk7 V c 2 t) (iblk7 V c 1 t) (iblk7 V c 3 t) (iblk7 V c 4 t) (ix2 p q)
    = Cert.Net.norm (F := Ideal) Cert.KerSide.D (V c main_v98) (V c main_v101) (V c main_v102) (V c main_v85) (V c main_v87) (((cfg7.win 5).blk t).view.emb (ix2 p q))
  have hemb : ((cfg7.win 5).blk t).view.emb (ix2 p q) = ix2 (⟨5000 * t.val + p.val, hlt⟩ : Fin 100000) q := by
    funext a; apply Fin.ext
    match a with
    | ⟨0, _⟩ => show win7_5.index t (0 : Fin 2) * 5000 + 1 * p.val = 5000 * t.val + p.val; rw [e50]; omega
    | ⟨1, _⟩ => show win7_5.index t (1 : Fin 2) * 128 + 1 * q.val = q.val; rw [e51]; omega
  rw [hemb]
  refine entry (iblk7 V c 0 t) (iblk7 V c 1 t) (iblk7 V c 2 t) (iblk7 V c 3 t) (iblk7 V c 4 t)
    (V c main_v98) (V c main_v101) (V c main_v102) (V c main_v85) (V c main_v87) p q ⟨5000 * t.val + p.val, hlt⟩ ?_ ?_ ?_ ?_ ?_
  · show V c main_v98 (((cfg7.win 0).blk t).view.emb (ix2 p q)) = V c main_v98 (ix2 (⟨5000 * t.val + p.val, hlt⟩ : Fin 100000) q)
    refine congrArg _ ?_
    funext a; apply Fin.ext
    match a with
    | ⟨0, _⟩ => show win7_0.index t (0 : Fin 2) * 5000 + 1 * p.val = 5000 * t.val + p.val; rw [e00]; omega
    | ⟨1, _⟩ => show win7_0.index t (1 : Fin 2) * 128 + 1 * q.val = q.val; rw [e01]; omega
  · funext y
    show V c main_v101 (((cfg7.win 1).blk t).view.emb y) = V c main_v101 y
    refine congrArg _ ?_
    funext a; apply Fin.ext
    match a with
    | ⟨0, _⟩ => show win7_1.index t (0 : Fin 1) * 128 + 1 * (y 0).val = (y 0).val; rw [e10]; omega
  · funext y
    show V c main_v102 (((cfg7.win 2).blk t).view.emb y) = V c main_v102 y
    refine congrArg _ ?_
    funext a; apply Fin.ext
    match a with
    | ⟨0, _⟩ => show win7_2.index t (0 : Fin 1) * 128 + 1 * (y 0).val = (y 0).val; rw [e20]; omega
  · funext y
    show V c main_v85 (((cfg7.win 3).blk t).view.emb y) = V c main_v85 y
    refine congrArg _ ?_
    funext a; apply Fin.ext
    match a with
    | ⟨0, _⟩ => show win7_3.index t (0 : Fin 1) * 128 + 1 * (y 0).val = (y 0).val; rw [e30]; omega
  · funext y
    show V c main_v87 (((cfg7.win 4).blk t).view.emb y) = V c main_v87 y
    refine congrArg _ ?_
    funext a; apply Fin.ext
    match a with
    | ⟨0, _⟩ => show win7_4.index t (0 : Fin 1) * 128 + 1 * (y 0).val = (y 0).val; rw [e40]; omega

/-- An index of the array is in point t's block iff each coordinate is in the block's range on its axis. -/
theorem mem_blk (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v103).slice (win7_5.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg7.N, (cfg7.win 5).flush t = true ∧ i ∈ ((cfg7.win 5).blk t).view.set := by
  have hN : cfg7.N = 20 := N_7
  have hi0 : (i 0).val < 100000 := (i 0).isLt
  have hi1 : (i 1).val < 128 := (i 1).isLt
  refine ⟨⟨(i 0).val / 5000, by rw [hN]; omega⟩, flush7_5 _, ?_⟩
  rw [mem_blk]
  obtain ⟨-, -, -, -, -, -, eo0, eo1⟩ := idx ⟨(i 0).val / 5000, by rw [hN]; omega⟩
  intro a
  match a with
  | ⟨0, _⟩ => show win7_5.index _ (0 : Fin 2) * 5000 ≤ (i 0).val ∧ (i 0).val < win7_5.index _ (0 : Fin 2) * 5000 + 5000; rw [eo0]; show (i 0).val / 5000 * 5000 ≤ (i 0).val ∧ (i 0).val < (i 0).val / 5000 * 5000 + 5000; omega
  | ⟨1, _⟩ => show win7_5.index _ (1 : Fin 2) * 128 ≤ (i 1).val ∧ (i 1).val < win7_5.index _ (1 : Fin 2) * 128 + 128; rw [eo1]; omega

/-- THE ARRAY after the region: the normalisation of the region-entry arrays. -/
theorem arr (c : Dev nD) : (dat7 V c).arrAt 5 cfg7.N = Cert.Net.norm (F := Ideal) Cert.KerSide.D (V c main_v98) (V c main_v101) (V c main_v102) (V c main_v85) (V c main_v87) :=
  (dat7 V c).arrAt_eq_of_cover 5 _ (fun t _ => flushed V c t) cover

end Cert.KerSide.R7

end
-- ==== Proof.KerLayer3.lean ====
/-
  Later layer 3 of the idealized kernel program, from its entry contents to its exit contents.

  The layer is a host stretch (the neighbour sum and the layer's parameter slices), the dense region, two host stretches
  (the column means, the column variances) and the normalising region. Reading the fold backwards, the layer's result
  array is the network's layer function of the features, the two edge rows and the stacked parameters as the layer found
  them; the edge rows and the stacked parameters pass through the layer unchanged.
-/
import proofs.«110124_j41455024341694_1_alg».proof.Proof.Gen.KernelIdeal.Frame
import proofs.«110124_j41455024341694_1_alg».proof.Proof.KerHost
import proofs.«110124_j41455024341694_1_alg».proof.Proof.KerRegion6
import proofs.«110124_j41455024341694_1_alg».proof.Proof.KerRegion7

noncomputable section

namespace Cert.KerSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The dense region's result: the two dense layers of the neighbour sum plus the features. -/
theorem dense3 (c : Dev nD) :
    W17 m ρ c (Proc.devRef .tc main_v98)
      = Cert.Net.mlp (F := Ideal) D (Cert.Net.agg (F := Ideal) D (W15 m ρ c (Proc.devRef .tc main_v75)) (W15 m ρ c (Proc.devRef .tc main_v1)) (W15 m ρ c (Proc.devRef .tc main_v3))) (W15 m ρ c (Proc.devRef .tc main_v75))
          (Cert.Net.mat (F := Ideal) D (W15 m ρ c (Proc.devRef .tc main_arg9)) ![2, 0, 0] C.m2) (Cert.Net.row (F := Ideal) D (W15 m ρ c (Proc.devRef .tc main_arg10)) ![2, 0] C.r2)
          (Cert.Net.mat (F := Ideal) D (W15 m ρ c (Proc.devRef .tc main_arg11)) ![2, 0, 0] C.m2) (Cert.Net.row (F := Ideal) D (W15 m ρ c (Proc.devRef .tc main_arg12)) ![2, 0] C.r2) := by
  refine (W17_arr m ρ c 6).trans ((R6.arr (V16 m ρ) c).trans ?_)
  show Cert.Net.mlp (F := Ideal) D (after hostOps6 (W15 m ρ c) (Proc.devRef .tc main_v97)) (after hostOps6 (W15 m ρ c) (Proc.devRef .tc main_v75)) (after hostOps6 (W15 m ρ c) (Proc.devRef .tc main_v77))
    (after hostOps6 (W15 m ρ c) (Proc.devRef .tc main_v79)) (after hostOps6 (W15 m ρ c) (Proc.devRef .tc main_v81)) (after hostOps6 (W15 m ρ c) (Proc.devRef .tc main_v83)) = _
  rw [host6_agg, host6_keep _ main_v75 (by decide), host6_w1, host6_b1, host6_w2, host6_b2]

/-- A buffer none of the layer's stretches writes and none of its regions owns passes through the layer. -/
theorem keep3 (c : Dev nD) (r : Ref sig .tc) (hA : r ∉ [main_v76, main_v77, main_v78, main_v79, main_v80, main_v81, main_v82, main_v83, main_v84, main_v85, main_v86, main_v87, main_c_16, main_v88, main_v89, main_c_17, main_v90, main_v91, main_v92, main_v93, main_v94, main_cst_18, main_v95, main_v96, main_v97])
    (h0 : ∀ w, Pipeline.arrRef spec6 w ≠ r) (hB : r ∉ [main_cst_19, main_v99, main_cst_20, main_v100, main_v101, main_c_21])
    (hC : r ∉ [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v102]) (h1 : ∀ w, Pipeline.arrRef spec7 w ≠ r) :
    W20 m ρ c (Proc.devRef .tc r) = W15 m ρ c (Proc.devRef .tc r) :=
  (W20_of_ne m ρ c r h1).trans ((host7_1_keep _ r hC).trans ((host7_keep _ r hB).trans ((W17_of_ne m ρ c r h0).trans (host6_keep _ r hA))))

/-- The layer's result array is the layer function of what the layer found. -/
theorem layer3 (c : Dev nD) :
    W20 m ρ c (Proc.devRef .tc main_v103)
      = Cert.Net.layerAt (F := Ideal) D (W15 m ρ c (Proc.devRef .tc main_v75)) (W15 m ρ c (Proc.devRef .tc main_v1)) (W15 m ρ c (Proc.devRef .tc main_v3)) (W15 m ρ c (Proc.devRef .tc main_arg9)) (W15 m ρ c (Proc.devRef .tc main_arg10)) (W15 m ρ c (Proc.devRef .tc main_arg11))
          (W15 m ρ c (Proc.devRef .tc main_arg12)) (W15 m ρ c (Proc.devRef .tc main_arg13)) (W15 m ρ c (Proc.devRef .tc main_arg14)) ![2, 0, 0] C.m2 ![2, 0] C.r2 := by
  refine (W20_arr m ρ c 5).trans ((R7.arr (V19 m ρ) c).trans ?_)
  show Cert.Net.norm (F := Ideal) D (after hostOps7_1 (after hostOps7 (W17 m ρ c)) (Proc.devRef .tc main_v98)) (after hostOps7_1 (after hostOps7 (W17 m ρ c)) (Proc.devRef .tc main_v101))
    (after hostOps7_1 (after hostOps7 (W17 m ρ c)) (Proc.devRef .tc main_v102)) (after hostOps7_1 (after hostOps7 (W17 m ρ c)) (Proc.devRef .tc main_v85))
    (after hostOps7_1 (after hostOps7 (W17 m ρ c)) (Proc.devRef .tc main_v87)) = _
  rw [host7_1_var, host7_1_keep _ main_v98 (by decide), host7_1_keep _ main_v101 (by decide), host7_1_keep _ main_v85 (by decide), host7_1_keep _ main_v87 (by decide),
    host7_mean, host7_zero, host7_keep _ main_v98 (by decide), host7_keep _ main_v85 (by decide), host7_keep _ main_v87 (by decide),
    W17_of_ne m ρ c main_v85 (by decide), W17_of_ne m ρ c main_v87 (by decide), dense3 m ρ c]
  show Cert.Net.norm (F := Ideal) D _ _ _ (after hostOps6 (W15 m ρ c) (Proc.devRef .tc main_v85)) (after hostOps6 (W15 m ρ c) (Proc.devRef .tc main_v87)) = _
  rw [host6_ga, host6_be]
  rfl

end Cert.KerSide

end
-- ==== Proof.KerRegion8.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 8: two dense layers with a rectifier between, computed on twenty row tiles of 5000 rows.

  A tile reads rows 5000·t … 5000·t + 4999 of the neighbour sums and of the features, and the whole parameter arrays; it
  writes the same rows of the result. Entry (a, q) of the two dense layers depends only on row a of the two row-indexed
  operands, so the tile's entry (p, q) is the whole-array map's entry (5000·t + p, q); the twenty tiles fill the array.
-/
namespace Cert.KerSide.R8

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 1) = 0
    ∧ win8_4.index t (0 : Fin 2) = 0 ∧ win8_4.index t (1 : Fin 2) = 0
    ∧ win8_5.index t (0 : Fin 1) = 0
    ∧ win8_6.index t (0 : Fin 2) = t.val ∧ win8_6.index t (1 : Fin 2) = 0 :=
  (by decide +kernel : ∀ t : Fin grid8.N, _)

/-- One entry of the tile's result is the whole-array result at the matching row, when the tile's rows are the array's. -/
theorem entry (x0 x1 : Vec Ideal S5000x128 .f32) (w1 : Vec Ideal S128x128 .f32) (b1 : Vec Ideal S128 .f32)
    (w2 : Vec Ideal S128x128 .f32) (b2 : Vec Ideal S128 .f32)
    (A H : FVec Ideal Cert.Net.SN .f32) (W1 : FVec Ideal Cert.Net.SHH .f32) (B1 : FVec Ideal Cert.Net.SH .f32)
    (W2 : FVec Ideal Cert.Net.SHH .f32) (B2 : FVec Ideal Cert.Net.SH .f32) (p : Fin 5000) (q : Fin 128) (i : Fin 100000)
    (h0 : ∀ k : Fin 128, x0 (ix2 p k) = A (ix2 i k)) (h1 : ∀ k : Fin 128, x1 (ix2 p k) = H (ix2 i k))
    (hw1 : w1 = W1) (hb1 : b1 = B1) (hw2 : w2 = W2) (hb2 : b2 = B2) :
    k2_pay1 (F := Ideal) x0 x1 w1 b1 w2 b2 (ix2 p q) = Cert.Net.mlp Cert.KerSide.D A H W1 B1 W2 B2 (ix2 i q) := by
  subst hw1 hb1 hw2 hb2
  rw [Cert.RowForms.tile_mlp, Cert.RowForms.host_mlp]
  exact Cert.RowForms.mlpAt_congr _ _ _ _ _ h0 h1

/-- WHAT POINT t WRITES BACK is block t of the two dense layers applied to the whole arrays. -/
theorem flushed (c : Dev nD) (t : Fin cfg8.N) :
    (dat8 V c).flushed 6 t = ((cfg8.win 6).blk t).view.read (Elt Ideal) (Cert.Net.mlp (F := Ideal) Cert.KerSide.D (V c main_v125) (V c main_v103) (V c main_v105) (V c main_v107) (V c main_v109) (V c main_v111)) := by
  show (cfg8.win 6).cut (grid8.coords t) ((dat8 V c).after 6 t) = _
  rw [after8_6]
  unfold out8_6
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e60, e61⟩ := idx t
  have hN : cfg8.N = 20 := N_8
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k2_pay1 (F := Ideal) (iblk8 V c 0 t) (iblk8 V c 1 t) (iblk8 V c 2 t) (iblk8 V c 3 t) (iblk8 V c 4 t) (iblk8 V c 5 t) (ix2 p q)
    = Cert.Net.mlp (F := Ideal) Cert.KerSide.D (V c main_v125) (V c main_v103) (V c main_v105) (V c main_v107) (V c main_v109) (V c main_v111) (((cfg8.win 6).blk t).view.emb (ix2 p q))
  have hemb : ((cfg8.win 6).blk t).view.emb (ix2 p q) = ix2 (⟨5000 * t.val + p.val, hlt⟩ : Fin 100000) q := by
    funext a; apply Fin.ext
    match a with
    | ⟨0, _⟩ => show win8_6.index t (0 : Fin 2) * 5000 + 1 * p.val = 5000 * t.val + p.val; rw [e60]; omega
    | ⟨1, _⟩ => show win8_6.index t (1 : Fin 2) * 128 + 1 * q.val = q.val; rw [e61]; omega
  rw [hemb]
  refine entry (iblk8 V c 0 t) (iblk8 V c 1 t) (iblk8 V c 2 t) (iblk8 V c 3 t) (iblk8 V c 4 t) (iblk8 V c 5 t)
    (V c main_v125) (V c main_v103) (V c main_v105) (V c main_v107) (V c main_v109) (V c main_v111) p q ⟨5000 * t.val + p.val, hlt⟩ ?_ ?_ ?_ ?_ ?_ ?_
  · intro k
    show V c main_v125 (((cfg8.win 0).blk t).view.emb (ix2 p k)) = V c main_v125 (ix2 (⟨5000 * t.val + p.val, hlt⟩ : Fin 100000) k)
    refine congrArg _ ?_
    funext a; apply Fin.ext
    match a with
    | ⟨0, _⟩ => show win8_0.index t (0 : Fin 2) * 5000 + 1 * p.val = 5000 * t.val + p.val; rw [e00]; omega
    | ⟨1, _⟩ => show win8_0.index t (1 : Fin 2) * 128 + 1 * k.val = k.val; rw [e01]; omega
  · intro k
    show V c main_v103 (((cfg8.win 1).blk t).view.emb (ix2 p k)) = V c main_v103 (ix2 (⟨5000 * t.val + p.val, hlt⟩ : Fin 100000) k)
    refine congrArg _ ?_
    funext a; apply Fin.ext
    match a with
    | ⟨0, _⟩ => show win8_1.index t (0 : Fin 2) * 5000 + 1 * p.val = 5000 * t.val + p.val; rw [e10]; omega
    | ⟨1, _⟩ => show win8_1.index t (1 : Fin 2) * 128 + 1 * k.val = k.val; rw [e11]; omega
  · funext y
    show V c main_v105 (((cfg8.win 2).blk t).view.emb y) = V c main_v105 y
    refine congrArg _ ?_
    funext a; apply Fin.ext
    match a with
    | ⟨0, _⟩ => show win8_2.index t (0 : Fin 2) * 128 + 1 * (y 0).val = (y 0).val; rw [e20]; omega
    | ⟨1, _⟩ => show win8_2.index t (1 : Fin 2) * 128 + 1 * (y 1).val = (y 1).val; rw [e21]; omega
  · funext y
    show V c main_v107 (((cfg8.win 3).blk t).view.emb y) = V c main_v107 y
    refine congrArg _ ?_
    funext a; apply Fin.ext
    match a with
    | ⟨0, _⟩ => show win8_3.index t (0 : Fin 1) * 128 + 1 * (y 0).val = (y 0).val; rw [e30]; omega
  · funext y
    show V c main_v109 (((cfg8.win 4).blk t).view.emb y) = V c main_v109 y
    refine congrArg _ ?_
    funext a; apply Fin.ext
    match a with
    | ⟨0, _⟩ => show win8_4.index t (0 : Fin 2) * 128 + 1 * (y 0).val = (y 0).val; rw [e40]; omega
    | ⟨1, _⟩ => show win8_4.index t (1 : Fin 2) * 128 + 1 * (y 1).val = (y 1).val; rw [e41]; omega
  · funext y
    show V c main_v111 (((cfg8.win 5).blk t).view.emb y) = V c main_v111 y
    refine congrArg _ ?_
    funext a; apply Fin.ext
    match a with
    | ⟨0, _⟩ => show win8_5.index t (0 : Fin 1) * 128 + 1 * (y 0).val = (y 0).val; rw [e50]; omega

/-- An index of the array is in point t's block iff each coordinate is in the block's range on its axis. -/
theorem mem_blk (t : Fin cfg8.N) (i : S100000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole main_v126).slice (win8_6.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg8.N, (cfg8.win 6).flush t = true ∧ i ∈ ((cfg8.win 6).blk t).view.set := by
  have hN : cfg8.N = 20 := N_8
  have hi0 : (i 0).val < 100000 := (i 0).isLt
  have hi1 : (i 1).val < 128 := (i 1).isLt
  refine ⟨⟨(i 0).val / 5000, by rw [hN]; omega⟩, flush8_6 _, ?_⟩
  rw [mem_blk]
  obtain ⟨-, -, -, -, -, -, -, -, -, -, eo0, eo1⟩ := idx ⟨(i 0).val / 5000, by rw [hN]; omega⟩
  intro a
  match a with
  | ⟨0, _⟩ => show win8_6.index _ (0 : Fin 2) * 5000 ≤ (i 0).val ∧ (i 0).val < win8_6.index _ (0 : Fin 2) * 5000 + 5000; rw [eo0]; show (i 0).val / 5000 * 5000 ≤ (i 0).val ∧ (i 0).val < (i 0).val / 5000 * 5000 + 5000; omega
  | ⟨1, _⟩ => show win8_6.index _ (1 : Fin 2) * 128 ≤ (i 1).val ∧ (i 1).val < win8_6.index _ (1 : Fin 2) * 128 + 128; rw [eo1]; omega

/-- THE ARRAY after the region: the two dense layers of the region-entry arrays. -/
theorem arr (c : Dev nD) : (dat8 V c).arrAt 6 cfg8.N = Cert.Net.mlp (F := Ideal) Cert.KerSide.D (V c main_v125) (V c main_v103) (V c main_v105) (V c main_v107) (V c main_v109) (V c main_v111) :=
  (dat8 V c).arrAt_eq_of_cover 6 _ (fun t _ => flushed V c t) cover

end Cert.KerSide.R8

end
-- ==== Proof.KerRegion9.lean ====
import proofs.«110124_j41455024341694_1_alg».proof.Proof.RowForms
import proofs.«110124_j41455024341694_1_alg».proof.Proof.Gen.KernelIdeal.Frame
import proofs.«110124_j41455024341694_1_alg».proof.Proof.KerDims
import Idealize.ShloMosaic.Lib.Pipeline.Value
import Idealize.ShloMosaic.Lib.ValueIdx
import Idealize.ShloMosaic.Lib.Tactic

noncomputable section

/-
  Region 9: normalise, scale, shift and rectify, computed on twenty row tiles of 5000 rows.

  A tile reads rows 5000·t … 5000·t + 4999 of the array and the four one-row parameters whole (the column means, the
  column variances, the scale, the shift); it writes the same rows of the result. The map is entrywise in the array and
  columnwise in the parameters, so the tile's entry (p, q) is the whole-array map's entry (5000·t + p, q); the twenty
  tiles fill the array.
-/
namespace Cert.KerSide.R9

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows are at block t, the parameter windows at block 0. -/
theorem idx : ∀ t : Fin cfg9.N,
    win9_0.index t (0 : Fin 2) = t.val ∧ win9_0.index t (1 : Fin 2) = 0
    ∧ win9_1.index t (0 : Fin 1) = 0 ∧ win9_2.index t (0 : Fin 1) = 0
    ∧ win9_3.index t (0 : Fin 1) = 0 ∧ win9_4.index t (0 : Fin 1) = 0
    ∧ win9_5.index t (0 : Fin 2) = t.val ∧ win9_5.index t (1 : Fin 2) = 0 :=
  (by decide +kernel : ∀ t : Fin grid9.N, _)

/-- One entry of the tile's result is the whole-array result at the matching row. (The body takes the variances before
    the means.) -/
theorem entry (y : Vec Ideal S5000x128 .f32) (mu va ga be : Vec Ideal S128 .f32)
    (Y : FVec Ideal Cert.Net.SN .f32) (MU VA GA BE : FVec Ideal Cert.Net.SH .f32) (p : Fin 5000) (q : Fin 128) (i : Fin 100000)
    (h0 : y (ix2 p q) = Y (ix2 i q)) (hmu : mu = MU) (hva : va = VA) (hga : ga = GA) (hbe : be = BE) :
    k3_pay1 (F := Ideal) y va mu ga be (ix2 p q) = Cert.Net.norm Cert.KerSide.D Y MU VA GA BE (ix2 i q) := by
  subst hmu hva hga hbe
  rw [Cert.RowForms.tile_norm', Cert.RowForms.host_norm, h0]

/-- WHAT POINT t WRITES BACK is block t of the normalisation applied to the whole arrays. -/
theorem flushed (c : Dev nD) (t : Fin cfg9.N) :
    (dat9 V c).flushed 5 t = ((cfg9.win 5).blk t).view.read (Elt Ideal) (Cert.Net.norm (F := Ideal) Cert.KerSide.D (V c main_v126) (V c main_v129) (V c main_v130) (V c main_v113) (V c main_v115)) := by
  show (cfg9.win 5).cut (grid9.coords t) ((dat9 V c).after 5 t) = _
  rw [after9_5]
  unfold out9_5
  rw [View.canon_unit_zero hz2]
  simp only [View.ld_unit_zero (S := S5000x128) hz2, View.ld_unit_zero (S := S128) hz1]
  obtain ⟨e00, e01, e10, e20, e30, e40, e50, e51⟩ := idx t
  have hN : cfg9.N = 20 := N_9
  funext j
  obtain ⟨p, q, rfl⟩ : ∃ (p : Fin 5000) (q : Fin 128), j = ix2 p q := ⟨j 0, j 1, eq_ix2 j⟩
  have hlt : 5000 * t.val + p.val < 100000 := by have := t.isLt; have := p.isLt; omega
  show k3_pay1 (F := Ideal) (iblk9 V c 0 t) (iblk9 V c 2 t) (iblk9 V c 1 t) (iblk9 V c 3 t) (iblk9 V c 4 t) (ix2 p q)
    = Cert.Net.norm (F := Ideal) Cert.KerSide.D (V c main_v126) (V c main_v129) (V c main_v130) (V c main_v113) (V c main_v115) (((cfg9.win 5).blk t).view.emb (ix2 p q))
  have hemb : ((cfg9.win 5).blk t).view.emb (ix2 p q) = ix2 (⟨5000 * t.val + p.val, hlt⟩ : Fin 100000) q := by
    funext a; apply Fin.ext
    match a with
    | ⟨0, _⟩ => show win9_5.index t (0 : Fin 2) * 5000 + 1 * p.val = 5000 * t.val + p.val; rw [e50]; omega
    | ⟨1, _⟩ => show win9_5.index t (1 : Fin 2) * 128 + 1 * q.val = q.val; rw [e51]; omega
  rw [hemb]
  refine entry (iblk9 V c 0 t) (iblk9 V c 1 t) (iblk9 V c 2 t) (iblk9 V c 3 t) (iblk9 V c 4 t)
    (V c main_v126) (V c main_v129) (V c main_v130) (V c main_v113) (V c main_v115) p q ⟨5000 * t.val + p.val, hlt⟩ ?_ ?_ ?_ ?_ ?_
  · show V c main_v126 (((cfg9.win 0).blk t).view.emb (ix2 p q)) = V c main_v126 (ix2 (⟨5000 * t.val + p.val, hlt⟩ : Fin 100000) q)
    refine congrArg _ ?_
    funext a; apply Fin.ext
    match a with
    | ⟨0, _⟩ => show win9_0.index t (0 : Fin 2) * 5000 + 1 * p.val = 5000 * t.val + p.val; rw [e00]; omega
    | ⟨1, _⟩ => show win9_0.index t (1 : Fin 2) * 128 + 1 * q.val = q.val; rw [e01]; omega
  · funext y
    show V c main_v129 (((cfg9.win 1).blk t).view.emb y) = V c main_v129 y
    refine congrArg _ ?_
    funext a; apply Fin.ext
    match a with
    | ⟨0, _⟩ => show win9_1.index t (0 : Fin 1) * 128 + 1 * (y 0).val = (y 0).val; rw [e10]; omega
  · funext y
    show V c main_v130 (((cfg9.win 2).blk t).view.emb y) = V c main_v130 y
    refine congrArg _ ?_
    funext a; apply Fin.ext
    match a with
    | ⟨0, _⟩ => show win9_2.index t (0 : Fin 1) * 128 + 1 * (y 0).val = (y 0).val; rw [e20]; omega
  · funext y
    show V c main_v113 (((cfg9.win 3).blk t).view.emb y) = V c main_v113 y
    refine congrArg _ ?_
    funext a; apply Fin.ext
    match a with
    | ⟨0, _⟩ => show win9_3.index t (0 : Fin 1) * 128 + 1 * (y 0).val = (y 0).val; rw [e30]; omega
  · funext y
    show V c main_v115 (((cfg9.win 4).blk t).view.emb y) = V c main_v115 y
    refine congrArg _ ?_
    funext a; apply Fin.ext
    match a with
    | ⟨0, _⟩ => show win9_4.index t (0 : Fin 1) * 128 + 1 * (y 0).val = (y 0).val; rw [e40]; omega

/-- An index of the array is in point t's block iff each coordinate is in the block's range on its axis. -/
theorem mem_blk (t : Fin cfg9.N) (i : S100000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v131).slice (win9_5.rect t)).set ↔ _
  rw [View.set_slice_whole, Rect.mem_set_unit]
  exact Iff.rfl

/-- Every row r of the array lies in the block of the point r / 5000: the twenty blocks of 5000 rows fill the array. -/
theorem cover (i : S100000x128.Idx) : ∃ t : Fin cfg9.N, (cfg9.win 5).flush t = true ∧ i ∈ ((cfg9.win 5).blk t).view.set := by
  have hN : cfg9.N = 20 := N_9
  have hi0 : (i 0).val < 100000 := (i 0).isLt
  have hi1 : (i 1).val < 128 := (i 1).isLt
  refine ⟨⟨(i 0).val / 5000, by rw [hN]; omega⟩, flush9_5 _, ?_⟩
  rw [mem_blk]
  obtain ⟨-, -, -, -, -, -, eo0, eo1⟩ := idx ⟨(i 0).val / 5000, by rw [hN]; omega⟩
  intro a
  match a with
  | ⟨0, _⟩ => show win9_5.index _ (0 : Fin 2) * 5000 ≤ (i 0).val ∧ (i 0).val < win9_5.index _ (0 : Fin 2) * 5000 + 5000; rw [eo0]; show (i 0).val / 5000 * 5000 ≤ (i 0).val ∧ (i 0).val < (i 0).val / 5000 * 5000 + 5000; omega
  | ⟨1, _⟩ => show win9_5.index _ (1 : Fin 2) * 128 ≤ (i 1).val ∧ (i 1).val < win9_5.index _ (1 : Fin 2) * 128 + 128; rw [eo1]; omega

/-- THE ARRAY after the region: the normalisation of the region-entry arrays. -/
theorem arr (c : Dev nD) : (dat9 V c).arrAt 5 cfg9.N = Cert.Net.norm (F := Ideal) Cert.KerSide.D (V c main_v126) (V c main_v129) (V c main_v130) (V c main_v113) (V c main_v115) :=
  (dat9 V c).arrAt_eq_of_cover 5 _ (fun t _ => flushed V c t) cover

end Cert.KerSide.R9

end
-- ==== Proof.KerLayer4.lean ====
/-
  Later layer 4 of the idealized kernel program, from its entry contents to its exit contents.

  The layer is a host stretch (the neighbour sum and the layer's parameter slices), the dense region, two host stretches
  (the column means, the column variances) and the normalising region. Reading the fold backwards, the layer's result
  array is the network's layer function of the features, the two edge rows and the stacked parameters as the layer found
  them; the edge rows and the stacked parameters pass through the layer unchanged.
-/
import proofs.«110124_j41455024341694_1_alg».proof.Proof.Gen.KernelIdeal.Frame
import proofs.«110124_j41455024341694_1_alg».proof.Proof.KerHost
import proofs.«110124_j41455024341694_1_alg».proof.Proof.KerRegion8
import proofs.«110124_j41455024341694_1_alg».proof.Proof.KerRegion9

noncomputable section

namespace Cert.KerSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The dense region's result: the two dense layers of the neighbour sum plus the features. -/
theorem dense4 (c : Dev nD) :
    W22 m ρ c (Proc.devRef .tc main_v126)
      = Cert.Net.mlp (F := Ideal) D (Cert.Net.agg (F := Ideal) D (W20 m ρ c (Proc.devRef .tc main_v103)) (W20 m ρ c (Proc.devRef .tc main_v1)) (W20 m ρ c (Proc.devRef .tc main_v3))) (W20 m ρ c (Proc.devRef .tc main_v103))
          (Cert.Net.mat (F := Ideal) D (W20 m ρ c (Proc.devRef .tc main_arg9)) ![3, 0, 0] C.m3) (Cert.Net.row (F := Ideal) D (W20 m ρ c (Proc.devRef .tc main_arg10)) ![3, 0] C.r3)
          (Cert.Net.mat (F := Ideal) D (W20 m ρ c (Proc.devRef .tc main_arg11)) ![3, 0, 0] C.m3) (Cert.Net.row (F := Ideal) D (W20 m ρ c (Proc.devRef .tc main_arg12)) ![3, 0] C.r3) := by
  refine (W22_arr m ρ c 6).trans ((R8.arr (V21 m ρ) c).trans ?_)
  show Cert.Net.mlp (F := Ideal) D (after hostOps8 (W20 m ρ c) (Proc.devRef .tc main_v125)) (after hostOps8 (W20 m ρ c) (Proc.devRef .tc main_v103)) (after hostOps8 (W20 m ρ c) (Proc.devRef .tc main_v105))
    (after hostOps8 (W20 m ρ c) (Proc.devRef .tc main_v107)) (after hostOps8 (W20 m ρ c) (Proc.devRef .tc main_v109)) (after hostOps8 (W20 m ρ c) (Proc.devRef .tc main_v111)) = _
  rw [host8_agg, host8_keep _ main_v103 (by decide), host8_w1, host8_b1, host8_w2, host8_b2]

/-- A buffer none of the layer's stretches writes and none of its regions owns passes through the layer. -/
theorem keep4 (c : Dev nD) (r : Ref sig .tc) (hA : r ∉ [main_v104, main_v105, main_v106, main_v107, main_v108, main_v109, main_v110, main_v111, main_v112, main_v113, main_v114, main_v115, main_c_22, main_v116, main_v117, main_c_23, main_v118, main_v119, main_v120, main_v121, main_v122, main_cst_24, main_v123, main_v124, main_v125])
    (h0 : ∀ w, Pipeline.arrRef spec8 w ≠ r) (hB : r ∉ [main_cst_25, main_v127, main_cst_26, main_v128, main_v129, main_c_27])
    (hC : r ∉ [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v130]) (h1 : ∀ w, Pipeline.arrRef spec9 w ≠ r) :
    W25 m ρ c (Proc.devRef .tc r) = W20 m ρ c (Proc.devRef .tc r) :=
  (W25_of_ne m ρ c r h1).trans ((host9_1_keep _ r hC).trans ((host9_keep _ r hB).trans ((W22_of_ne m ρ c r h0).trans (host8_keep _ r hA))))

/-- The layer's result array is the layer function of what the layer found. -/
theorem layer4 (c : Dev nD) :
    W25 m ρ c (Proc.devRef .tc main_v131)
      = Cert.Net.layerAt (F := Ideal) D (W20 m ρ c (Proc.devRef .tc main_v103)) (W20 m ρ c (Proc.devRef .tc main_v1)) (W20 m ρ c (Proc.devRef .tc main_v3)) (W20 m ρ c (Proc.devRef .tc main_arg9)) (W20 m ρ c (Proc.devRef .tc main_arg10)) (W20 m ρ c (Proc.devRef .tc main_arg11))
          (W20 m ρ c (Proc.devRef .tc main_arg12)) (W20 m ρ c (Proc.devRef .tc main_arg13)) (W20 m ρ c (Proc.devRef .tc main_arg14)) ![3, 0, 0] C.m3 ![3, 0] C.r3 := by
  refine (W25_arr m ρ c 5).trans ((R9.arr (V24 m ρ) c).trans ?_)
  show Cert.Net.norm (F := Ideal) D (after hostOps9_1 (after hostOps9 (W22 m ρ c)) (Proc.devRef .tc main_v126)) (after hostOps9_1 (after hostOps9 (W22 m ρ c)) (Proc.devRef .tc main_v129))
    (after hostOps9_1 (after hostOps9 (W22 m ρ c)) (Proc.devRef .tc main_v130)) (after hostOps9_1 (after hostOps9 (W22 m ρ c)) (Proc.devRef .tc main_v113))
    (after hostOps9_1 (after hostOps9 (W22 m ρ c)) (Proc.devRef .tc main_v115)) = _
  rw [host9_1_var, host9_1_keep _ main_v126 (by decide), host9_1_keep _ main_v129 (by decide), host9_1_keep _ main_v113 (by decide), host9_1_keep _ main_v115 (by decide),
    host9_mean, host9_zero, host9_keep _ main_v126 (by decide), host9_keep _ main_v113 (by decide), host9_keep _ main_v115 (by decide),
    W22_of_ne m ρ c main_v113 (by decide), W22_of_ne m ρ c main_v115 (by decide), dense4 m ρ c]
  show Cert.Net.norm (F := Ideal) D _ _ _ (after hostOps8 (W20 m ρ c) (Proc.devRef .tc main_v113)) (after hostOps8 (W20 m ρ c) (Proc.devRef .tc main_v115)) = _
  rw [host8_ga, host8_be]
  rfl

end Cert.KerSide

end
-- ==== Proof.KerValue.lean ====
/-
  The idealized kernel program's result array, followed back through the fold to the arguments.

  The last layer's result is its layer function of what it found; what it found is the previous layer's result, the two
  edge rows and the stacked parameters, each passed through unchanged since the first layer cut the edge table. Five
  layers back, the result array is the network function of the argument arrays.
-/
import proofs.«110124_j41455024341694_1_alg».proof.Proof.KerLayer0
import proofs.«110124_j41455024341694_1_alg».proof.Proof.KerLayer1
import proofs.«110124_j41455024341694_1_alg».proof.Proof.KerLayer2
import proofs.«110124_j41455024341694_1_alg».proof.Proof.KerLayer3
import proofs.«110124_j41455024341694_1_alg».proof.Proof.KerLayer4

noncomputable section

namespace Cert.KerSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result array after the run is the network function of the argument arrays. -/
theorem value (c : Dev nD) :
    W25 m ρ c (Proc.devRef .tc main_v131)
      = Cert.Net.net (F := Ideal) D C (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [layer4 m ρ c, layer3 m ρ c,
    keep3 m ρ c main_v1 (by decide) (by decide) (by decide) (by decide) (by decide),
    keep3 m ρ c main_v3 (by decide) (by decide) (by decide) (by decide) (by decide),
    keep3 m ρ c main_arg9 (by decide) (by decide) (by decide) (by decide) (by decide),
    keep3 m ρ c main_arg10 (by decide) (by decide) (by decide) (by decide) (by decide),
    keep3 m ρ c main_arg11 (by decide) (by decide) (by decide) (by decide) (by decide),
    keep3 m ρ c main_arg12 (by decide) (by decide) (by decide) (by decide) (by decide),
    keep3 m ρ c main_arg13 (by decide) (by decide) (by decide) (by decide) (by decide),
    keep3 m ρ c main_arg14 (by decide) (by decide) (by decide) (by decide) (by decide),
    layer2 m ρ c,
    keep2 m ρ c main_v1 (by decide) (by decide) (by decide) (by decide) (by decide),
    keep2 m ρ c main_v3 (by decide) (by decide) (by decide) (by decide) (by decide),
    keep2 m ρ c main_arg9 (by decide) (by decide) (by decide) (by decide) (by decide),
    keep2 m ρ c main_arg10 (by decide) (by decide) (by decide) (by decide) (by decide),
    keep2 m ρ c main_arg11 (by decide) (by decide) (by decide) (by decide) (by decide),
    keep2 m ρ c main_arg12 (by decide) (by decide) (by decide) (by decide) (by decide),
    keep2 m ρ c main_arg13 (by decide) (by decide) (by decide) (by decide) (by decide),
    keep2 m ρ c main_arg14 (by decide) (by decide) (by decide) (by decide) (by decide),
    layer1 m ρ c,
    keep1 m ρ c main_v1 (by decide) (by decide) (by decide) (by decide) (by decide),
    keep1 m ρ c main_v3 (by decide) (by decide) (by decide) (by decide) (by decide),
    keep1 m ρ c main_arg9 (by decide) (by decide) (by decide) (by decide) (by decide),
    keep1 m ρ c main_arg10 (by decide) (by decide) (by decide) (by decide) (by decide),
    keep1 m ρ c main_arg11 (by decide) (by decide) (by decide) (by decide) (by decide),
    keep1 m ρ c main_arg12 (by decide) (by decide) (by decide) (by decide) (by decide),
    keep1 m ρ c main_arg13 (by decide) (by decide) (by decide) (by decide) (by decide),
    keep1 m ρ c main_arg14 (by decide) (by decide) (by decide) (by decide) (by decide),
    layer0 m ρ c, src0 m ρ c, dst0 m ρ c,
    keep0 m ρ c main_arg9 (by decide) (by decide) (by decide) (by decide) (by decide),
    keep0 m ρ c main_arg10 (by decide) (by decide) (by decide) (by decide) (by decide),
    keep0 m ρ c main_arg11 (by decide) (by decide) (by decide) (by decide) (by decide),
    keep0 m ρ c main_arg12 (by decide) (by decide) (by decide) (by decide) (by decide),
    keep0 m ρ c main_arg13 (by decide) (by decide) (by decide) (by decide) (by decide),
    keep0 m ρ c main_arg14 (by decide) (by decide) (by decide) (by decide) (by decide)]
  rfl

end Cert.KerSide

end
-- ==== Proof.RefOps.lean ====
/-
  The reference program's @main as a list of its host operations, in order, the variance function and the selection
  it calls written out at each of the five places they are applied. The list is cut where the printed program's six
  windows end and where one layer of the network ends and the next begins, so that it can be read both ways: window
  by window it is the printed program (each window is the line of its chunks), layer by layer it is the network.
  What the run leaves in every buffer is then the fold of the operations' results over the contents at launch.
-/
import proofs.«110124_j41455024341694_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4: window 0 of the printed program, the edge table's two rows. -/
abbrev c0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Operations 5 … 76: window 0 of the printed program, the first layer. -/
abbrev c1 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x9_S1600000x1_S1600000x9_1_0_n_n_0_1_19 x i) : (⟨S100000x9, .f32⟩ : BufTy).Contents (Elt F) → (⟨S1600000x1, .i32⟩ : BufTy).Contents (Elt F) → (⟨S1600000x9, .f32⟩ : BufTy).Contents (Elt F)),
    StableHlo.nullary main_cst (constant S_ .f32 0x00000000#32),
    StableHlo.unary main_cst main_v11 (broadcastInDim S100000x9 ![] bcast_S_S100000x9 : (⟨S_, .f32⟩ : BufTy).Contents (Elt F) → (⟨S100000x9, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x9_S1600000x1_S1600000x9_1_0_0_1 x i u) : (⟨S100000x9, .f32⟩ : BufTy).Contents (Elt F) → (⟨S1600000x1, .i32⟩ : BufTy).Contents (Elt F) → (⟨S1600000x9, .f32⟩ : BufTy).Contents (Elt F) → (⟨S100000x9, .f32⟩ : BufTy).Contents (Elt F)),
    StableHlo.binary main_v13 main_arg0 main_v14 (addf : (⟨S100000x9, .f32⟩ : BufTy).Contents (Elt F) → (⟨S100000x9, .f32⟩ : BufTy).Contents (Elt F) → (⟨S100000x9, .f32⟩ : BufTy).Contents (Elt F)),
    StableHlo.binary main_v14 main_arg3 main_v15 ((fun l r => Host.dotGeneral dot_S100000x9_S9x128_S100000x128_1_0_0_1_n_n none l r) : (⟨S100000x9, .f32⟩ : BufTy).Contents (Elt F) → (⟨S9x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.unary main_cst_1 main_v19 (broadcastInDim S100000x128 ![] bcast_S_S100000x128 : (⟨S_, .f32⟩ : BufTy).Contents (Elt F) → (⟨S100000x128, .f32⟩ : BufTy).Contents (Elt F)),
    StableHlo.binary main_v18 main_v19 main_v20 (maximumf : (⟨S100000x128, .f32⟩ : BufTy).Contents (Elt F) → (⟨S100000x128, .f32⟩ : BufTy).Contents (Elt F) → (⟨S100000x128, .f32⟩ : BufTy).Contents (Elt F)),
    StableHlo.binary main_v20 main_arg5 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v24 main_cst_2 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary (.of main_call0_cst : StableHlo.TRef sig ⟨S_, .f32⟩) (constant S_ .f32 0x00000000#32),
    StableHlo.TRef.binary (.of main_v24 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v24 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_4 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v28 : StableHlo.TRef sig ⟨S128, .f32⟩) (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg7 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg8 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.unary main_cst_6 main_v44 (broadcastInDim S100000x128 ![] bcast_S_S100000x128 : (⟨S_, .f32⟩ : BufTy).Contents (Elt F) → (⟨S100000x128, .f32⟩ : BufTy).Contents (Elt F)),
    StableHlo.binary main_v43 main_v44 main_v45 (maximumf : (⟨S100000x128, .f32⟩ : BufTy).Contents (Elt F) → (⟨S100000x128, .f32⟩ : BufTy).Contents (Elt F) → (⟨S100000x128, .f32⟩ : BufTy).Contents (Elt F)) ]

/-- Operations 77 … 81: window 0 of the printed program, the second layer. -/
abbrev c2 : List (HloOp τ sig (Elt F)) :=
  [ StableHlo.unary main_arg9 main_v46 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v46 main_v47 rfl shapeCasts_S1x128x128_S128x128,
    StableHlo.unary main_arg10 main_v48 ((extractStridedSlice S1x128 ![0, 0] · slices_S4x128_S1x128_0_0) : (⟨S4x128, .f32⟩ : BufTy).Contents (Elt F) → (⟨S1x128, .f32⟩ : BufTy).Contents (Elt F)),
    StableHlo.reshape main_v48 main_v49 rfl shapeCasts_S1x128_S128,
    StableHlo.unary main_arg11 main_v50 ((extractStridedSlice S1x128x128 ![0, 0, 0] · slices_S4x128x128_S1x128x128_0_0_0) : (⟨S4x128x128, .f32⟩ : BufTy).Contents (Elt F) → (⟨S1x128x128, .f32⟩ : BufTy).Contents (Elt F)) ]

/-- Operations 82 … 160: window 1 of the printed program, the second layer. -/
abbrev c3 : List (HloOp τ sig (Elt F)) :=
  [ StableHlo.reshape main_v50 main_v51 rfl shapeCasts_S1x128x128_S128x128,
    StableHlo.unary main_arg12 main_v52 ((extractStridedSlice S1x128 ![0, 0] · slices_S4x128_S1x128_0_0) : (⟨S4x128, .f32⟩ : BufTy).Contents (Elt F) → (⟨S1x128, .f32⟩ : BufTy).Contents (Elt F)),
    StableHlo.reshape main_v52 main_v53 rfl shapeCasts_S1x128_S128,
    StableHlo.unary main_arg13 main_v54 ((extractStridedSlice S1x128 ![0, 0] · slices_S4x128_S1x128_0_0) : (⟨S4x128, .f32⟩ : BufTy).Contents (Elt F) → (⟨S1x128, .f32⟩ : BufTy).Contents (Elt F)),
    StableHlo.reshape main_v54 main_v55 rfl shapeCasts_S1x128_S128,
    StableHlo.unary main_arg14 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.nullary main_c_7 (constantI S_ 32 0#32),
    StableHlo.unary main_c_7 main_v58 (broadcastInDim S1600000 ![] bcast_S_S1600000 : (⟨S_, .i32⟩ : BufTy).Contents (Elt F) → (⟨S1600000, .i32⟩ : BufTy).Contents (Elt F)),
    StableHlo.binary main_v1 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v60 (broadcastInDim S1600000 ![] bcast_S_S1600000 : (⟨S_, .i32⟩ : BufTy).Contents (Elt F) → (⟨S1600000, .i32⟩ : BufTy).Contents (Elt F)),
    StableHlo.binary main_v1 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_v1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v45 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v65 (broadcastInDim S100000x128 ![] bcast_S_S100000x128 : (⟨S_, .f32⟩ : BufTy).Contents (Elt F) → (⟨S100000x128, .f32⟩ : BufTy).Contents (Elt F)),
    StableHlo.unary main_v3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v67 main_v45 main_v68 (addf : (⟨S100000x128, .f32⟩ : BufTy).Contents (Elt F) → (⟨S100000x128, .f32⟩ : BufTy).Contents (Elt F) → (⟨S100000x128, .f32⟩ : BufTy).Contents (Elt F)),
    StableHlo.binary main_v68 main_v47 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v49 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v71 main_v72 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.unary main_cst_10 main_v73 (broadcastInDim S100000x128 ![] bcast_S_S100000x128 : (⟨S_, .f32⟩ : BufTy).Contents (Elt F) → (⟨S100000x128, .f32⟩ : BufTy).Contents (Elt F)),
    StableHlo.binary main_v72 main_v73 main_v74 (maximumf : (⟨S100000x128, .f32⟩ : BufTy).Contents (Elt F) → (⟨S100000x128, .f32⟩ : BufTy).Contents (Elt F) → (⟨S100000x128, .f32⟩ : BufTy).Contents (Elt F)),
    StableHlo.binary main_v74 main_v51 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v53 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.binary main_v78 main_cst_11 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary (.of main_call1_cst : StableHlo.TRef sig ⟨S_, .f32⟩) (constant S_ .f32 0x00000000#32),
    StableHlo.TRef.binary (.of main_v78 : StableHlo.TRef sig ⟨S100000x128, .f32⟩) (.of main_call1_cst : StableHlo.TRef sig ⟨S_, .f32⟩) (.of main_call1_v0 : StableHlo.TRef sig ⟨S128, .f32⟩) (fun x v => Host.reduceAdd x v reducesTo_S100000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47C35000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S100000x128, .f32⟩) (broadcastInDim S100000x128 ![0, 1] bcast_S1x128_S100000x128_0_1),
    StableHlo.TRef.binary (.of main_v78 : StableHlo.TRef sig ⟨S100000x128, .f32⟩) (.of main_call1_v4 : StableHlo.TRef sig ⟨S100000x128, .f32⟩) (.of main_call1_v5 : StableHlo.TRef sig ⟨S100000x128, .f32⟩) subf,
    StableHlo.TRef.binary (.of main_call1_v5 : StableHlo.TRef sig ⟨S100000x128, .f32⟩) (.of main_call1_v5 : StableHlo.TRef sig ⟨S100000x128, .f32⟩) (.of main_call1_v6 : StableHlo.TRef sig ⟨S100000x128, .f32⟩) mulf,
    StableHlo.TRef.unary (.of main_c_13 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47C35000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S100000x128, .f32⟩) (.of main_call1_cst_2 : StableHlo.TRef sig ⟨S_, .f32⟩) (.of main_call1_v9 : StableHlo.TRef sig ⟨S128, .f32⟩) (fun x v => Host.reduceAdd x v reducesTo_S100000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v82 : StableHlo.TRef sig ⟨S128, .f32⟩) (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v84 main_v85 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_v55 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v57 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.unary main_cst_15 main_v98 (broadcastInDim S100000x128 ![] bcast_S_S100000x128 : (⟨S_, .f32⟩ : BufTy).Contents (Elt F) → (⟨S100000x128, .f32⟩ : BufTy).Contents (Elt F)),
    StableHlo.binary main_v97 main_v98 main_v99 (maximumf : (⟨S100000x128, .f32⟩ : BufTy).Contents (Elt F) → (⟨S100000x128, .f32⟩ : BufTy).Contents (Elt F) → (⟨S100000x128, .f32⟩ : BufTy).Contents (Elt F)) ]

/-- Operations 161 … 162: window 1 of the printed program, the third layer. -/
abbrev c4 : List (HloOp τ sig (Elt F)) :=
  [ StableHlo.unary main_arg9 main_v100 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v100 main_v101 rfl shapeCasts_S1x128x128_S128x128 ]

/-- Operations 163 … 243: window 2 of the printed program, the third layer. -/
abbrev c5 : List (HloOp τ sig (Elt F)) :=
  [ StableHlo.unary main_arg10 main_v102 ((extractStridedSlice S1x128 ![1, 0] · slices_S4x128_S1x128_1_0) : (⟨S4x128, .f32⟩ : BufTy).Contents (Elt F) → (⟨S1x128, .f32⟩ : BufTy).Contents (Elt F)),
    StableHlo.reshape main_v102 main_v103 rfl shapeCasts_S1x128_S128,
    StableHlo.unary main_arg11 main_v104 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v104 main_v105 rfl shapeCasts_S1x128x128_S128x128,
    StableHlo.unary main_arg12 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128,
    StableHlo.unary main_arg13 main_v108 ((extractStridedSlice S1x128 ![1, 0] · slices_S4x128_S1x128_1_0) : (⟨S4x128, .f32⟩ : BufTy).Contents (Elt F) → (⟨S1x128, .f32⟩ : BufTy).Contents (Elt F)),
    StableHlo.reshape main_v108 main_v109 rfl shapeCasts_S1x128_S128,
    StableHlo.unary main_arg14 main_v110 ((extractStridedSlice S1x128 ![1, 0] · slices_S4x128_S1x128_1_0) : (⟨S4x128, .f32⟩ : BufTy).Contents (Elt F) → (⟨S1x128, .f32⟩ : BufTy).Contents (Elt F)),
    StableHlo.reshape main_v110 main_v111 rfl shapeCasts_S1x128_S128,
    StableHlo.nullary main_c_16 (constantI S_ 32 0#32),
    StableHlo.unary main_c_16 main_v112 (broadcastInDim S1600000 ![] bcast_S_S1600000 : (⟨S_, .i32⟩ : BufTy).Contents (Elt F) → (⟨S1600000, .i32⟩ : BufTy).Contents (Elt F)),
    StableHlo.binary main_v1 main_v112 main_v113 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v114 (broadcastInDim S1600000 ![] bcast_S_S1600000 : (⟨S_, .i32⟩ : BufTy).Contents (Elt F) → (⟨S1600000, .i32⟩ : BufTy).Contents (Elt F)),
    StableHlo.binary main_v1 main_v114 main_v115 (addi : (⟨S1600000, .i32⟩ : BufTy).Contents (Elt F) → (⟨S1600000, .i32⟩ : BufTy).Contents (Elt F) → (⟨S1600000, .i32⟩ : BufTy).Contents (Elt F)),
    StableHlo.ternary main_v113 main_v115 main_v1 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v116 main_v117 (broadcastInDim S1600000x1 ![0] bcast_S1600000_S1600000x1_0 : (⟨S1600000, .i32⟩ : BufTy).Contents (Elt F) → (⟨S1600000x1, .i32⟩ : BufTy).Contents (Elt F)),
    StableHlo.binary main_v99 main_v117 main_v118 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v119 (broadcastInDim S100000x128 ![] bcast_S_S100000x128 : (⟨S_, .f32⟩ : BufTy).Contents (Elt F) → (⟨S100000x128, .f32⟩ : BufTy).Contents (Elt F)),
    StableHlo.unary main_v3 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v121 main_v99 main_v122 (addf : (⟨S100000x128, .f32⟩ : BufTy).Contents (Elt F) → (⟨S100000x128, .f32⟩ : BufTy).Contents (Elt F) → (⟨S100000x128, .f32⟩ : BufTy).Contents (Elt F)),
    StableHlo.binary main_v122 main_v101 main_v123 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v103 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v123 main_v125 main_v126 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v127 (broadcastInDim S100000x128 ![] bcast_S_S100000x128 : (⟨S_, .f32⟩ : BufTy).Contents (Elt F) → (⟨S100000x128, .f32⟩ : BufTy).Contents (Elt F)),
    StableHlo.binary main_v126 main_v127 main_v128 (maximumf : (⟨S100000x128, .f32⟩ : BufTy).Contents (Elt F) → (⟨S100000x128, .f32⟩ : BufTy).Contents (Elt F) → (⟨S100000x128, .f32⟩ : BufTy).Contents (Elt F)),
    StableHlo.binary main_v128 main_v105 main_v129 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v107 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S100000x128 ![0, 1] bcast_S1x128_S100000x128_0_1 : (⟨S1x128, .f32⟩ : BufTy).Contents (Elt F) → (⟨S100000x128, .f32⟩ : BufTy).Contents (Elt F)),
    StableHlo.binary main_v129 main_v131 main_v132 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x00000000#32),
    StableHlo.binary main_v132 main_cst_20 main_v133 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v134 (broadcastInDim S128 ![] bcast_S_S128 : (⟨S_, .f32⟩ : BufTy).Contents (Elt F) → (⟨S128, .f32⟩ : BufTy).Contents (Elt F)),
    StableHlo.binary main_v133 main_v134 main_v135 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary (.of main_call2_cst : StableHlo.TRef sig ⟨S_, .f32⟩) (constant S_ .f32 0x00000000#32),
    StableHlo.TRef.binary (.of main_v132 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v132 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_22 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v136 : StableHlo.TRef sig ⟨S128, .f32⟩) (fun p a b => select (broadcastInDim S128 ![] bcast_S_S128 p) a b),
    StableHlo.unary main_v135 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v138 main_v139 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v140 (broadcastInDim S128 ![] bcast_S_S128 : (⟨S_, .f32⟩ : BufTy).Contents (Elt F) → (⟨S128, .f32⟩ : BufTy).Contents (Elt F)),
    StableHlo.binary main_v136 main_v140 main_v141 (addf : (⟨S128, .f32⟩ : BufTy).Contents (Elt F) → (⟨S128, .f32⟩ : BufTy).Contents (Elt F) → (⟨S128, .f32⟩ : BufTy).Contents (Elt F)),
    StableHlo.unary main_v141 main_v142 (Host.rsqrt : (⟨S128, .f32⟩ : BufTy).Contents (Elt F) → (⟨S128, .f32⟩ : BufTy).Contents (Elt F)),
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v144 main_v145 (mulf : (⟨S100000x128, .f32⟩ : BufTy).Contents (Elt F) → (⟨S100000x128, .f32⟩ : BufTy).Contents (Elt F) → (⟨S100000x128, .f32⟩ : BufTy).Contents (Elt F)),
    StableHlo.unary main_v109 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v147 main_v148 (mulf : (⟨S100000x128, .f32⟩ : BufTy).Contents (Elt F) → (⟨S100000x128, .f32⟩ : BufTy).Contents (Elt F) → (⟨S100000x128, .f32⟩ : BufTy).Contents (Elt F)),
    StableHlo.unary main_v111 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v150 main_v151 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.unary main_cst_24 main_v152 (broadcastInDim S100000x128 ![] bcast_S_S100000x128 : (⟨S_, .f32⟩ : BufTy).Contents (Elt F) → (⟨S100000x128, .f32⟩ : BufTy).Contents (Elt F)) ]

/-- Operations 244 … 244: window 3 of the printed program, the third layer. -/
abbrev c6 : List (HloOp τ sig (Elt F)) :=
  [ StableHlo.binary main_v151 main_v152 main_v153 (maximumf : (⟨S100000x128, .f32⟩ : BufTy).Contents (Elt F) → (⟨S100000x128, .f32⟩ : BufTy).Contents (Elt F) → (⟨S100000x128, .f32⟩ : BufTy).Contents (Elt F)) ]

/-- Operations 245 … 324: window 3 of the printed program, the fourth layer. -/
abbrev c7 : List (HloOp τ sig (Elt F)) :=
  [ StableHlo.unary main_arg9 main_v154 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v154 main_v155 rfl shapeCasts_S1x128x128_S128x128,
    StableHlo.unary main_arg10 main_v156 ((extractStridedSlice S1x128 ![2, 0] · slices_S4x128_S1x128_2_0) : (⟨S4x128, .f32⟩ : BufTy).Contents (Elt F) → (⟨S1x128, .f32⟩ : BufTy).Contents (Elt F)),
    StableHlo.reshape main_v156 main_v157 rfl shapeCasts_S1x128_S128,
    StableHlo.unary main_arg11 main_v158 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v158 main_v159 rfl shapeCasts_S1x128x128_S128x128,
    StableHlo.unary main_arg12 main_v160 ((extractStridedSlice S1x128 ![2, 0] · slices_S4x128_S1x128_2_0) : (⟨S4x128, .f32⟩ : BufTy).Contents (Elt F) → (⟨S1x128, .f32⟩ : BufTy).Contents (Elt F)),
    StableHlo.reshape main_v160 main_v161 rfl shapeCasts_S1x128_S128,
    StableHlo.unary main_arg13 main_v162 ((extractStridedSlice S1x128 ![2, 0] · slices_S4x128_S1x128_2_0) : (⟨S4x128, .f32⟩ : BufTy).Contents (Elt F) → (⟨S1x128, .f32⟩ : BufTy).Contents (Elt F)),
    StableHlo.reshape main_v162 main_v163 rfl shapeCasts_S1x128_S128,
    StableHlo.unary main_arg14 main_v164 ((extractStridedSlice S1x128 ![2, 0] · slices_S4x128_S1x128_2_0) : (⟨S4x128, .f32⟩ : BufTy).Contents (Elt F) → (⟨S1x128, .f32⟩ : BufTy).Contents (Elt F)),
    StableHlo.reshape main_v164 main_v165 rfl shapeCasts_S1x128_S128,
    StableHlo.nullary main_c_25 (constantI S_ 32 0#32),
    StableHlo.unary main_c_25 main_v166 (broadcastInDim S1600000 ![] bcast_S_S1600000 : (⟨S_, .i32⟩ : BufTy).Contents (Elt F) → (⟨S1600000, .i32⟩ : BufTy).Contents (Elt F)),
    StableHlo.binary main_v1 main_v166 main_v167 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v168 (broadcastInDim S1600000 ![] bcast_S_S1600000 : (⟨S_, .i32⟩ : BufTy).Contents (Elt F) → (⟨S1600000, .i32⟩ : BufTy).Contents (Elt F)),
    StableHlo.binary main_v1 main_v168 main_v169 (addi : (⟨S1600000, .i32⟩ : BufTy).Contents (Elt F) → (⟨S1600000, .i32⟩ : BufTy).Contents (Elt F) → (⟨S1600000, .i32⟩ : BufTy).Contents (Elt F)),
    StableHlo.ternary main_v167 main_v169 main_v1 main_v170 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v170 main_v171 (broadcastInDim S1600000x1 ![0] bcast_S1600000_S1600000x1_0 : (⟨S1600000, .i32⟩ : BufTy).Contents (Elt F) → (⟨S1600000x1, .i32⟩ : BufTy).Contents (Elt F)),
    StableHlo.binary main_v153 main_v171 main_v172 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_27 (constant S_ .f32 0x00000000#32),
    StableHlo.unary main_cst_27 main_v173 (broadcastInDim S100000x128 ![] bcast_S_S100000x128 : (⟨S_, .f32⟩ : BufTy).Contents (Elt F) → (⟨S100000x128, .f32⟩ : BufTy).Contents (Elt F)),
    StableHlo.unary main_v3 main_v174 (broadcastInDim S1600000x1 ![0] bcast_S1600000_S1600000x1_0 : (⟨S1600000, .i32⟩ : BufTy).Contents (Elt F) → (⟨S1600000x1, .i32⟩ : BufTy).Contents (Elt F)),
    StableHlo.ternary main_v173 main_v174 main_v172 main_v175 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v175 main_v153 main_v176 (addf : (⟨S100000x128, .f32⟩ : BufTy).Contents (Elt F) → (⟨S100000x128, .f32⟩ : BufTy).Contents (Elt F) → (⟨S100000x128, .f32⟩ : BufTy).Contents (Elt F)),
    StableHlo.binary main_v176 main_v155 main_v177 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v157 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S100000x128 ![0, 1] bcast_S1x128_S100000x128_0_1 : (⟨S1x128, .f32⟩ : BufTy).Contents (Elt F) → (⟨S100000x128, .f32⟩ : BufTy).Contents (Elt F)),
    StableHlo.binary main_v177 main_v179 main_v180 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x00000000#32),
    StableHlo.unary main_cst_28 main_v181 (broadcastInDim S100000x128 ![] bcast_S_S100000x128 : (⟨S_, .f32⟩ : BufTy).Contents (Elt F) → (⟨S100000x128, .f32⟩ : BufTy).Contents (Elt F)),
    StableHlo.binary main_v180 main_v181 main_v182 (maximumf : (⟨S100000x128, .f32⟩ : BufTy).Contents (Elt F) → (⟨S100000x128, .f32⟩ : BufTy).Contents (Elt F) → (⟨S100000x128, .f32⟩ : BufTy).Contents (Elt F)),
    StableHlo.binary main_v182 main_v159 main_v183 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v161 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v185 main_v186 (addf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x00000000#32),
    StableHlo.binary main_v186 main_cst_29 main_v187 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v188 (broadcastInDim S128 ![] bcast_S_S128 : (⟨S_, .f32⟩ : BufTy).Contents (Elt F) → (⟨S128, .f32⟩ : BufTy).Contents (Elt F)),
    StableHlo.binary main_v187 main_v188 main_v189 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary (.of main_call3_cst : StableHlo.TRef sig ⟨S_, .f32⟩) (constant S_ .f32 0x00000000#32),
    StableHlo.TRef.binary (.of main_v186 : StableHlo.TRef sig ⟨S100000x128, .f32⟩) (.of main_call3_cst : StableHlo.TRef sig ⟨S_, .f32⟩) (.of main_call3_v0 : StableHlo.TRef sig ⟨S128, .f32⟩) (fun x v => Host.reduceAdd x v reducesTo_S100000x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x47C35000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S100000x128, .f32⟩) (broadcastInDim S100000x128 ![0, 1] bcast_S1x128_S100000x128_0_1),
    StableHlo.TRef.binary (.of main_v186 : StableHlo.TRef sig ⟨S100000x128, .f32⟩) (.of main_call3_v4 : StableHlo.TRef sig ⟨S100000x128, .f32⟩) (.of main_call3_v5 : StableHlo.TRef sig ⟨S100000x128, .f32⟩) subf,
    StableHlo.TRef.binary (.of main_call3_v5 : StableHlo.TRef sig ⟨S100000x128, .f32⟩) (.of main_call3_v5 : StableHlo.TRef sig ⟨S100000x128, .f32⟩) (.of main_call3_v6 : StableHlo.TRef sig ⟨S100000x128, .f32⟩) mulf,
    StableHlo.TRef.unary (.of main_c_31 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47C35000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S100000x128, .f32⟩) (.of main_call3_cst_2 : StableHlo.TRef sig ⟨S_, .f32⟩) (.of main_call3_v9 : StableHlo.TRef sig ⟨S128, .f32⟩) (fun x v => Host.reduceAdd x v reducesTo_S100000x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v190 : StableHlo.TRef sig ⟨S128, .f32⟩) (fun p a b => select (broadcastInDim S128 ![] bcast_S_S128 p) a b),
    StableHlo.unary main_v189 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v186 main_v192 main_v193 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v194 (broadcastInDim S128 ![] bcast_S_S128 : (⟨S_, .f32⟩ : BufTy).Contents (Elt F) → (⟨S128, .f32⟩ : BufTy).Contents (Elt F)),
    StableHlo.binary main_v190 main_v194 main_v195 (addf : (⟨S128, .f32⟩ : BufTy).Contents (Elt F) → (⟨S128, .f32⟩ : BufTy).Contents (Elt F) → (⟨S128, .f32⟩ : BufTy).Contents (Elt F)),
    StableHlo.unary main_v195 main_v196 (Host.rsqrt : (⟨S128, .f32⟩ : BufTy).Contents (Elt F) → (⟨S128, .f32⟩ : BufTy).Contents (Elt F)),
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v198 main_v199 (mulf : (⟨S100000x128, .f32⟩ : BufTy).Contents (Elt F) → (⟨S100000x128, .f32⟩ : BufTy).Contents (Elt F) → (⟨S100000x128, .f32⟩ : BufTy).Contents (Elt F)),
    StableHlo.unary main_v163 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v201 main_v202 (mulf : (⟨S100000x128, .f32⟩ : BufTy).Contents (Elt F) → (⟨S100000x128, .f32⟩ : BufTy).Contents (Elt F) → (⟨S100000x128, .f32⟩ : BufTy).Contents (Elt F)),
    StableHlo.unary main_v165 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)) ]

/-- Operations 325 … 328: window 4 of the printed program, the fourth layer. -/
abbrev c8 : List (HloOp τ sig (Elt F)) :=
  [ StableHlo.binary main_v202 main_v204 main_v205 (addf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x00000000#32),
    StableHlo.unary main_cst_33 main_v206 (broadcastInDim S100000x128 ![] bcast_S_S100000x128 : (⟨S_, .f32⟩ : BufTy).Contents (Elt F) → (⟨S100000x128, .f32⟩ : BufTy).Contents (Elt F)),
    StableHlo.binary main_v205 main_v206 main_v207 (maximumf : (⟨S100000x128, .f32⟩ : BufTy).Contents (Elt F) → (⟨S100000x128, .f32⟩ : BufTy).Contents (Elt F) → (⟨S100000x128, .f32⟩ : BufTy).Contents (Elt F)) ]

/-- Operations 329 … 405: window 4 of the printed program, the fifth layer. -/
abbrev c9 : List (HloOp τ sig (Elt F)) :=
  [ StableHlo.unary main_arg9 main_v208 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v208 main_v209 rfl shapeCasts_S1x128x128_S128x128,
    StableHlo.unary main_arg10 main_v210 ((extractStridedSlice S1x128 ![3, 0] · slices_S4x128_S1x128_3_0) : (⟨S4x128, .f32⟩ : BufTy).Contents (Elt F) → (⟨S1x128, .f32⟩ : BufTy).Contents (Elt F)),
    StableHlo.reshape main_v210 main_v211 rfl shapeCasts_S1x128_S128,
    StableHlo.unary main_arg11 main_v212 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v212 main_v213 rfl shapeCasts_S1x128x128_S128x128,
    StableHlo.unary main_arg12 main_v214 ((extractStridedSlice S1x128 ![3, 0] · slices_S4x128_S1x128_3_0) : (⟨S4x128, .f32⟩ : BufTy).Contents (Elt F) → (⟨S1x128, .f32⟩ : BufTy).Contents (Elt F)),
    StableHlo.reshape main_v214 main_v215 rfl shapeCasts_S1x128_S128,
    StableHlo.unary main_arg13 main_v216 ((extractStridedSlice S1x128 ![3, 0] · slices_S4x128_S1x128_3_0) : (⟨S4x128, .f32⟩ : BufTy).Contents (Elt F) → (⟨S1x128, .f32⟩ : BufTy).Contents (Elt F)),
    StableHlo.reshape main_v216 main_v217 rfl shapeCasts_S1x128_S128,
    StableHlo.unary main_arg14 main_v218 ((extractStridedSlice S1x128 ![3, 0] · slices_S4x128_S1x128_3_0) : (⟨S4x128, .f32⟩ : BufTy).Contents (Elt F) → (⟨S1x128, .f32⟩ : BufTy).Contents (Elt F)),
    StableHlo.reshape main_v218 main_v219 rfl shapeCasts_S1x128_S128,
    StableHlo.nullary main_c_34 (constantI S_ 32 0#32),
    StableHlo.unary main_c_34 main_v220 (broadcastInDim S1600000 ![] bcast_S_S1600000 : (⟨S_, .i32⟩ : BufTy).Contents (Elt F) → (⟨S1600000, .i32⟩ : BufTy).Contents (Elt F)),
    StableHlo.binary main_v1 main_v220 main_v221 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v222 (broadcastInDim S1600000 ![] bcast_S_S1600000 : (⟨S_, .i32⟩ : BufTy).Contents (Elt F) → (⟨S1600000, .i32⟩ : BufTy).Contents (Elt F)),
    StableHlo.binary main_v1 main_v222 main_v223 (addi : (⟨S1600000, .i32⟩ : BufTy).Contents (Elt F) → (⟨S1600000, .i32⟩ : BufTy).Contents (Elt F) → (⟨S1600000, .i32⟩ : BufTy).Contents (Elt F)),
    StableHlo.ternary main_v221 main_v223 main_v1 main_v224 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v224 main_v225 (broadcastInDim S1600000x1 ![0] bcast_S1600000_S1600000x1_0 : (⟨S1600000, .i32⟩ : BufTy).Contents (Elt F) → (⟨S1600000x1, .i32⟩ : BufTy).Contents (Elt F)),
    StableHlo.binary main_v207 main_v225 main_v226 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_36 (constant S_ .f32 0x00000000#32),
    StableHlo.unary main_cst_36 main_v227 (broadcastInDim S100000x128 ![] bcast_S_S100000x128 : (⟨S_, .f32⟩ : BufTy).Contents (Elt F) → (⟨S100000x128, .f32⟩ : BufTy).Contents (Elt F)),
    StableHlo.unary main_v3 main_v228 (broadcastInDim S1600000x1 ![0] bcast_S1600000_S1600000x1_0 : (⟨S1600000, .i32⟩ : BufTy).Contents (Elt F) → (⟨S1600000x1, .i32⟩ : BufTy).Contents (Elt F)),
    StableHlo.ternary main_v227 main_v228 main_v226 main_v229 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v229 main_v207 main_v230 (addf : (⟨S100000x128, .f32⟩ : BufTy).Contents (Elt F) → (⟨S100000x128, .f32⟩ : BufTy).Contents (Elt F) → (⟨S100000x128, .f32⟩ : BufTy).Contents (Elt F)),
    StableHlo.binary main_v230 main_v209 main_v231 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v211 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S100000x128 ![0, 1] bcast_S1x128_S100000x128_0_1 : (⟨S1x128, .f32⟩ : BufTy).Contents (Elt F) → (⟨S100000x128, .f32⟩ : BufTy).Contents (Elt F)),
    StableHlo.binary main_v231 main_v233 main_v234 (addf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x00000000#32),
    StableHlo.unary main_cst_37 main_v235 (broadcastInDim S100000x128 ![] bcast_S_S100000x128 : (⟨S_, .f32⟩ : BufTy).Contents (Elt F) → (⟨S100000x128, .f32⟩ : BufTy).Contents (Elt F)),
    StableHlo.binary main_v234 main_v235 main_v236 (maximumf : (⟨S100000x128, .f32⟩ : BufTy).Contents (Elt F) → (⟨S100000x128, .f32⟩ : BufTy).Contents (Elt F) → (⟨S100000x128, .f32⟩ : BufTy).Contents (Elt F)),
    StableHlo.binary main_v236 main_v213 main_v237 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v215 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S100000x128 ![0, 1] bcast_S1x128_S100000x128_0_1 : (⟨S1x128, .f32⟩ : BufTy).Contents (Elt F) → (⟨S100000x128, .f32⟩ : BufTy).Contents (Elt F)),
    StableHlo.binary main_v237 main_v239 main_v240 (addf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x00000000#32),
    StableHlo.binary main_v240 main_cst_38 main_v241 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_39 (constant S_ .f32 0x47C35000#32),
    StableHlo.unary main_cst_39 main_v242 (broadcastInDim S128 ![] bcast_S_S128 : (⟨S_, .f32⟩ : BufTy).Contents (Elt F) → (⟨S128, .f32⟩ : BufTy).Contents (Elt F)),
    StableHlo.binary main_v241 main_v242 main_v243 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary (.of main_call4_cst : StableHlo.TRef sig ⟨S_, .f32⟩) (constant S_ .f32 0x00000000#32),
    StableHlo.TRef.binary (.of main_v240 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v240 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_40 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v244 : StableHlo.TRef sig ⟨S128, .f32⟩) (fun p a b => select (broadcastInDim S128 ![] bcast_S_S128 p) a b),
    StableHlo.unary main_v243 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S100000x128 ![0, 1] bcast_S1x128_S100000x128_0_1 : (⟨S1x128, .f32⟩ : BufTy).Contents (Elt F) → (⟨S100000x128, .f32⟩ : BufTy).Contents (Elt F)),
    StableHlo.binary main_v240 main_v246 main_v247 (subf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v248 (broadcastInDim S128 ![] bcast_S_S128 : (⟨S_, .f32⟩ : BufTy).Contents (Elt F) → (⟨S128, .f32⟩ : BufTy).Contents (Elt F)),
    StableHlo.binary main_v244 main_v248 main_v249 (addf : (⟨S128, .f32⟩ : BufTy).Contents (Elt F) → (⟨S128, .f32⟩ : BufTy).Contents (Elt F) → (⟨S128, .f32⟩ : BufTy).Contents (Elt F)),
    StableHlo.unary main_v249 main_v250 (Host.rsqrt : (⟨S128, .f32⟩ : BufTy).Contents (Elt F) → (⟨S128, .f32⟩ : BufTy).Contents (Elt F)),
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S100000x128 ![0, 1] bcast_S1x128_S100000x128_0_1 : (⟨S1x128, .f32⟩ : BufTy).Contents (Elt F) → (⟨S100000x128, .f32⟩ : BufTy).Contents (Elt F)),
    StableHlo.binary main_v247 main_v252 main_v253 (mulf : (⟨S100000x128, .f32⟩ : BufTy).Contents (Elt F) → (⟨S100000x128, .f32⟩ : BufTy).Contents (Elt F) → (⟨S100000x128, .f32⟩ : BufTy).Contents (Elt F)),
    StableHlo.unary main_v217 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S100000x128 ![0, 1] bcast_S1x128_S100000x128_0_1 : (⟨S1x128, .f32⟩ : BufTy).Contents (Elt F) → (⟨S100000x128, .f32⟩ : BufTy).Contents (Elt F)) ]

/-- Operations 406 … 412: window 5 of the printed program, the fifth layer. -/
abbrev c10 : List (HloOp τ sig (Elt F)) :=
  [ StableHlo.binary main_v253 main_v255 main_v256 (mulf : (⟨S100000x128, .f32⟩ : BufTy).Contents (Elt F) → (⟨S100000x128, .f32⟩ : BufTy).Contents (Elt F) → (⟨S100000x128, .f32⟩ : BufTy).Contents (Elt F)),
    StableHlo.unary main_v219 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S100000x128 ![0, 1] bcast_S1x128_S100000x128_0_1 : (⟨S1x128, .f32⟩ : BufTy).Contents (Elt F) → (⟨S100000x128, .f32⟩ : BufTy).Contents (Elt F)),
    StableHlo.binary main_v256 main_v258 main_v259 (addf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x00000000#32),
    StableHlo.unary main_cst_42 main_v260 (broadcastInDim S100000x128 ![] bcast_S_S100000x128 : (⟨S_, .f32⟩ : BufTy).Contents (Elt F) → (⟨S100000x128, .f32⟩ : BufTy).Contents (Elt F)),
    StableHlo.binary main_v259 main_v260 main_v261 (maximumf : (⟨S100000x128, .f32⟩ : BufTy).Contents (Elt F) → (⟨S100000x128, .f32⟩ : BufTy).Contents (Elt F) → (⟨S100000x128, .f32⟩ : BufTy).Contents (Elt F)) ]

theorem c0_sub : (c0 : List (HloOp τ sig (Elt F))).Forall fun op => op.bufs ⊆ tcRefs τ sig :=
  ⟨unary_bufs_sub .., reshape_bufs_sub .., unary_bufs_sub .., reshape_bufs_sub ..⟩
theorem c0_fresh : (c0 : List (HloOp τ sig (Elt F))).Forall fun op => op.fresh = ∅ :=
  ⟨rfl, rfl, rfl, rfl⟩

theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem c1_fresh : (c1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem c2_sub : (c2 : List (HloOp τ sig (Elt F))).Forall fun op => op.bufs ⊆ tcRefs τ sig :=
  ⟨unary_bufs_sub .., reshape_bufs_sub .., unary_bufs_sub .., reshape_bufs_sub .., unary_bufs_sub ..⟩
theorem c2_fresh : (c2 : List (HloOp τ sig (Elt F))).Forall fun op => op.fresh = ∅ :=
  ⟨rfl, rfl, rfl, rfl, rfl⟩

theorem c3_sub : (c3 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem c3_fresh : (c3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem c4_sub : (c4 : List (HloOp τ sig (Elt F))).Forall fun op => op.bufs ⊆ tcRefs τ sig :=
  ⟨unary_bufs_sub .., reshape_bufs_sub ..⟩
theorem c4_fresh : (c4 : List (HloOp τ sig (Elt F))).Forall fun op => op.fresh = ∅ :=
  ⟨rfl, rfl⟩

theorem c5_sub : (c5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub ..⟩
theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem c6_sub : (c6 : List (HloOp τ sig (Elt F))).Forall fun op => op.bufs ⊆ tcRefs τ sig :=
  binary_bufs_sub ..
theorem c6_fresh : (c6 : List (HloOp τ sig (Elt F))).Forall fun op => op.fresh = ∅ :=
  rfl

theorem c7_sub : (c7 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩
theorem c7_fresh : (c7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem c8_sub : (c8 : List (HloOp τ sig (Elt F))).Forall fun op => op.bufs ⊆ tcRefs τ sig :=
  ⟨binary_bufs_sub .., nullary_bufs_sub .., unary_bufs_sub .., binary_bufs_sub ..⟩
theorem c8_fresh : (c8 : List (HloOp τ sig (Elt F))).Forall fun op => op.fresh = ∅ :=
  ⟨rfl, rfl, rfl, rfl⟩

theorem c9_sub : (c9 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
theorem c9_fresh : (c9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem c10_sub : (c10 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem c10_fresh : (c10 : List (HloOp τ sig (Elt F))).Forall fun op => op.fresh = ∅ :=
  ⟨rfl, rfl, rfl, rfl, rfl, rfl, rfl⟩

/-! ## The program is the line of its chunks -/

set_option maxRecDepth 8192 in
/-- Window 0 of the printed program is the line of its chunks: the called functions' bodies unfold at their calls to the
    operations listed, and sequencing re-associates by computation. -/
theorem part0_eq (d : Dev nD) : main_part0 (F := F) d = seq (c0 ++ c1 ++ c2) := rfl

set_option maxRecDepth 8192 in
/-- Window 1 of the printed program is the line of its chunks: the called functions' bodies unfold at their calls to the
    operations listed, and sequencing re-associates by computation. -/
theorem part1_eq (d : Dev nD) : main_part1 (F := F) d = seq (c3 ++ c4) := rfl

set_option maxRecDepth 8192 in
/-- Window 2 of the printed program is the line of its chunks: the called functions' bodies unfold at their calls to the
    operations listed, and sequencing re-associates by computation. -/
theorem part2_eq (d : Dev nD) : main_part2 (F := F) d = seq (c5) := rfl

set_option maxRecDepth 8192 in
/-- Window 3 of the printed program is the line of its chunks: the called functions' bodies unfold at their calls to the
    operations listed, and sequencing re-associates by computation. -/
theorem part3_eq (d : Dev nD) : main_part3 (F := F) d = seq (c6 ++ c7) := rfl

set_option maxRecDepth 8192 in
/-- Window 4 of the printed program is the line of its chunks: the called functions' bodies unfold at their calls to the
    operations listed, and sequencing re-associates by computation. -/
theorem part4_eq (d : Dev nD) : main_part4 (F := F) d = seq (c8 ++ c9) := rfl

set_option maxRecDepth 8192 in
/-- Window 5 of the printed program is the line of its chunks: the called functions' bodies unfold at their calls to the
    operations listed, and sequencing re-associates by computation. -/
theorem part5_eq (d : Dev nD) : main_part5 (F := F) d = seq (c10) := rfl

/-- The two rows of the edge table. -/
abbrev pre : List (HloOp τ sig (Elt F)) := c0
/-- The first layer. -/
abbrev l0 : List (HloOp τ sig (Elt F)) := c1
/-- The second layer. -/
abbrev l1 : List (HloOp τ sig (Elt F)) := c2 ++ c3
/-- The third layer. -/
abbrev l2 : List (HloOp τ sig (Elt F)) := c4 ++ c5 ++ c6
/-- The fourth layer. -/
abbrev l3 : List (HloOp τ sig (Elt F)) := c7 ++ c8
/-- The fifth layer. -/
abbrev l4 : List (HloOp τ sig (Elt F)) := c9 ++ c10

/-- @main's operations, layer after layer. -/
abbrev ops : List (HloOp τ sig (Elt F)) := pre ++ l0 ++ l1 ++ l2 ++ l3 ++ l4

/-- @main is the line of its operations: window by window it is the line of its chunks, and a line of lines is the
    line of their concatenation. -/
theorem main_eq (c : Dev nD) : main (F := F) c = seq ops := by
  simp only [main, part0_eq, part1_eq, part2_eq, part3_eq, part4_eq, part5_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  (List.forall_append.mpr ⟨(List.forall_append.mpr ⟨(List.forall_append.mpr ⟨(List.forall_append.mpr ⟨(List.forall_append.mpr ⟨c0_sub, c1_sub⟩), (List.forall_append.mpr ⟨c2_sub, c3_sub⟩)⟩), (List.forall_append.mpr ⟨(List.forall_append.mpr ⟨c4_sub, c5_sub⟩), c6_sub⟩)⟩), (List.forall_append.mpr ⟨c7_sub, c8_sub⟩)⟩), (List.forall_append.mpr ⟨c9_sub, c10_sub⟩)⟩)

/-- Every operation determines its results. -/
theorem ops_fresh : ∀ op ∈ (ops : List (HloOp τ sig (Elt F))), op.fresh = ∅ :=
  List.forall_iff_forall_mem.mp (List.forall_append.mpr ⟨(List.forall_append.mpr ⟨(List.forall_append.mpr ⟨(List.forall_append.mpr ⟨(List.forall_append.mpr ⟨c0_fresh, c1_fresh⟩), (List.forall_append.mpr ⟨c2_fresh, c3_fresh⟩)⟩), (List.forall_append.mpr ⟨(List.forall_append.mpr ⟨c4_fresh, c5_fresh⟩), c6_fresh⟩)⟩), (List.forall_append.mpr ⟨c7_fresh, c8_fresh⟩)⟩), (List.forall_append.mpr ⟨c9_fresh, c10_fresh⟩)⟩)

/-- On every device, for any float values, from any memory with zero counters: every weakly fair execution of @main
    terminates, and every final state has each TensorCore buffer at the fold of the operations' results over its
    contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over a concatenation is the fold over the second list of the fold over the first. -/
theorem after_append (a b : List (HloOp τ sig (Elt F))) (V : Valuation τ sig (Elt F)) : after (a ++ b) V = after b (after a V) := by
  induction a generalizing V with
  | nil => rfl
  | cons op a ih => exact ih (op.result V)

end Cert.RefSide

end
-- ==== Proof.RefDims.lean ====
/-
  The shape facts and dimension records of one program's host operations, bundled for the network function.
-/
import proofs.«110124_j41455024341694_1_alg».proof.Proof.Gen.ReferenceIdeal
import proofs.«110124_j41455024341694_1_alg».proof.Proof.Spec

noncomputable section

namespace Cert.RefSide

open Idealize.ShloMosaic Cert.ReferenceIdeal Cert.ReferenceIdeal.Facts₀

/-- This program's records and shape facts. -/
def D : Cert.Net.Dims where
  slE0 := slices_S2x1600000_S1x1600000_0_0
  slE1 := slices_S2x1600000_S1x1600000_1_0
  scE := shapeCasts_S1x1600000_S1600000
  b0E := bcast_S_S1600000
  bEc := bcast_S1600000_S1600000x1_0
  b0N9 := bcast_S_S100000x9
  b0N := bcast_S_S100000x128
  bH1 := bcast_S128_S1x128_1
  b1N := bcast_S1x128_S100000x128_0_1
  b0H := bcast_S_S128
  b01H := bcast_S_S1x128
  red := reducesTo_S100000x128_S128_d0
  h0 := h_S_
  scW := shapeCasts_S1x128x128_S128x128
  scB := shapeCasts_S1x128_S128
  g9 := gather_S100000x9_S1600000x1_S1600000x9_1_0_n_n_0_1_19
  s9 := scatter_S100000x9_S1600000x1_S1600000x9_1_0_0_1
  g := gather_S100000x128_S1600000x1_S1600000x128_1_0_n_n_0_1_1128
  s := scatter_S100000x128_S1600000x1_S1600000x128_1_0_0_1
  d9 := dot_S100000x9_S9x128_S100000x128_1_0_0_1_n_n
  d := dot_S100000x128_S128x128_S100000x128_1_0_0_1_n_n

/-- This program's slicing facts for the stacked parameters. -/
def C : Cert.Net.Cuts where
  m0 := slices_S4x128x128_S1x128x128_0_0_0
  m1 := slices_S4x128x128_S1x128x128_1_0_0
  m2 := slices_S4x128x128_S1x128x128_2_0_0
  m3 := slices_S4x128x128_S1x128x128_3_0_0
  r0 := slices_S4x128_S1x128_0_0
  r1 := slices_S4x128_S1x128_1_0
  r2 := slices_S4x128_S1x128_2_0
  r3 := slices_S4x128_S1x128_3_0

end Cert.RefSide

end
-- ==== Proof.SpecAux.lean ====
/-
  The congruence lemmas of the network function's pieces that take a proof or a dependent argument, stated once here so
  that every module rewriting under those pieces finds them already declared.
-/
import proofs.«110124_j41455024341694_1_alg».proof.Proof.Spec

namespace Cert.Net

/-- Rewriting under `edgeRow`, `mat`, `row` and `layerAt` uses their congruence lemmas: declared here, once. -/
theorem congr_simp_realized : True := by
  have := @Cert.Net.edgeRow.congr_simp; have := @Cert.Net.mat.congr_simp; have := @Cert.Net.row.congr_simp
  have := @Cert.Net.layerAt.congr_simp
  trivial

end Cert.Net
-- ==== Proof.RefAux.lean ====
/-
  The congruence lemmas of the reference program's dimension records and of a typed reference's constructor, stated
  once here so that each of the modules reading a layer's buffers finds them already declared.
-/
import proofs.«110124_j41455024341694_1_alg».proof.Proof.Gen.ReferenceIdeal
import proofs.«110124_j41455024341694_1_alg».proof.Proof.SpecAux
import Idealize.ShloMosaic.Lib.StableHlo.Run

namespace Cert.RefSide

open Idealize.ShloMosaic

/-- Rewriting under the gather, scatter and product records and under `TRef.of` uses their congruence lemmas:
    declared here, once. -/
theorem congr_simp_realized : True := by
  have := @Cert.ReferenceIdeal.gather_S100000x9_S1600000x1_S1600000x9_1_0_n_n_0_1_19.congr_simp
  have := @Cert.ReferenceIdeal.scatter_S100000x9_S1600000x1_S1600000x9_1_0_0_1.congr_simp
  have := @Cert.ReferenceIdeal.gather_S100000x128_S1600000x1_S1600000x128_1_0_n_n_0_1_1128.congr_simp
  have := @Cert.ReferenceIdeal.scatter_S100000x128_S1600000x1_S1600000x128_1_0_0_1.congr_simp
  have := @Cert.ReferenceIdeal.dot_S100000x9_S9x128_S100000x128_1_0_0_1_n_n.congr_simp
  have := @Cert.ReferenceIdeal.dot_S100000x128_S128x128_S100000x128_1_0_0_1_n_n.congr_simp
  have := @StableHlo.TRef.of.congr_simp
  trivial

end Cert.RefSide
-- ==== Proof.RefLayer0.lean ====
/-
  What the first stretch of the reference program leaves in its buffers, over arbitrary contents V at its start:
  the two reshaped rows of the edge table, then the first layer's output as the network's first layer applied to the
  contents of the argument buffers. Each result buffer holds its operation's function of the operand buffers'
  contents, so the output buffer holds the composed term, which is the network's definition unfolded; the buffers
  these operations do not write keep their contents.
-/
import proofs.«110124_j41455024341694_1_alg».proof.Proof.RefOps
import proofs.«110124_j41455024341694_1_alg».proof.Proof.RefDims
import proofs.«110124_j41455024341694_1_alg».proof.Proof.RefAux

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd Host.divf Host.rsqrt in
set_option maxRecDepth 8192 in
/-- The source row: the slice of row 0 of the edge table, reshaped to a vector. -/
theorem pre_src (V : Valuation τ sig (Elt F)) :
    after pre V (Proc.devRef .tc main_v1) = Cert.Net.edgeRow D (V (Proc.devRef .tc main_arg1)) ![0, 0] D.slE0 := by
  after_results_simp
  rfl

attribute [local irreducible] Host.gather Host.scatterAdd Host.reduceAdd Host.divf Host.rsqrt in
set_option maxRecDepth 8192 in
/-- The destination row: the slice of row 1 of the edge table, reshaped to a vector. -/
theorem pre_dst (V : Valuation τ sig (Elt F)) :
    after pre V (Proc.devRef .tc main_v3) = Cert.Net.edgeRow D (V (Proc.devRef .tc main_arg1)) ![1, 0] D.slE1 := by
  after_results_simp
  rfl

theorem pre_kept_arg0 (V : Valuation τ sig (Elt F)) : after pre V (Proc.devRef .tc main_arg0) = V (Proc.devRef .tc main_arg0) := by
  after_results_simp

theorem pre_kept_arg1 (V : Valuation τ sig (Elt F)) : after pre V (Proc.devRef .tc main_arg1) = V (Proc.devRef .tc main_arg1) := by
  after_results_simp

theorem pre_kept_arg2 (V : Valuation τ sig (Elt F)) : after pre V (Proc.devRef .tc main_arg2) = V (Proc.devRef .tc main_arg2) := by
  after_results_simp

theorem pre_kept_arg3 (V : Valuation τ sig (Elt F)) : after pre V (Proc.devRef .tc main_arg3) = V (Proc.devRef .tc main_arg3) := by
  after_results_simp

theorem pre_kept_arg4 (V : Valuation τ sig (Elt F)) : after pre V (Proc.devRef .tc main_arg4) = V (Proc.devRef .tc main_arg4) := by
  after_results_simp

theorem pre_kept_arg5 (V : Valuation τ sig (Elt F)) : after pre V (Proc.devRef .tc main_arg5) = V (Proc.devRef .tc main_arg5) := by
  after_results_simp

theorem pre_kept_arg6 (V : Valuation τ sig (Elt F)) : after pre V (Proc.devRef .tc main_arg6) = V (Proc.devRef .tc main_arg6) := by
  after_results_simp

theorem pre_kept_arg7 (V : Valuation τ sig (Elt F)) : after pre V (Proc.devRef .tc main_arg7) = V (Proc.devRef .tc main_arg7) := by
  after_results_simp

theorem pre_kept_arg8 (V : Valuation τ sig (Elt F)) : after pre V (Proc.devRef .tc main_arg8) = V (Proc.devRef .tc main_arg8) := by
  after_results_simp

theorem pre_kept_arg9 (V : Valuation τ sig (Elt F)) : after pre V (Proc.devRef .tc main_arg9) = V (Proc.devRef .tc main_arg9) := by
  after_results_simp

theorem pre_kept_arg10 (V : Valuation τ sig (Elt F)) : after pre V (Proc.devRef .tc main_arg10) = V (Proc.devRef .tc main_arg10) := by
  after_results_simp

theorem pre_kept_arg11 (V : Valuation τ sig (Elt F)) : after pre V (Proc.devRef .tc main_arg11) = V (Proc.devRef .tc main_arg11) := by
  after_results_simp

theorem pre_kept_arg12 (V : Valuation τ sig (Elt F)) : after pre V (Proc.devRef .tc main_arg12) = V (Proc.devRef .tc main_arg12) := by
  after_results_simp

theorem pre_kept_arg13 (V : Valuation τ sig (Elt F)) : after pre V (Proc.devRef .tc main_arg13) = V (Proc.devRef .tc main_arg13) := by
  after_results_simp

theorem pre_kept_arg14 (V : Valuation τ sig (Elt F)) : after pre V (Proc.devRef .tc main_arg14) = V (Proc.devRef .tc main_arg14) := by
  after_results_simp

attribute [local irreducible] Host.gather Host.scatterAdd Host.reduceAdd Host.divf Host.rsqrt in
set_option maxRecDepth 8192 in
/-- The first layer's output is the network's first layer of the node features, the two edge rows and the layer's own
    parameters. -/
theorem l0_value (V : Valuation τ sig (Elt F)) :
    after l0 V (Proc.devRef .tc main_v45)
      = Cert.Net.layer9 D (V (Proc.devRef .tc main_arg0)) (V (Proc.devRef .tc main_v1)) (V (Proc.devRef .tc main_v3)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  after_results_simp
  rfl

theorem l0_kept_arg0 (V : Valuation τ sig (Elt F)) : after l0 V (Proc.devRef .tc main_arg0) = V (Proc.devRef .tc main_arg0) := by
  after_results_simp

theorem l0_kept_arg1 (V : Valuation τ sig (Elt F)) : after l0 V (Proc.devRef .tc main_arg1) = V (Proc.devRef .tc main_arg1) := by
  after_results_simp

theorem l0_kept_arg2 (V : Valuation τ sig (Elt F)) : after l0 V (Proc.devRef .tc main_arg2) = V (Proc.devRef .tc main_arg2) := by
  after_results_simp

theorem l0_kept_arg3 (V : Valuation τ sig (Elt F)) : after l0 V (Proc.devRef .tc main_arg3) = V (Proc.devRef .tc main_arg3) := by
  after_results_simp

theorem l0_kept_arg4 (V : Valuation τ sig (Elt F)) : after l0 V (Proc.devRef .tc main_arg4) = V (Proc.devRef .tc main_arg4) := by
  after_results_simp

theorem l0_kept_arg5 (V : Valuation τ sig (Elt F)) : after l0 V (Proc.devRef .tc main_arg5) = V (Proc.devRef .tc main_arg5) := by
  after_results_simp

theorem l0_kept_arg6 (V : Valuation τ sig (Elt F)) : after l0 V (Proc.devRef .tc main_arg6) = V (Proc.devRef .tc main_arg6) := by
  after_results_simp

theorem l0_kept_arg7 (V : Valuation τ sig (Elt F)) : after l0 V (Proc.devRef .tc main_arg7) = V (Proc.devRef .tc main_arg7) := by
  after_results_simp

theorem l0_kept_arg8 (V : Valuation τ sig (Elt F)) : after l0 V (Proc.devRef .tc main_arg8) = V (Proc.devRef .tc main_arg8) := by
  after_results_simp

theorem l0_kept_arg9 (V : Valuation τ sig (Elt F)) : after l0 V (Proc.devRef .tc main_arg9) = V (Proc.devRef .tc main_arg9) := by
  after_results_simp

theorem l0_kept_arg10 (V : Valuation τ sig (Elt F)) : after l0 V (Proc.devRef .tc main_arg10) = V (Proc.devRef .tc main_arg10) := by
  after_results_simp

theorem l0_kept_arg11 (V : Valuation τ sig (Elt F)) : after l0 V (Proc.devRef .tc main_arg11) = V (Proc.devRef .tc main_arg11) := by
  after_results_simp

theorem l0_kept_arg12 (V : Valuation τ sig (Elt F)) : after l0 V (Proc.devRef .tc main_arg12) = V (Proc.devRef .tc main_arg12) := by
  after_results_simp

theorem l0_kept_arg13 (V : Valuation τ sig (Elt F)) : after l0 V (Proc.devRef .tc main_arg13) = V (Proc.devRef .tc main_arg13) := by
  after_results_simp

theorem l0_kept_arg14 (V : Valuation τ sig (Elt F)) : after l0 V (Proc.devRef .tc main_arg14) = V (Proc.devRef .tc main_arg14) := by
  after_results_simp

theorem l0_kept_v1 (V : Valuation τ sig (Elt F)) : after l0 V (Proc.devRef .tc main_v1) = V (Proc.devRef .tc main_v1) := by
  after_results_simp

theorem l0_kept_v3 (V : Valuation τ sig (Elt F)) : after l0 V (Proc.devRef .tc main_v3) = V (Proc.devRef .tc main_v3) := by
  after_results_simp

end Cert.RefSide

end
-- ==== Proof.RefLayer1.lean ====
/-
  What the second layer's stretch of the reference program leaves in its buffers, over arbitrary contents V at its
  start: the output buffer holds the network's later layer applied to the previous layer's output, the two edge rows
  and slice 0 of the stacked parameters; the buffers the stretch does not write keep their contents.
-/
import proofs.«110124_j41455024341694_1_alg».proof.Proof.RefOps
import proofs.«110124_j41455024341694_1_alg».proof.Proof.RefDims
import proofs.«110124_j41455024341694_1_alg».proof.Proof.RefAux

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over the layer's operations, chunk after chunk. -/
theorem l1_after (V : Valuation τ sig (Elt F)) : after l1 V = after c3 (after c2 V) := by
  show after (c2 ++ c3) V = _
  rw [after_append]

attribute [local irreducible] Host.gather Host.scatterAdd Host.reduceAdd Host.divf Host.rsqrt in
set_option maxRecDepth 8192 in
/-- The second layer's output is the network's later layer on slice 0 of the stacked parameters. -/
theorem l1_value (V : Valuation τ sig (Elt F)) :
    after l1 V (Proc.devRef .tc main_v99)
      = Cert.Net.layerAt D (V (Proc.devRef .tc main_v45)) (V (Proc.devRef .tc main_v1)) (V (Proc.devRef .tc main_v3)) (V (Proc.devRef .tc main_arg9)) (V (Proc.devRef .tc main_arg10))
          (V (Proc.devRef .tc main_arg11)) (V (Proc.devRef .tc main_arg12)) (V (Proc.devRef .tc main_arg13)) (V (Proc.devRef .tc main_arg14)) ![0, 0, 0] C.m0 ![0, 0] C.r0 := by
  rw [l1_after]
  after_results_simp
  rfl

theorem l1_kept_arg0 (V : Valuation τ sig (Elt F)) : after l1 V (Proc.devRef .tc main_arg0) = V (Proc.devRef .tc main_arg0) := by
  rw [l1_after]
  after_results_simp

theorem l1_kept_arg1 (V : Valuation τ sig (Elt F)) : after l1 V (Proc.devRef .tc main_arg1) = V (Proc.devRef .tc main_arg1) := by
  rw [l1_after]
  after_results_simp

theorem l1_kept_arg2 (V : Valuation τ sig (Elt F)) : after l1 V (Proc.devRef .tc main_arg2) = V (Proc.devRef .tc main_arg2) := by
  rw [l1_after]
  after_results_simp

theorem l1_kept_arg3 (V : Valuation τ sig (Elt F)) : after l1 V (Proc.devRef .tc main_arg3) = V (Proc.devRef .tc main_arg3) := by
  rw [l1_after]
  after_results_simp

theorem l1_kept_arg4 (V : Valuation τ sig (Elt F)) : after l1 V (Proc.devRef .tc main_arg4) = V (Proc.devRef .tc main_arg4) := by
  rw [l1_after]
  after_results_simp

theorem l1_kept_arg5 (V : Valuation τ sig (Elt F)) : after l1 V (Proc.devRef .tc main_arg5) = V (Proc.devRef .tc main_arg5) := by
  rw [l1_after]
  after_results_simp

theorem l1_kept_arg6 (V : Valuation τ sig (Elt F)) : after l1 V (Proc.devRef .tc main_arg6) = V (Proc.devRef .tc main_arg6) := by
  rw [l1_after]
  after_results_simp

theorem l1_kept_arg7 (V : Valuation τ sig (Elt F)) : after l1 V (Proc.devRef .tc main_arg7) = V (Proc.devRef .tc main_arg7) := by
  rw [l1_after]
  after_results_simp

theorem l1_kept_arg8 (V : Valuation τ sig (Elt F)) : after l1 V (Proc.devRef .tc main_arg8) = V (Proc.devRef .tc main_arg8) := by
  rw [l1_after]
  after_results_simp

theorem l1_kept_arg9 (V : Valuation τ sig (Elt F)) : after l1 V (Proc.devRef .tc main_arg9) = V (Proc.devRef .tc main_arg9) := by
  rw [l1_after]
  after_results_simp

theorem l1_kept_arg10 (V : Valuation τ sig (Elt F)) : after l1 V (Proc.devRef .tc main_arg10) = V (Proc.devRef .tc main_arg10) := by
  rw [l1_after]
  after_results_simp

theorem l1_kept_arg11 (V : Valuation τ sig (Elt F)) : after l1 V (Proc.devRef .tc main_arg11) = V (Proc.devRef .tc main_arg11) := by
  rw [l1_after]
  after_results_simp

theorem l1_kept_arg12 (V : Valuation τ sig (Elt F)) : after l1 V (Proc.devRef .tc main_arg12) = V (Proc.devRef .tc main_arg12) := by
  rw [l1_after]
  after_results_simp

theorem l1_kept_arg13 (V : Valuation τ sig (Elt F)) : after l1 V (Proc.devRef .tc main_arg13) = V (Proc.devRef .tc main_arg13) := by
  rw [l1_after]
  after_results_simp

theorem l1_kept_arg14 (V : Valuation τ sig (Elt F)) : after l1 V (Proc.devRef .tc main_arg14) = V (Proc.devRef .tc main_arg14) := by
  rw [l1_after]
  after_results_simp

theorem l1_kept_v1 (V : Valuation τ sig (Elt F)) : after l1 V (Proc.devRef .tc main_v1) = V (Proc.devRef .tc main_v1) := by
  rw [l1_after]
  after_results_simp

theorem l1_kept_v3 (V : Valuation τ sig (Elt F)) : after l1 V (Proc.devRef .tc main_v3) = V (Proc.devRef .tc main_v3) := by
  rw [l1_after]
  after_results_simp

end Cert.RefSide

end
-- ==== Proof.RefLayer2.lean ====
/-
  What the third layer's stretch of the reference program leaves in its buffers, over arbitrary contents V at its
  start: the output buffer holds the network's later layer applied to the previous layer's output, the two edge rows
  and slice 1 of the stacked parameters; the buffers the stretch does not write keep their contents.
-/
import proofs.«110124_j41455024341694_1_alg».proof.Proof.RefOps
import proofs.«110124_j41455024341694_1_alg».proof.Proof.RefDims
import proofs.«110124_j41455024341694_1_alg».proof.Proof.RefAux

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over the layer's operations, chunk after chunk. -/
theorem l2_after (V : Valuation τ sig (Elt F)) : after l2 V = after c6 (after c5 (after c4 V)) := by
  show after (c4 ++ c5 ++ c6) V = _
  rw [after_append, after_append]

attribute [local irreducible] Host.gather Host.scatterAdd Host.reduceAdd Host.divf Host.rsqrt in
set_option maxRecDepth 8192 in
/-- The third layer's output is the network's later layer on slice 1 of the stacked parameters. -/
theorem l2_value (V : Valuation τ sig (Elt F)) :
    after l2 V (Proc.devRef .tc main_v153)
      = Cert.Net.layerAt D (V (Proc.devRef .tc main_v99)) (V (Proc.devRef .tc main_v1)) (V (Proc.devRef .tc main_v3)) (V (Proc.devRef .tc main_arg9)) (V (Proc.devRef .tc main_arg10))
          (V (Proc.devRef .tc main_arg11)) (V (Proc.devRef .tc main_arg12)) (V (Proc.devRef .tc main_arg13)) (V (Proc.devRef .tc main_arg14)) ![1, 0, 0] C.m1 ![1, 0] C.r1 := by
  rw [l2_after]
  after_results_simp
  rfl

theorem l2_kept_arg0 (V : Valuation τ sig (Elt F)) : after l2 V (Proc.devRef .tc main_arg0) = V (Proc.devRef .tc main_arg0) := by
  rw [l2_after]
  after_results_simp

theorem l2_kept_arg1 (V : Valuation τ sig (Elt F)) : after l2 V (Proc.devRef .tc main_arg1) = V (Proc.devRef .tc main_arg1) := by
  rw [l2_after]
  after_results_simp

theorem l2_kept_arg2 (V : Valuation τ sig (Elt F)) : after l2 V (Proc.devRef .tc main_arg2) = V (Proc.devRef .tc main_arg2) := by
  rw [l2_after]
  after_results_simp

theorem l2_kept_arg3 (V : Valuation τ sig (Elt F)) : after l2 V (Proc.devRef .tc main_arg3) = V (Proc.devRef .tc main_arg3) := by
  rw [l2_after]
  after_results_simp

theorem l2_kept_arg4 (V : Valuation τ sig (Elt F)) : after l2 V (Proc.devRef .tc main_arg4) = V (Proc.devRef .tc main_arg4) := by
  rw [l2_after]
  after_results_simp

theorem l2_kept_arg5 (V : Valuation τ sig (Elt F)) : after l2 V (Proc.devRef .tc main_arg5) = V (Proc.devRef .tc main_arg5) := by
  rw [l2_after]
  after_results_simp

theorem l2_kept_arg6 (V : Valuation τ sig (Elt F)) : after l2 V (Proc.devRef .tc main_arg6) = V (Proc.devRef .tc main_arg6) := by
  rw [l2_after]
  after_results_simp

theorem l2_kept_arg7 (V : Valuation τ sig (Elt F)) : after l2 V (Proc.devRef .tc main_arg7) = V (Proc.devRef .tc main_arg7) := by
  rw [l2_after]
  after_results_simp

theorem l2_kept_arg8 (V : Valuation τ sig (Elt F)) : after l2 V (Proc.devRef .tc main_arg8) = V (Proc.devRef .tc main_arg8) := by
  rw [l2_after]
  after_results_simp

theorem l2_kept_arg9 (V : Valuation τ sig (Elt F)) : after l2 V (Proc.devRef .tc main_arg9) = V (Proc.devRef .tc main_arg9) := by
  rw [l2_after]
  after_results_simp

theorem l2_kept_arg10 (V : Valuation τ sig (Elt F)) : after l2 V (Proc.devRef .tc main_arg10) = V (Proc.devRef .tc main_arg10) := by
  rw [l2_after]
  after_results_simp

theorem l2_kept_arg11 (V : Valuation τ sig (Elt F)) : after l2 V (Proc.devRef .tc main_arg11) = V (Proc.devRef .tc main_arg11) := by
  rw [l2_after]
  after_results_simp

theorem l2_kept_arg12 (V : Valuation τ sig (Elt F)) : after l2 V (Proc.devRef .tc main_arg12) = V (Proc.devRef .tc main_arg12) := by
  rw [l2_after]
  after_results_simp

theorem l2_kept_arg13 (V : Valuation τ sig (Elt F)) : after l2 V (Proc.devRef .tc main_arg13) = V (Proc.devRef .tc main_arg13) := by
  rw [l2_after]
  after_results_simp

theorem l2_kept_arg14 (V : Valuation τ sig (Elt F)) : after l2 V (Proc.devRef .tc main_arg14) = V (Proc.devRef .tc main_arg14) := by
  rw [l2_after]
  after_results_simp

theorem l2_kept_v1 (V : Valuation τ sig (Elt F)) : after l2 V (Proc.devRef .tc main_v1) = V (Proc.devRef .tc main_v1) := by
  rw [l2_after]
  after_results_simp

theorem l2_kept_v3 (V : Valuation τ sig (Elt F)) : after l2 V (Proc.devRef .tc main_v3) = V (Proc.devRef .tc main_v3) := by
  rw [l2_after]
  after_results_simp

end Cert.RefSide

end
-- ==== Proof.RefLayer3.lean ====
/-
  What the fourth layer's stretch of the reference program leaves in its buffers, over arbitrary contents V at its
  start: the output buffer holds the network's later layer applied to the previous layer's output, the two edge rows
  and slice 2 of the stacked parameters; the buffers the stretch does not write keep their contents.
-/
import proofs.«110124_j41455024341694_1_alg».proof.Proof.RefOps
import proofs.«110124_j41455024341694_1_alg».proof.Proof.RefDims
import proofs.«110124_j41455024341694_1_alg».proof.Proof.RefAux

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over the layer's operations, chunk after chunk. -/
theorem l3_after (V : Valuation τ sig (Elt F)) : after l3 V = after c8 (after c7 V) := by
  show after (c7 ++ c8) V = _
  rw [after_append]

attribute [local irreducible] Host.gather Host.scatterAdd Host.reduceAdd Host.divf Host.rsqrt in
set_option maxRecDepth 8192 in
/-- The fourth layer's output is the network's later layer on slice 2 of the stacked parameters. -/
theorem l3_value (V : Valuation τ sig (Elt F)) :
    after l3 V (Proc.devRef .tc main_v207)
      = Cert.Net.layerAt D (V (Proc.devRef .tc main_v153)) (V (Proc.devRef .tc main_v1)) (V (Proc.devRef .tc main_v3)) (V (Proc.devRef .tc main_arg9)) (V (Proc.devRef .tc main_arg10))
          (V (Proc.devRef .tc main_arg11)) (V (Proc.devRef .tc main_arg12)) (V (Proc.devRef .tc main_arg13)) (V (Proc.devRef .tc main_arg14)) ![2, 0, 0] C.m2 ![2, 0] C.r2 := by
  rw [l3_after]
  after_results_simp
  rfl

theorem l3_kept_arg0 (V : Valuation τ sig (Elt F)) : after l3 V (Proc.devRef .tc main_arg0) = V (Proc.devRef .tc main_arg0) := by
  rw [l3_after]
  after_results_simp

theorem l3_kept_arg1 (V : Valuation τ sig (Elt F)) : after l3 V (Proc.devRef .tc main_arg1) = V (Proc.devRef .tc main_arg1) := by
  rw [l3_after]
  after_results_simp

theorem l3_kept_arg2 (V : Valuation τ sig (Elt F)) : after l3 V (Proc.devRef .tc main_arg2) = V (Proc.devRef .tc main_arg2) := by
  rw [l3_after]
  after_results_simp

theorem l3_kept_arg3 (V : Valuation τ sig (Elt F)) : after l3 V (Proc.devRef .tc main_arg3) = V (Proc.devRef .tc main_arg3) := by
  rw [l3_after]
  after_results_simp

theorem l3_kept_arg4 (V : Valuation τ sig (Elt F)) : after l3 V (Proc.devRef .tc main_arg4) = V (Proc.devRef .tc main_arg4) := by
  rw [l3_after]
  after_results_simp

theorem l3_kept_arg5 (V : Valuation τ sig (Elt F)) : after l3 V (Proc.devRef .tc main_arg5) = V (Proc.devRef .tc main_arg5) := by
  rw [l3_after]
  after_results_simp

theorem l3_kept_arg6 (V : Valuation τ sig (Elt F)) : after l3 V (Proc.devRef .tc main_arg6) = V (Proc.devRef .tc main_arg6) := by
  rw [l3_after]
  after_results_simp

theorem l3_kept_arg7 (V : Valuation τ sig (Elt F)) : after l3 V (Proc.devRef .tc main_arg7) = V (Proc.devRef .tc main_arg7) := by
  rw [l3_after]
  after_results_simp

theorem l3_kept_arg8 (V : Valuation τ sig (Elt F)) : after l3 V (Proc.devRef .tc main_arg8) = V (Proc.devRef .tc main_arg8) := by
  rw [l3_after]
  after_results_simp

theorem l3_kept_arg9 (V : Valuation τ sig (Elt F)) : after l3 V (Proc.devRef .tc main_arg9) = V (Proc.devRef .tc main_arg9) := by
  rw [l3_after]
  after_results_simp

theorem l3_kept_arg10 (V : Valuation τ sig (Elt F)) : after l3 V (Proc.devRef .tc main_arg10) = V (Proc.devRef .tc main_arg10) := by
  rw [l3_after]
  after_results_simp

theorem l3_kept_arg11 (V : Valuation τ sig (Elt F)) : after l3 V (Proc.devRef .tc main_arg11) = V (Proc.devRef .tc main_arg11) := by
  rw [l3_after]
  after_results_simp

theorem l3_kept_arg12 (V : Valuation τ sig (Elt F)) : after l3 V (Proc.devRef .tc main_arg12) = V (Proc.devRef .tc main_arg12) := by
  rw [l3_after]
  after_results_simp

theorem l3_kept_arg13 (V : Valuation τ sig (Elt F)) : after l3 V (Proc.devRef .tc main_arg13) = V (Proc.devRef .tc main_arg13) := by
  rw [l3_after]
  after_results_simp

theorem l3_kept_arg14 (V : Valuation τ sig (Elt F)) : after l3 V (Proc.devRef .tc main_arg14) = V (Proc.devRef .tc main_arg14) := by
  rw [l3_after]
  after_results_simp

theorem l3_kept_v1 (V : Valuation τ sig (Elt F)) : after l3 V (Proc.devRef .tc main_v1) = V (Proc.devRef .tc main_v1) := by
  rw [l3_after]
  after_results_simp

theorem l3_kept_v3 (V : Valuation τ sig (Elt F)) : after l3 V (Proc.devRef .tc main_v3) = V (Proc.devRef .tc main_v3) := by
  rw [l3_after]
  after_results_simp

end Cert.RefSide

end
-- ==== Proof.RefLayer4.lean ====
/-
  What the fifth layer's stretch of the reference program leaves in its buffers, over arbitrary contents V at its
  start: the output buffer holds the network's later layer applied to the previous layer's output, the two edge rows
  and slice 3 of the stacked parameters; the buffers the stretch does not write keep their contents.
-/
import proofs.«110124_j41455024341694_1_alg».proof.Proof.RefOps
import proofs.«110124_j41455024341694_1_alg».proof.Proof.RefDims
import proofs.«110124_j41455024341694_1_alg».proof.Proof.RefAux

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over the layer's operations, chunk after chunk. -/
theorem l4_after (V : Valuation τ sig (Elt F)) : after l4 V = after c10 (after c9 V) := by
  show after (c9 ++ c10) V = _
  rw [after_append]

attribute [local irreducible] Host.gather Host.scatterAdd Host.reduceAdd Host.divf Host.rsqrt in
set_option maxRecDepth 8192 in
/-- The fifth layer's output is the network's later layer on slice 3 of the stacked parameters. -/
theorem l4_value (V : Valuation τ sig (Elt F)) :
    after l4 V (Proc.devRef .tc main_v261)
      = Cert.Net.layerAt D (V (Proc.devRef .tc main_v207)) (V (Proc.devRef .tc main_v1)) (V (Proc.devRef .tc main_v3)) (V (Proc.devRef .tc main_arg9)) (V (Proc.devRef .tc main_arg10))
          (V (Proc.devRef .tc main_arg11)) (V (Proc.devRef .tc main_arg12)) (V (Proc.devRef .tc main_arg13)) (V (Proc.devRef .tc main_arg14)) ![3, 0, 0] C.m3 ![3, 0] C.r3 := by
  rw [l4_after]
  after_results_simp
  rfl

theorem l4_kept_arg0 (V : Valuation τ sig (Elt F)) : after l4 V (Proc.devRef .tc main_arg0) = V (Proc.devRef .tc main_arg0) := by
  rw [l4_after]
  after_results_simp

theorem l4_kept_arg1 (V : Valuation τ sig (Elt F)) : after l4 V (Proc.devRef .tc main_arg1) = V (Proc.devRef .tc main_arg1) := by
  rw [l4_after]
  after_results_simp

theorem l4_kept_arg2 (V : Valuation τ sig (Elt F)) : after l4 V (Proc.devRef .tc main_arg2) = V (Proc.devRef .tc main_arg2) := by
  rw [l4_after]
  after_results_simp

theorem l4_kept_arg3 (V : Valuation τ sig (Elt F)) : after l4 V (Proc.devRef .tc main_arg3) = V (Proc.devRef .tc main_arg3) := by
  rw [l4_after]
  after_results_simp

theorem l4_kept_arg4 (V : Valuation τ sig (Elt F)) : after l4 V (Proc.devRef .tc main_arg4) = V (Proc.devRef .tc main_arg4) := by
  rw [l4_after]
  after_results_simp

theorem l4_kept_arg5 (V : Valuation τ sig (Elt F)) : after l4 V (Proc.devRef .tc main_arg5) = V (Proc.devRef .tc main_arg5) := by
  rw [l4_after]
  after_results_simp

theorem l4_kept_arg6 (V : Valuation τ sig (Elt F)) : after l4 V (Proc.devRef .tc main_arg6) = V (Proc.devRef .tc main_arg6) := by
  rw [l4_after]
  after_results_simp

theorem l4_kept_arg7 (V : Valuation τ sig (Elt F)) : after l4 V (Proc.devRef .tc main_arg7) = V (Proc.devRef .tc main_arg7) := by
  rw [l4_after]
  after_results_simp

theorem l4_kept_arg8 (V : Valuation τ sig (Elt F)) : after l4 V (Proc.devRef .tc main_arg8) = V (Proc.devRef .tc main_arg8) := by
  rw [l4_after]
  after_results_simp

theorem l4_kept_arg9 (V : Valuation τ sig (Elt F)) : after l4 V (Proc.devRef .tc main_arg9) = V (Proc.devRef .tc main_arg9) := by
  rw [l4_after]
  after_results_simp

theorem l4_kept_arg10 (V : Valuation τ sig (Elt F)) : after l4 V (Proc.devRef .tc main_arg10) = V (Proc.devRef .tc main_arg10) := by
  rw [l4_after]
  after_results_simp

theorem l4_kept_arg11 (V : Valuation τ sig (Elt F)) : after l4 V (Proc.devRef .tc main_arg11) = V (Proc.devRef .tc main_arg11) := by
  rw [l4_after]
  after_results_simp

theorem l4_kept_arg12 (V : Valuation τ sig (Elt F)) : after l4 V (Proc.devRef .tc main_arg12) = V (Proc.devRef .tc main_arg12) := by
  rw [l4_after]
  after_results_simp

theorem l4_kept_arg13 (V : Valuation τ sig (Elt F)) : after l4 V (Proc.devRef .tc main_arg13) = V (Proc.devRef .tc main_arg13) := by
  rw [l4_after]
  after_results_simp

theorem l4_kept_arg14 (V : Valuation τ sig (Elt F)) : after l4 V (Proc.devRef .tc main_arg14) = V (Proc.devRef .tc main_arg14) := by
  rw [l4_after]
  after_results_simp

theorem l4_kept_v1 (V : Valuation τ sig (Elt F)) : after l4 V (Proc.devRef .tc main_v1) = V (Proc.devRef .tc main_v1) := by
  rw [l4_after]
  after_results_simp

theorem l4_kept_v3 (V : Valuation τ sig (Elt F)) : after l4 V (Proc.devRef .tc main_v3) = V (Proc.devRef .tc main_v3) := by
  rw [l4_after]
  after_results_simp

end Cert.RefSide

end
-- ==== Proof.RefValue.lean ====
/-
  The reference program's run, read back as the network function.

  The operations are the edge rows' stretch followed by the five layers' stretches, so the fold over all of them is
  the layers' folds composed. Each layer's output buffer holds the network's layer of the contents its stretch
  starts from; the parameters and the two edge rows are written by no later stretch, so each layer reads the
  arguments' contents at launch and the rows the first stretch made; the composition is the network's definition.
  The run of @main leaves every buffer at the fold over its contents at launch: the result buffer holds the network
  of the arguments, and the argument buffers, which no operation writes, hold what they held.
-/
import proofs.«110124_j41455024341694_1_alg».proof.Proof.RefOps
import proofs.«110124_j41455024341694_1_alg».proof.Proof.RefDims
import proofs.«110124_j41455024341694_1_alg».proof.Proof.RefLayer0
import proofs.«110124_j41455024341694_1_alg».proof.Proof.RefLayer1
import proofs.«110124_j41455024341694_1_alg».proof.Proof.RefLayer2
import proofs.«110124_j41455024341694_1_alg».proof.Proof.RefLayer3
import proofs.«110124_j41455024341694_1_alg».proof.Proof.RefLayer4
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The fold over all the operations, stretch after stretch. -/
theorem ops_after (V : Valuation τ sig (Elt F)) :
    after ops V = after l4 (after l3 (after l2 (after l1 (after l0 (after pre V))))) :=
  (after_append (pre ++ l0 ++ l1 ++ l2 ++ l3) l4 V).trans <| congrArg (after l4) <|
  (after_append (pre ++ l0 ++ l1 ++ l2) l3 V).trans <| congrArg (after l3) <|
  (after_append (pre ++ l0 ++ l1) l2 V).trans <| congrArg (after l2) <|
  (after_append (pre ++ l0) l1 V).trans <| congrArg (after l1) <|
  after_append pre l0 V

theorem ops_kept_arg0 (V : Valuation τ sig (Elt F)) : after ops V (Proc.devRef .tc main_arg0) = V (Proc.devRef .tc main_arg0) := by
  rw [ops_after, l4_kept_arg0, l3_kept_arg0, l2_kept_arg0, l1_kept_arg0, l0_kept_arg0, pre_kept_arg0]

theorem ops_kept_arg1 (V : Valuation τ sig (Elt F)) : after ops V (Proc.devRef .tc main_arg1) = V (Proc.devRef .tc main_arg1) := by
  rw [ops_after, l4_kept_arg1, l3_kept_arg1, l2_kept_arg1, l1_kept_arg1, l0_kept_arg1, pre_kept_arg1]

theorem ops_kept_arg2 (V : Valuation τ sig (Elt F)) : after ops V (Proc.devRef .tc main_arg2) = V (Proc.devRef .tc main_arg2) := by
  rw [ops_after, l4_kept_arg2, l3_kept_arg2, l2_kept_arg2, l1_kept_arg2, l0_kept_arg2, pre_kept_arg2]

theorem ops_kept_arg3 (V : Valuation τ sig (Elt F)) : after ops V (Proc.devRef .tc main_arg3) = V (Proc.devRef .tc main_arg3) := by
  rw [ops_after, l4_kept_arg3, l3_kept_arg3, l2_kept_arg3, l1_kept_arg3, l0_kept_arg3, pre_kept_arg3]

theorem ops_kept_arg4 (V : Valuation τ sig (Elt F)) : after ops V (Proc.devRef .tc main_arg4) = V (Proc.devRef .tc main_arg4) := by
  rw [ops_after, l4_kept_arg4, l3_kept_arg4, l2_kept_arg4, l1_kept_arg4, l0_kept_arg4, pre_kept_arg4]

theorem ops_kept_arg5 (V : Valuation τ sig (Elt F)) : after ops V (Proc.devRef .tc main_arg5) = V (Proc.devRef .tc main_arg5) := by
  rw [ops_after, l4_kept_arg5, l3_kept_arg5, l2_kept_arg5, l1_kept_arg5, l0_kept_arg5, pre_kept_arg5]

theorem ops_kept_arg6 (V : Valuation τ sig (Elt F)) : after ops V (Proc.devRef .tc main_arg6) = V (Proc.devRef .tc main_arg6) := by
  rw [ops_after, l4_kept_arg6, l3_kept_arg6, l2_kept_arg6, l1_kept_arg6, l0_kept_arg6, pre_kept_arg6]

theorem ops_kept_arg7 (V : Valuation τ sig (Elt F)) : after ops V (Proc.devRef .tc main_arg7) = V (Proc.devRef .tc main_arg7) := by
  rw [ops_after, l4_kept_arg7, l3_kept_arg7, l2_kept_arg7, l1_kept_arg7, l0_kept_arg7, pre_kept_arg7]

theorem ops_kept_arg8 (V : Valuation τ sig (Elt F)) : after ops V (Proc.devRef .tc main_arg8) = V (Proc.devRef .tc main_arg8) := by
  rw [ops_after, l4_kept_arg8, l3_kept_arg8, l2_kept_arg8, l1_kept_arg8, l0_kept_arg8, pre_kept_arg8]

theorem ops_kept_arg9 (V : Valuation τ sig (Elt F)) : after ops V (Proc.devRef .tc main_arg9) = V (Proc.devRef .tc main_arg9) := by
  rw [ops_after, l4_kept_arg9, l3_kept_arg9, l2_kept_arg9, l1_kept_arg9, l0_kept_arg9, pre_kept_arg9]

theorem ops_kept_arg10 (V : Valuation τ sig (Elt F)) : after ops V (Proc.devRef .tc main_arg10) = V (Proc.devRef .tc main_arg10) := by
  rw [ops_after, l4_kept_arg10, l3_kept_arg10, l2_kept_arg10, l1_kept_arg10, l0_kept_arg10, pre_kept_arg10]

theorem ops_kept_arg11 (V : Valuation τ sig (Elt F)) : after ops V (Proc.devRef .tc main_arg11) = V (Proc.devRef .tc main_arg11) := by
  rw [ops_after, l4_kept_arg11, l3_kept_arg11, l2_kept_arg11, l1_kept_arg11, l0_kept_arg11, pre_kept_arg11]

theorem ops_kept_arg12 (V : Valuation τ sig (Elt F)) : after ops V (Proc.devRef .tc main_arg12) = V (Proc.devRef .tc main_arg12) := by
  rw [ops_after, l4_kept_arg12, l3_kept_arg12, l2_kept_arg12, l1_kept_arg12, l0_kept_arg12, pre_kept_arg12]

theorem ops_kept_arg13 (V : Valuation τ sig (Elt F)) : after ops V (Proc.devRef .tc main_arg13) = V (Proc.devRef .tc main_arg13) := by
  rw [ops_after, l4_kept_arg13, l3_kept_arg13, l2_kept_arg13, l1_kept_arg13, l0_kept_arg13, pre_kept_arg13]

theorem ops_kept_arg14 (V : Valuation τ sig (Elt F)) : after ops V (Proc.devRef .tc main_arg14) = V (Proc.devRef .tc main_arg14) := by
  rw [ops_after, l4_kept_arg14, l3_kept_arg14, l2_kept_arg14, l1_kept_arg14, l0_kept_arg14, pre_kept_arg14]

/-- No operation writes an argument buffer. -/
theorem ops_kept (V : Valuation τ sig (Elt F)) (b : Ref sig .tc)
    (hb : b ∈ [main_arg0, main_arg1, main_arg2, main_arg3, main_arg4, main_arg5, main_arg6, main_arg7, main_arg8, main_arg9, main_arg10, main_arg11, main_arg12, main_arg13, main_arg14]) :
    after ops V (Proc.devRef .tc b) = V (Proc.devRef .tc b) := by
  simp only [List.mem_cons, List.not_mem_nil, or_false] at hb
  rcases hb with rfl | rfl | rfl | rfl | rfl | rfl | rfl | rfl | rfl | rfl | rfl | rfl | rfl | rfl | rfl
  · exact ops_kept_arg0 V
  · exact ops_kept_arg1 V
  · exact ops_kept_arg2 V
  · exact ops_kept_arg3 V
  · exact ops_kept_arg4 V
  · exact ops_kept_arg5 V
  · exact ops_kept_arg6 V
  · exact ops_kept_arg7 V
  · exact ops_kept_arg8 V
  · exact ops_kept_arg9 V
  · exact ops_kept_arg10 V
  · exact ops_kept_arg11 V
  · exact ops_kept_arg12 V
  · exact ops_kept_arg13 V
  · exact ops_kept_arg14 V

/-- The result buffer holds the network function of the argument buffers' contents. -/
theorem ops_value (V : Valuation τ sig (Elt F)) :
    after ops V (Proc.devRef .tc main_v261)
      = Cert.Net.net D C (V (Proc.devRef .tc main_arg0)) (V (Proc.devRef .tc main_arg1)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) := by
  rw [ops_after, l4_value, l3_value, l2_value, l1_value, l0_value]
  rw [l3_kept_v1, l3_kept_v3, l3_kept_arg9, l3_kept_arg10, l3_kept_arg11, l3_kept_arg12, l3_kept_arg13, l3_kept_arg14]
  rw [l2_kept_v1, l2_kept_v3, l2_kept_arg9, l2_kept_arg10, l2_kept_arg11, l2_kept_arg12, l2_kept_arg13, l2_kept_arg14]
  rw [l1_kept_v1, l1_kept_v3, l1_kept_arg9, l1_kept_arg10, l1_kept_arg11, l1_kept_arg12, l1_kept_arg13, l1_kept_arg14]
  rw [l0_kept_v1, l0_kept_v3, l0_kept_arg9, l0_kept_arg10, l0_kept_arg11, l0_kept_arg12, l0_kept_arg13, l0_kept_arg14]
  rw [pre_kept_arg0, pre_kept_arg3, pre_kept_arg4, pre_kept_arg5, pre_kept_arg6, pre_kept_arg7, pre_kept_arg8, pre_kept_arg9, pre_kept_arg10, pre_kept_arg11, pre_kept_arg12, pre_kept_arg13, pre_kept_arg14, pre_src, pre_dst]
  rfl

/-- On every device, from any memory with zero counters: every weakly fair execution of the reference program
    terminates with the result buffer at the network function of the arguments' contents at launch, and every
    argument buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v261)
          = Cert.Net.net (F := Ideal) Cert.RefSide.D Cert.RefSide.C (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ (∀ b : Ref sig .tc, b ∈ [main_arg0, main_arg1, main_arg2, main_arg3, main_arg4, main_arg5, main_arg6, main_arg7, main_arg8, main_arg9, main_arg10, main_arg11, main_arg12, main_arg13, main_arg14] → r.2.mem ((c.tc : Thread nD τ).loc b) = m ((c.tc : Thread nD τ).loc b)) :=
  (θ_run defs _ _).mono (fun _ h c => ⟨(h c main_v261).trans (ops_value (launchContents m c)),
      fun b hb => (h c b).trans (ops_kept (launchContents m c) b hb)⟩)
    (run_main m ρ)

end Cert.RefSide

end
-- ==== Proof.lean ====
/-
  The certificate of a five-layer graph network: a kernel program whose dense arithmetic runs in twenty-row-tile regions
  against a reference written in whole-array host operations.

  Both programs cut the edge table into a source row and a destination row and then, five times, form the neighbour sum
  of the node features (a gather along the sources, a scatter-add along the destinations), add the features, apply two
  dense layers with a rectifier between, take the column means and variances of the result over all nodes, and
  normalise, scale, shift and rectify. The kernel program runs the two dense layers and the normalisation on tiles of
  5000 rows, with the matrix products into a zero accumulator after a change of float format; over the extended reals a
  change of format is the identity, a product into a zero accumulator is the plain product, and each entry of either map
  depends only on its own row of the row-indexed operands, so each tiled region leaves exactly the array the
  reference's whole-array operations compute. The neighbour sums and the statistics are the same host operations in
  both programs. No law that fails at an infinity is used: the inputs' finiteness is never opened.

  Both runs end with the result at ONE function of the argument arrays (the network function of the specification
  module), stated over each program's own dimension records, which are equal.
-/
import proofs.«110124_j41455024341694_1_alg».proof.Defs
import proofs.«110124_j41455024341694_1_alg».proof.Proof.Gen.Kernel
import proofs.«110124_j41455024341694_1_alg».proof.Proof.Gen.Kernel.Frame
import proofs.«110124_j41455024341694_1_alg».proof.Proof.Gen.KernelIdeal
import proofs.«110124_j41455024341694_1_alg».proof.Proof.Gen.KernelIdeal.Frame
import proofs.«110124_j41455024341694_1_alg».proof.Proof.Gen.ReferenceIdeal
import proofs.«110124_j41455024341694_1_alg».proof.Proof.Gen.Pre_finite_inputs
import proofs.«110124_j41455024341694_1_alg».proof.Proof.KerRun
import proofs.«110124_j41455024341694_1_alg».proof.Proof.KerValue
import proofs.«110124_j41455024341694_1_alg».proof.Proof.RefValue
import Idealize.ShloMosaic.Adequacy
import Idealize.ShloMosaic.Init

noncomputable section

namespace Cert.Proof

open Idealize.ShloMosaic Idealize.SL.Sem

/-- The two programs state the same dimension records and shape facts. -/
theorem dims_eq : Cert.KerSide.D = Cert.RefSide.D := rfl
theorem cuts_eq : Cert.KerSide.C = Cert.RefSide.C := rfl

theorem frame_k : Cert.frame_Kernel := fun m ρ _ => Cert.Kernel.Gen.frame m ρ
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c =>
    ⟨(h c).2 Cert.ReferenceIdeal.main_arg0 (by decide),
     (h c).2 Cert.ReferenceIdeal.main_arg1 (by decide),
     (h c).2 Cert.ReferenceIdeal.main_arg2 (by decide),
     (h c).2 Cert.ReferenceIdeal.main_arg3 (by decide),
     (h c).2 Cert.ReferenceIdeal.main_arg4 (by decide),
     (h c).2 Cert.ReferenceIdeal.main_arg5 (by decide),
     (h c).2 Cert.ReferenceIdeal.main_arg6 (by decide),
     (h c).2 Cert.ReferenceIdeal.main_arg7 (by decide),
     (h c).2 Cert.ReferenceIdeal.main_arg8 (by decide),
     (h c).2 Cert.ReferenceIdeal.main_arg9 (by decide),
     (h c).2 Cert.ReferenceIdeal.main_arg10 (by decide),
     (h c).2 Cert.ReferenceIdeal.main_arg11 (by decide),
     (h c).2 Cert.ReferenceIdeal.main_arg12 (by decide),
     (h c).2 Cert.ReferenceIdeal.main_arg13 (by decide),
     (h c).2 Cert.ReferenceIdeal.main_arg14 (by decide)⟩)
    (Cert.RefSide.run m ρ)

/-- The ideal pass rewrote nothing: the idealized kernel is the kernel's own text read over the extended reals. -/
theorem preserves : Cert.preserves_Kernel_KernelIdeal := trivial

/-- Both runs end with the result array at the network function of the (agreeing) argument arrays. -/
theorem algebraic : Cert.algebraic_KernelIdeal_ReferenceIdeal := by
  intro m ρ m' ρ' _ hagree
  refine ⟨fun c => Cert.Net.net (F := Ideal) Cert.KerSide.D Cert.KerSide.C
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)),
      fun c => m ((c.tc : Thread Cert.KernelIdeal.nD Cert.KernelIdeal.τ).loc Cert.KernelIdeal.main_arg2), ?_, ?_⟩
  · exact (θ_run Cert.KernelIdeal.defs _ _).mono (fun r h c =>
      ⟨(h c Cert.KernelIdeal.main_v131 (by decide)).trans (Cert.KerSide.value m ρ c),
       (h c Cert.KernelIdeal.main_arg2 (by decide)).trans (Cert.KernelIdeal.Gen.W25_main_arg2 m ρ c),
       (h c Cert.KernelIdeal.main_arg0 (by decide)).trans (Cert.KernelIdeal.Gen.W25_main_arg0 m ρ c),
       (h c Cert.KernelIdeal.main_arg1 (by decide)).trans (Cert.KernelIdeal.Gen.W25_main_arg1 m ρ c),
       (h c Cert.KernelIdeal.main_arg2 (by decide)).trans (Cert.KernelIdeal.Gen.W25_main_arg2 m ρ c),
       (h c Cert.KernelIdeal.main_arg3 (by decide)).trans (Cert.KernelIdeal.Gen.W25_main_arg3 m ρ c),
       (h c Cert.KernelIdeal.main_arg4 (by decide)).trans (Cert.KernelIdeal.Gen.W25_main_arg4 m ρ c),
       (h c Cert.KernelIdeal.main_arg5 (by decide)).trans (Cert.KernelIdeal.Gen.W25_main_arg5 m ρ c),
       (h c Cert.KernelIdeal.main_arg6 (by decide)).trans (Cert.KernelIdeal.Gen.W25_main_arg6 m ρ c),
       (h c Cert.KernelIdeal.main_arg7 (by decide)).trans (Cert.KernelIdeal.Gen.W25_main_arg7 m ρ c),
       (h c Cert.KernelIdeal.main_arg8 (by decide)).trans (Cert.KernelIdeal.Gen.W25_main_arg8 m ρ c),
       (h c Cert.KernelIdeal.main_arg9 (by decide)).trans (Cert.KernelIdeal.Gen.W25_main_arg9 m ρ c),
       (h c Cert.KernelIdeal.main_arg10 (by decide)).trans (Cert.KernelIdeal.Gen.W25_main_arg10 m ρ c),
       (h c Cert.KernelIdeal.main_arg11 (by decide)).trans (Cert.KernelIdeal.Gen.W25_main_arg11 m ρ c),
       (h c Cert.KernelIdeal.main_arg12 (by decide)).trans (Cert.KernelIdeal.Gen.W25_main_arg12 m ρ c),
       (h c Cert.KernelIdeal.main_arg13 (by decide)).trans (Cert.KernelIdeal.Gen.W25_main_arg13 m ρ c),
       (h c Cert.KernelIdeal.main_arg14 (by decide)).trans (Cert.KernelIdeal.Gen.W25_main_arg14 m ρ c)⟩)
      (Cert.KerSide.run_all m ρ)
  · refine (θ_run Cert.ReferenceIdeal.defs _ _).mono (fun r h c => ?_) (Cert.RefSide.run m' ρ')
    obtain ⟨a0, a1, a2, a3, a4, a5, a6, a7, a8, a9, a10, a11, a12, a13, a14⟩ := hagree c
    refine ⟨(h c).1.trans ?_, ((h c).2 Cert.ReferenceIdeal.main_arg2 (by decide)).trans a2,
      (h c).2 Cert.ReferenceIdeal.main_arg0 (by decide),
      (h c).2 Cert.ReferenceIdeal.main_arg1 (by decide),
      (h c).2 Cert.ReferenceIdeal.main_arg2 (by decide),
      (h c).2 Cert.ReferenceIdeal.main_arg3 (by decide),
      (h c).2 Cert.ReferenceIdeal.main_arg4 (by decide),
      (h c).2 Cert.ReferenceIdeal.main_arg5 (by decide),
      (h c).2 Cert.ReferenceIdeal.main_arg6 (by decide),
      (h c).2 Cert.ReferenceIdeal.main_arg7 (by decide),
      (h c).2 Cert.ReferenceIdeal.main_arg8 (by decide),
      (h c).2 Cert.ReferenceIdeal.main_arg9 (by decide),
      (h c).2 Cert.ReferenceIdeal.main_arg10 (by decide),
      (h c).2 Cert.ReferenceIdeal.main_arg11 (by decide),
      (h c).2 Cert.ReferenceIdeal.main_arg12 (by decide),
      (h c).2 Cert.ReferenceIdeal.main_arg13 (by decide),
      (h c).2 Cert.ReferenceIdeal.main_arg14 (by decide)⟩
    rw [a0, a1, a3, a4, a5, a6, a7, a8, a9, a10, a11, a12, a13, a14, dims_eq, cuts_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
